-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2x257x257 : Shape := ⟨4, ![256, 2, 257, 257]⟩
abbrev S256x1x256x256 : Shape := ⟨4, ![256, 1, 256, 256]⟩
abbrev S_ : Shape := ⟨0, ![]⟩

class Facts : Prop where
  bcast_S_S256x2x257x257 : S_.BroadcastsInDim S256x2x257x257 (![] : Fin 0 → Fin S256x2x257x257.rank)
  reducesTo_S256x2x257x257_S_d0_1_2_3 : S256x2x257x257.ReducesTo [0, 1, 2, 3] S_
  h_S_ : 0 < S_.numel
  bcast_S_S256x1x256x256 : S_.BroadcastsInDim S256x1x256x256 (![] : Fin 0 → Fin S256x1x256x256.rank)
  reducesTo_S256x1x256x256_S_d0_1_2_3 : S256x1x256x256.ReducesTo [0, 1, 2, 3] S_

variable [Facts]

def fn_part1 {F : FTy → Type} [FloatOps F] (main_v13 : IVec S_ 1) (main_v16 : IVec S256x1x256x256 1) : IVec S_ 1 :=
  let main_c_5 : IVec S_ 1 := constantI S_ 1 1#1
  let main_v17 : IVec S_ 1 := (fun x v => Host.reduce IntOp.andi x v reducesTo_S256x1x256x256_S_d0_1_2_3 h_S_) main_v16 main_c_5
  let main_v18 : IVec S_ 1 := andi main_v13 main_v17
  main_v18

def fn {F : FTy → Type} [FloatOps F] (main_arg0 : FVec F S256x2x257x257 .f32) (main_arg1 : FVec F S256x2x257x257 .f32) (main_arg2 : FVec F S256x2x257x257 .f32) (main_arg3 : FVec F S256x1x256x256 .f32) : IVec S_ 1 :=
  let main_v0 : FVec F S256x2x257x257 .f32 := Host.absf main_arg0
  let main_cst : FVec F S_ .f32 := constant S_ .f32 0x7F800000#32
  let main_v1 : FVec F S256x2x257x257 .f32 := broadcastInDim S256x2x257x257 ![] bcast_S_S256x2x257x257 main_cst
  let main_v2 : IVec S256x2x257x257 1 := cmpf .olt main_v0 main_v1
  let main_c : IVec S_ 1 := constantI S_ 1 1#1
  let main_v3 : IVec S_ 1 := (fun x v => Host.reduce IntOp.andi x v reducesTo_S256x2x257x257_S_d0_1_2_3 h_S_) main_v2 main_c
  let main_v4 : FVec F S256x2x257x257 .f32 := Host.absf main_arg1
  let main_cst_0 : FVec F S_ .f32 := constant S_ .f32 0x7F800000#32
  let main_v5 : FVec F S256x2x257x257 .f32 := broadcastInDim S256x2x257x257 ![] bcast_S_S256x2x257x257 main_cst_0
  let main_v6 : IVec S256x2x257x257 1 := cmpf .olt main_v4 main_v5
  let main_c_1 : IVec S_ 1 := constantI S_ 1 1#1
  let main_v7 : IVec S_ 1 := (fun x v => Host.reduce IntOp.andi x v reducesTo_S256x2x257x257_S_d0_1_2_3 h_S_) main_v6 main_c_1
  let main_v8 : IVec S_ 1 := andi main_v3 main_v7
  let main_v9 : FVec F S256x2x257x257 .f32 := Host.absf main_arg2
  let main_cst_2 : FVec F S_ .f32 := constant S_ .f32 0x7F800000#32
  let main_v10 : FVec F S256x2x257x257 .f32 := broadcastInDim S256x2x257x257 ![] bcast_S_S256x2x257x257 main_cst_2
  let main_v11 : IVec S256x2x257x257 1 := cmpf .olt main_v9 main_v10
  let main_c_3 : IVec S_ 1 := constantI S_ 1 1#1
  let main_v12 : IVec S_ 1 := (fun x v => Host.reduce IntOp.andi x v reducesTo_S256x2x257x257_S_d0_1_2_3 h_S_) main_v11 main_c_3
  let main_v13 : IVec S_ 1 := andi main_v8 main_v12
  let main_v14 : FVec F S256x1x256x256 .f32 := Host.absf main_arg3
  let main_cst_4 : FVec F S_ .f32 := constant S_ .f32 0x7F800000#32
  let main_v15 : FVec F S256x1x256x256 .f32 := broadcastInDim S256x1x256x256 ![] bcast_S_S256x1x256x256 main_cst_4
  let main_v16 : IVec S256x1x256x256 1 := cmpf .olt main_v14 main_v15
  fn_part1 (F := F) main_v13 main_v16
-- ==== Kernel.lean ====
abbrev S256x2x257x257 : Shape := ⟨4, ![256, 2, 257, 257]⟩
abbrev S256x1x256x256 : Shape := ⟨4, ![256, 1, 256, 256]⟩
abbrev S2048x128 : Shape := ⟨2, ![2048, 128]⟩
abbrev S1x2x257x257 : Shape := ⟨4, ![1, 2, 257, 257]⟩
abbrev S1x1x256x256 : Shape := ⟨4, ![1, 1, 256, 256]⟩
abbrev S8x128 : Shape := ⟨2, ![8, 128]⟩
abbrev S2x257x257 : Shape := ⟨3, ![2, 257, 257]⟩
abbrev S257x257 : Shape := ⟨2, ![257, 257]⟩
abbrev S257 : Shape := ⟨1, ![257]⟩
abbrev S1x257 : Shape := ⟨2, ![1, 257]⟩
abbrev S1 : Shape := ⟨1, ![1]⟩
abbrev S1x1 : Shape := ⟨2, ![1, 1]⟩
abbrev S1x2x256x256 : Shape := ⟨4, ![1, 2, 256, 256]⟩
abbrev S1x256x256 : Shape := ⟨3, ![1, 256, 256]⟩
abbrev S256x256 : Shape := ⟨2, ![256, 256]⟩
abbrev S256 : Shape := ⟨1, ![256]⟩
abbrev S1x256 : Shape := ⟨2, ![1, 256]⟩
abbrev S1x1x257x257 : Shape := ⟨4, ![1, 1, 257, 257]⟩
abbrev S1x257x257 : Shape := ⟨3, ![1, 257, 257]⟩
abbrev S1x1x255x256 : Shape := ⟨4, ![1, 1, 255, 256]⟩
abbrev S1x1x1x256 : Shape := ⟨4, ![1, 1, 1, 256]⟩
abbrev S1x1x256x255 : Shape := ⟨4, ![1, 1, 256, 255]⟩
abbrev S1x1x256x1 : Shape := ⟨4, ![1, 1, 256, 1]⟩
abbrev S1x6 : Shape := ⟨2, ![1, 6]⟩
abbrev S1x122 : Shape := ⟨2, ![1, 122]⟩
abbrev S1x128 : Shape := ⟨2, ![1, 128]⟩
abbrev S7x128 : Shape := ⟨2, ![7, 128]⟩
abbrev S_ : Shape := ⟨0, ![]⟩
abbrev S128 : Shape := ⟨1, ![128]⟩
abbrev S10 : Shape := ⟨1, ![10]⟩

abbrev nBuf : Space → Nat
  | .hbm => 49
  | .vmem => 10
  | .smem => 0
  | _ => 0

abbrev bufTy : (tb : Table) → Fin (tcTables nBuf tb) → BufTy
  | .hbm, ⟨0, _⟩ => ⟨S256x2x257x257, .f32⟩
  | .hbm, ⟨1, _⟩ => ⟨S256x2x257x257, .f32⟩
  | .hbm, ⟨2, _⟩ => ⟨S256x2x257x257, .f32⟩
  | .hbm, ⟨3, _⟩ => ⟨S256x1x256x256, .f32⟩
  | .hbm, ⟨4, _⟩ => ⟨S2048x128, .f32⟩
  | .hbm, ⟨5, _⟩ => ⟨S_, .f32⟩
  | .hbm, ⟨6, _⟩ => ⟨S128, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S1, .f32⟩
  | .hbm, ⟨47, _⟩ => ⟨S1, .f32⟩
  | .hbm, ⟨48, _⟩ => ⟨S10, .f32⟩
  | .local _ .vmem, ⟨0, _⟩ => ⟨S1x2x257x257, .f32⟩
  | .local _ .vmem, ⟨1, _⟩ => ⟨S1x2x257x257, .f32⟩
  | .local _ .vmem, ⟨2, _⟩ => ⟨S1x2x257x257, .f32⟩
  | .local _ .vmem, ⟨3, _⟩ => ⟨S1x2x257x257, .f32⟩
  | .local _ .vmem, ⟨4, _⟩ => ⟨S1x2x257x257, .f32⟩
  | .local _ .vmem, ⟨5, _⟩ => ⟨S1x2x257x257, .f32⟩
  | .local _ .vmem, ⟨6, _⟩ => ⟨S1x1x256x256, .f32⟩
  | .local _ .vmem, ⟨7, _⟩ => ⟨S1x1x256x256, .f32⟩
  | .local _ .vmem, ⟨8, _⟩ => ⟨S8x128, .f32⟩
  | .local _ .vmem, ⟨9, _⟩ => ⟨S8x128, .f32⟩
  | _, _ => ⟨S256x2x257x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2x257x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x257x257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x257x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x2x257x257_S1x2x257x257_0_0_0_0 : ∀ a, (![0, 0, 0, 0] : Fin 4 → Nat) a + S1x2x257x257.size a ≤ S1x2x257x257.size a
  h_S1x2x257x257 : 0 < S1x2x257x257.numel
  inb_S1x1x256x256_S1x1x256x256_0_0_0_0 : ∀ a, (![0, 0, 0, 0] : Fin 4 → Nat) a + S1x1x256x256.size a ≤ S1x1x256x256.size a
  h_S1x1x256x256 : 0 < S1x1x256x256.numel
  reduces_S1x2x257x257_S2x257x257 : S1x2x257x257.Reduces [0] S2x257x257
  reduces_S2x257x257_S257x257 : S2x257x257.Reduces [0] S257x257
  reduces_S257x257_S257 : S257x257.Reduces [1] S257
  shapeCasts_S257_S1x257 : S257.ShapeCasts S1x257
  reduces_S1x257_S1 : S1x257.Reduces [1] S1
  shapeCasts_S1_S1x1 : S1.ShapeCasts S1x1
  inpos_S1x1_p0_0 : ∀ a, (![0, 0] : Fin 2 → Nat) a < S1x1.size a
  slices_S1x2x257x257_o0_0_0_1_S1x2x256x256 : S1x2x257x257.Slices ![0, 0, 0, 1] S1x2x256x256
  slices_S1x2x257x257_o0_0_1_1_S1x2x256x256 : S1x2x257x257.Slices ![0, 0, 1, 1] S1x2x256x256
  slices_S1x2x257x257_o0_0_0_0_S1x2x256x256 : S1x2x257x257.Slices ![0, 0, 0, 0] S1x2x256x256
  slices_S1x2x257x257_o0_0_1_0_S1x2x256x256 : S1x2x257x257.Slices ![0, 0, 1, 0] S1x2x256x256
  slices_S1x2x256x256_o0_0_0_0_S1x1x256x256 : S1x2x256x256.Slices ![0, 0, 0, 0] S1x1x256x256
  shapeCasts_S1x1x256x256_S1x256x256 : S1x1x256x256.ShapeCasts S1x256x256
  slices_S1x2x256x256_o0_1_0_0_S1x1x256x256 : S1x2x256x256.Slices ![0, 1, 0, 0] S1x1x256x256
  reduces_S1x256x256_S256x256 : S1x256x256.Reduces [0] S256x256
  reduces_S256x256_S256 : S256x256.Reduces [1] S256
  shapeCasts_S256_S1x256 : S256.ShapeCasts S1x256
  reduces_S1x256_S1 : S1x256.Reduces [1] S1
  slices_S1x2x257x257_o0_0_0_0_S1x1x257x257 : S1x2x257x257.Slices ![0, 0, 0, 0] S1x1x257x257
  shapeCasts_S1x1x257x257_S1x257x257 : S1x1x257x257.ShapeCasts S1x257x257
  slices_S1x2x257x257_o0_1_0_0_S1x1x257x257 : S1x2x257x257.Slices ![0, 1, 0, 0] S1x1x257x257
  reduces_S1x257x257_S257x257 : S1x257x257.Reduces [0] S257x257
  slices_S1x2x257x257_o0_0_1_1_S1x1x255x256 : S1x2x257x257.Slices ![0, 0, 1, 1] S1x1x255x256
  slices_S1x2x257x257_o0_0_1_0_S1x1x255x256 : S1x2x257x257.Slices ![0, 0, 1, 0] S1x1x255x256
  slices_S1x1x256x256_o0_0_0_0_S1x1x255x256 : S1x1x256x256.Slices ![0, 0, 0, 0] S1x1x255x256
  slices_S1x1x256x256_o0_0_1_0_S1x1x255x256 : S1x1x256x256.Slices ![0, 0, 1, 0] S1x1x255x256
  concatenates_S1x1x1x256_S1x1x255x256_S1x1x256x256_d2 : Shape.Concatenates [S1x1x1x256, S1x1x255x256] S1x1x256x256 2
  concatenates_S1x1x255x256_S1x1x1x256_S1x1x256x256_d2 : Shape.Concatenates [S1x1x255x256, S1x1x1x256] S1x1x256x256 2
  slices_S1x2x257x257_o0_1_1_1_S1x1x256x255 : S1x2x257x257.Slices ![0, 1, 1, 1] S1x1x256x255
  slices_S1x2x257x257_o0_1_0_1_S1x1x256x255 : S1x2x257x257.Slices ![0, 1, 0, 1] S1x1x256x255
  slices_S1x1x256x256_o0_0_0_0_S1x1x256x255 : S1x1x256x256.Slices ![0, 0, 0, 0] S1x1x256x255
  slices_S1x1x256x256_o0_0_0_1_S1x1x256x255 : S1x1x256x256.Slices ![0, 0, 0, 1] S1x1x256x255
  concatenates_S1x1x256x1_S1x1x256x255_S1x1x256x256_d3 : Shape.Concatenates [S1x1x256x1, S1x1x256x255] S1x1x256x256 3
  concatenates_S1x1x256x255_S1x1x256x1_S1x1x256x256_d3 : Shape.Concatenates [S1x1x256x255, S1x1x256x1] S1x1x256x256 3
  reduces_S1x1x256x256_S1x256x256 : S1x1x256x256.Reduces [0] S1x256x256
  concatenates_S1x1_S1x1_S1x1_S1x1_S1x1_S1x1_S1x6_d1 : Shape.Concatenates [S1x1, S1x1, S1x1, S1x1, S1x1, S1x1] S1x6 1
  concatenates_S1x6_S1x122_S1x128_d1 : Shape.Concatenates [S1x6, S1x122] S1x128 1
  concatenates_S1x128_S7x128_S8x128_d0 : Shape.Concatenates [S1x128, S7x128] S8x128 0
  inb_S8x128_S8x128_0_0 : ∀ a, (![0, 0] : Fin 2 → Nat) a + S8x128.size a ≤ S8x128.size a
  h_S8x128 : 0 < S8x128.numel
  reducesTo_S2048x128_S128_d0 : S2048x128.ReducesTo [0] S128
  h_S_ : 0 < S_.numel
  slices_S128_S1_0 : S128.Slices ![0] S1
  shapeCasts_S1_S_ : S1.ShapeCasts S_
  slices_S128_S1_1 : S128.Slices ![1] S1
  slices_S128_S1_2 : S128.Slices ![2] S1
  slices_S128_S1_3 : S128.Slices ![3] S1
  slices_S128_S1_4 : S128.Slices ![4] S1
  slices_S128_S1_5 : S128.Slices ![5] S1
  bcast_S_S1 : S_.BroadcastsInDim S1 (![] : Fin 0 → Fin S1.rank)
  concatenates_S1_S1_S1_S1_S1_S1_S1_S1_S1_S1_S10_d0 : Shape.Concatenates [S1, S1, S1, S1, S1, S1, S1, S1, S1, S1] S10 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x257x257.size a ≤ S256x2x257x257.size a
  hwx0_0 : ∀ i : grid0.Coords, EltTy.bits .f32 = 32 ∨ (Rect.block (s := S256x2x257x257) S1x2x257x257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x257x257.size a ≤ S256x2x257x257.size a
  hwx0_1 : ∀ i : grid0.Coords, EltTy.bits .f32 = 32 ∨ (Rect.block (s := S256x2x257x257) S1x2x257x257.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x257x257.size a ≤ S256x2x257x257.size a
  hwx0_2 : ∀ i : grid0.Coords, EltTy.bits .f32 = 32 ∨ (Rect.block (s := S256x2x257x257) S1x2x257x257.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x256.size a ≤ S256x1x256x256.size a
  hwx0_3 : ∀ i : grid0.Coords, EltTy.bits .f32 = 32 ∨ (Rect.block (s := S256x1x256x256) S1x1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S2048x128.size a
  hwx0_4 : ∀ i : grid0.Coords, EltTy.bits .f32 = 32 ∨ (Rect.block (s := S2048x128) S8x128.size (cc0_transform_4 i) (hinb0_4 i)).WholeWords (EltTy.packing .f32)

variable [Facts₀]

abbrev win0_0 : Pipeline.Window sig grid0 :=
  Pipeline.Window.ofSpec (Memref.whole main_arg0) S1x2x257x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x257x257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x257x257.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x2x257x257 : Shape := ⟨4, ![256, 2, 257, 257]⟩
abbrev S256x1x256x256 : Shape := ⟨4, ![256, 1, 256, 256]⟩
abbrev S_ : Shape := ⟨0, ![]⟩
abbrev S256x2x256x256 : Shape := ⟨4, ![256, 2, 256, 256]⟩
abbrev S256x256x256 : Shape := ⟨3, ![256, 256, 256]⟩
abbrev S256x257x257 : Shape := ⟨3, ![256, 257, 257]⟩
abbrev S256x1x255x256 : Shape := ⟨4, ![256, 1, 255, 256]⟩
abbrev S1 : Shape := ⟨1, ![1]⟩
abbrev S256x1x256x255 : Shape := ⟨4, ![256, 1, 256, 255]⟩
abbrev S10 : Shape := ⟨1, ![10]⟩

abbrev nBuf : Space → Nat
  | .hbm => 260
  | .vmem => 0
  | .smem => 0
  | _ => 0

abbrev hbmTy0_0 (i : Nat) : BufTy := match i % 128 with
  | 0 => ⟨S256x2x257x257, .f32⟩
  | 1 => ⟨S256x2x257x257, .f32⟩
  | 2 => ⟨S256x2x257x257, .f32⟩
  | 3 => ⟨S256x1x256x256, .f32⟩
  | 4 => ⟨S256x2x257x257, .f32⟩
  | 5 => ⟨S256x2x257x257, .f32⟩
  | 6 => ⟨S_, .f32⟩
  | 7 => ⟨S_, .f32⟩
  | 8 => ⟨S_, .f32⟩
  | 9 => ⟨S_, .f32⟩
  | 10 => ⟨S256x2x257x257, .f32⟩
  | 11 => ⟨S_, .f32⟩
  | 12 => ⟨S_, .f32⟩
  | 13 => ⟨S_, .f32⟩
  | 14 => ⟨S_, .f32⟩
  | 15 => ⟨S256x2x257x257, .f32⟩
  | 16 => ⟨S256x2x256x256, .f32⟩
  | 17 => ⟨S256x2x256x256, .f32⟩
  | 18 => ⟨S256x2x256x256, .f32⟩
  | 19 => ⟨S256x2x256x256, .f32⟩
  | 20 => ⟨S256x2x256x256, .f32⟩
  | 21 => ⟨S256x2x256x256, .f32⟩
  | 22 => ⟨S256x2x256x256, .f32⟩
  | 23 => ⟨S_, .f32⟩
  | 24 => ⟨S256x2x256x256, .f32⟩
  | 25 => ⟨S256x2x256x256, .f32⟩
  | 26 => ⟨S_, .f32⟩
  | 27 => ⟨S256x2x256x256, .f32⟩
  | 28 => ⟨S256x2x256x256, .f32⟩
  | 29 => ⟨S256x2x256x256, .f32⟩
  | 30 => ⟨S256x2x256x256, .f32⟩
  | 31 => ⟨S256x2x256x256, .f32⟩
  | 32 => ⟨S256x2x256x256, .f32⟩
  | 33 => ⟨S256x2x256x256, .f32⟩
  | 34 => ⟨S256x2x256x256, .f32⟩
  | 35 => ⟨S256x2x256x256, .f32⟩
  | 36 => ⟨S_, .f32⟩
  | 37 => ⟨S256x2x256x256, .f32⟩
  | 38 => ⟨S256x2x256x256, .f32⟩
  | 39 => ⟨S_, .f32⟩
  | 40 => ⟨S256x2x256x256, .f32⟩
  | 41 => ⟨S256x2x256x256, .f32⟩
  | 42 => ⟨S256x1x256x256, .f32⟩
  | 43 => ⟨S256x256x256, .f32⟩
  | 44 => ⟨S256x256x256, .f32⟩
  | 45 => ⟨S256x1x256x256, .f32⟩
  | 46 => ⟨S256x256x256, .f32⟩
  | 47 => ⟨S256x1x256x256, .f32⟩
  | 48 => ⟨S256x256x256, .f32⟩
  | 49 => ⟨S256x256x256, .f32⟩
  | 50 => ⟨S256x256x256, .f32⟩
  | 51 => ⟨S_, .f32⟩
  | 52 => ⟨S256x256x256, .f32⟩
  | 53 => ⟨S256x256x256, .f32⟩
  | 54 => ⟨S256x256x256, .f32⟩
  | 55 => ⟨S256x1x256x256, .f32⟩
  | 56 => ⟨S256x256x256, .f32⟩
  | 57 => ⟨S256x256x256, .f32⟩
  | 58 => ⟨S256x256x256, .f32⟩
  | 59 => ⟨S_, .f32⟩
  | 60 => ⟨S_, .f32⟩
  | 61 => ⟨S_, .f32⟩
  | 62 => ⟨S_, .f32⟩
  | 63 => ⟨S256x2x257x257, .f32⟩
  | 64 => ⟨S256x2x257x257, .f32⟩
  | 65 => ⟨S_, .f32⟩
  | 66 => ⟨S256x257x257, .f32⟩
  | 67 => ⟨S256x257x257, .f32⟩
  | 68 => ⟨S256x2x257x257, .f32⟩
  | 69 => ⟨S256x2x257x257, .f32⟩
  | 70 => ⟨S_, .f32⟩
  | 71 => ⟨S256x257x257, .f32⟩
  | 72 => ⟨S256x257x257, .f32⟩
  | 73 => ⟨S_, .f32⟩
  | 74 => ⟨S256x257x257, .f32⟩
  | 75 => ⟨S256x257x257, .f32⟩
  | 76 => ⟨S256x257x257, .f32⟩
  | 77 => ⟨S_, .f32⟩
  | 78 => ⟨S_, .f32⟩
  | 79 => ⟨S_, .f32⟩
  | 80 => ⟨S_, .f32⟩
  | 81 => ⟨S256x2x257x257, .f32⟩
  | 82 => ⟨S256x2x257x257, .f32⟩
  | 83 => ⟨S_, .f32⟩
  | 84 => ⟨S256x257x257, .f32⟩
  | 85 => ⟨S256x257x257, .f32⟩
  | 86 => ⟨S256x2x257x257, .f32⟩
  | 87 => ⟨S_, .f32⟩
  | 88 => ⟨S256x257x257, .f32⟩
  | 89 => ⟨S256x257x257, .f32⟩
  | 90 => ⟨S_, .f32⟩
  | 91 => ⟨S256x257x257, .f32⟩
  | 92 => ⟨S256x257x257, .f32⟩
  | 93 => ⟨S256x257x257, .f32⟩
  | 94 => ⟨S_, .f32⟩
  | 95 => ⟨S_, .f32⟩
  | 96 => ⟨S_, .f32⟩
  | 97 => ⟨S_, .f32⟩
  | 98 => ⟨S256x2x257x257, .f32⟩
  | 99 => ⟨S_, .f32⟩
  | 100 => ⟨S256x2x257x257, .f32⟩
  | 101 => ⟨S256x2x257x257, .f32⟩
  | 102 => ⟨S256x1x255x256, .f32⟩
  | 103 => ⟨S256x1x255x256, .f32⟩
  | 104 => ⟨S256x1x255x256, .f32⟩
  | 105 => ⟨S_, .f32⟩
  | 106 => ⟨S256x1x255x256, .f32⟩
  | 107 => ⟨S256x1x255x256, .f32⟩
  | 108 => ⟨S_, .f32⟩
  | 109 => ⟨S256x1x255x256, .f32⟩
  | 110 => ⟨S256x1x255x256, .f32⟩
  | 111 => ⟨S256x1x255x256, .f32⟩
  | 112 => ⟨S256x1x255x256, .f32⟩
  | 113 => ⟨S_, .f32⟩
  | 114 => ⟨S256x1x255x256, .f32⟩
  | 115 => ⟨S256x1x255x256, .f32⟩
  | 116 => ⟨S256x1x255x256, .f32⟩
  | 117 => ⟨S_, .f32⟩
  | 118 => ⟨S256x1x255x256, .f32⟩
  | 119 => ⟨S256x1x255x256, .f32⟩
  | 120 => ⟨S256x1x255x256, .f32⟩
  | 121 => ⟨S256x1x255x256, .f32⟩
  | 122 => ⟨S_, .f32⟩
  | 123 => ⟨S256x1x255x256, .f32⟩
  | 124 => ⟨S256x1x255x256, .f32⟩
  | 125 => ⟨S_, .f32⟩
  | 126 => ⟨S256x1x256x256, .f32⟩
  | 127 => ⟨S256x1x255x256, .f32⟩
  | _ => ⟨S256x2x257x257, .f32⟩

abbrev hbmTy0_1 (i : Nat) : BufTy := match i % 128 with
  | 0 => ⟨S_, .i32⟩
  | 1 => ⟨S1, .i32⟩
  | 2 => ⟨S256x1x256x256, .f32⟩
  | 3 => ⟨S256x1x255x256, .f32⟩
  | 4 => ⟨S_, .i32⟩
  | 5 => ⟨S1, .i32⟩
  | 6 => ⟨S256x1x256x256, .f32⟩
  | 7 => ⟨S256x1x256x255, .f32⟩
  | 8 => ⟨S256x1x256x255, .f32⟩
  | 9 => ⟨S256x1x256x255, .f32⟩
  | 10 => ⟨S_, .f32⟩
  | 11 => ⟨S256x1x256x255, .f32⟩
  | 12 => ⟨S256x1x256x255, .f32⟩
  | 13 => ⟨S_, .f32⟩
  | 14 => ⟨S256x1x256x255, .f32⟩
  | 15 => ⟨S256x1x256x255, .f32⟩
  | 16 => ⟨S256x1x256x255, .f32⟩
  | 17 => ⟨S256x1x256x255, .f32⟩
  | 18 => ⟨S_, .f32⟩
  | 19 => ⟨S256x1x256x255, .f32⟩
  | 20 => ⟨S256x1x256x255, .f32⟩
  | 21 => ⟨S256x1x256x255, .f32⟩
  | 22 => ⟨S_, .f32⟩
  | 23 => ⟨S256x1x256x255, .f32⟩
  | 24 => ⟨S256x1x256x255, .f32⟩
  | 25 => ⟨S256x1x256x255, .f32⟩
  | 26 => ⟨S256x1x256x255, .f32⟩
  | 27 => ⟨S_, .f32⟩
  | 28 => ⟨S256x1x256x255, .f32⟩
  | 29 => ⟨S256x1x256x255, .f32⟩
  | 30 => ⟨S256x1x256x255, .f32⟩
  | 31 => ⟨S_, .i32⟩
  | 32 => ⟨S1, .i32⟩
  | 33 => ⟨S256x1x256x256, .f32⟩
  | 34 => ⟨S256x1x256x255, .f32⟩
  | 35 => ⟨S_, .i32⟩
  | 36 => ⟨S1, .i32⟩
  | 37 => ⟨S256x1x256x256, .f32⟩
  | 38 => ⟨S256x1x256x256, .f32⟩
  | 39 => ⟨S256x2x257x257, .f32⟩
  | 40 => ⟨S_, .f32⟩
  | 41 => ⟨S256x2x257x257, .f32⟩
  | 42 => ⟨S256x2x257x257, .f32⟩
  | 43 => ⟨S256x1x255x256, .f32⟩
  | 44 => ⟨S256x1x255x256, .f32⟩
  | 45 => ⟨S256x1x255x256, .f32⟩
  | 46 => ⟨S_, .f32⟩
  | 47 => ⟨S256x1x255x256, .f32⟩
  | 48 => ⟨S256x1x255x256, .f32⟩
  | 49 => ⟨S_, .f32⟩
  | 50 => ⟨S256x1x255x256, .f32⟩
  | 51 => ⟨S256x1x255x256, .f32⟩
  | 52 => ⟨S256x1x255x256, .f32⟩
  | 53 => ⟨S256x1x255x256, .f32⟩
  | 54 => ⟨S_, .f32⟩
  | 55 => ⟨S256x1x255x256, .f32⟩
  | 56 => ⟨S256x1x255x256, .f32⟩
  | 57 => ⟨S256x1x255x256, .f32⟩
  | 58 => ⟨S_, .f32⟩
  | 59 => ⟨S256x1x255x256, .f32⟩
  | 60 => ⟨S256x1x255x256, .f32⟩
  | 61 => ⟨S256x1x255x256, .f32⟩
  | 62 => ⟨S256x1x255x256, .f32⟩
  | 63 => ⟨S_, .f32⟩
  | 64 => ⟨S256x1x255x256, .f32⟩
  | 65 => ⟨S256x1x255x256, .f32⟩
  | 66 => ⟨S_, .f32⟩
  | 67 => ⟨S256x1x256x256, .f32⟩
  | 68 => ⟨S256x1x255x256, .f32⟩
  | 69 => ⟨S_, .i32⟩
  | 70 => ⟨S1, .i32⟩
  | 71 => ⟨S256x1x256x256, .f32⟩
  | 72 => ⟨S256x1x255x256, .f32⟩
  | 73 => ⟨S_, .i32⟩
  | 74 => ⟨S1, .i32⟩
  | 75 => ⟨S256x1x256x256, .f32⟩
  | 76 => ⟨S256x1x256x255, .f32⟩
  | 77 => ⟨S256x1x256x255, .f32⟩
  | 78 => ⟨S256x1x256x255, .f32⟩
  | 79 => ⟨S_, .f32⟩
  | 80 => ⟨S256x1x256x255, .f32⟩
  | 81 => ⟨S256x1x256x255, .f32⟩
  | 82 => ⟨S_, .f32⟩
  | 83 => ⟨S256x1x256x255, .f32⟩
  | 84 => ⟨S256x1x256x255, .f32⟩
  | 85 => ⟨S256x1x256x255, .f32⟩
  | 86 => ⟨S256x1x256x255, .f32⟩
  | 87 => ⟨S_, .f32⟩
  | 88 => ⟨S256x1x256x255, .f32⟩
  | 89 => ⟨S256x1x256x255, .f32⟩
  | 90 => ⟨S256x1x256x255, .f32⟩
  | 91 => ⟨S_, .f32⟩
  | 92 => ⟨S256x1x256x255, .f32⟩
  | 93 => ⟨S256x1x256x255, .f32⟩
  | 94 => ⟨S256x1x256x255, .f32⟩
  | 95 => ⟨S256x1x256x255, .f32⟩
  | 96 => ⟨S_, .f32⟩
  | 97 => ⟨S256x1x256x255, .f32⟩
  | 98 => ⟨S256x1x256x255, .f32⟩
  | 99 => ⟨S256x1x256x255, .f32⟩
  | 100 => ⟨S_, .i32⟩
  | 101 => ⟨S1, .i32⟩
  | 102 => ⟨S256x1x256x256, .f32⟩
  | 103 => ⟨S256x1x256x255, .f32⟩
  | 104 => ⟨S_, .i32⟩
  | 105 => ⟨S1, .i32⟩
  | 106 => ⟨S256x1x256x256, .f32⟩
  | 107 => ⟨S256x1x256x256, .f32⟩
  | 108 => ⟨S256x1x256x256, .f32⟩
  | 109 => ⟨S256x1x256x256, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S1, .f32⟩
  | 122 => ⟨S1, .f32⟩
  | 123 => ⟨S1, .f32⟩
  | 124 => ⟨S1, .f32⟩
  | 125 => ⟨S1, .f32⟩
  | 126 => ⟨S1, .f32⟩
  | 127 => ⟨S1, .f32⟩
  | _ => ⟨S256x2x257x257, .f32⟩

abbrev hbmTy0_2 (i : Nat) : BufTy := match i % 128 with
  | 0 => ⟨S1, .f32⟩
  | 1 => ⟨S1, .f32⟩
  | 2 => ⟨S1, .f32⟩
  | 3 => ⟨S10, .f32⟩
  | _ => ⟨S256x2x257x257, .f32⟩

abbrev hbmTy (i : Nat) : BufTy := match i / 128 with
  | 0 => hbmTy0_0 i
  | 1 => hbmTy0_1 i
  | 2 => hbmTy0_2 i
  | _ => ⟨S256x2x257x257, .f32⟩

abbrev bufTy : (tb : Table) → Fin (tcTables nBuf tb) → BufTy
  | .hbm, ⟨i, _⟩ => hbmTy i
  | _, _ => ⟨S256x2x257x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_call0_v0 : Ref sig .tc := ⟨.hbm, 64, rfl⟩
abbrev main_call0_cst : Ref sig .tc := ⟨.hbm, 65, rfl⟩
abbrev main_call0_v1 : Ref sig .tc := ⟨.hbm, 66, rfl⟩
abbrev main_v49 : Ref sig .tc := ⟨.hbm, 67, rfl⟩
abbrev main_v50 : Ref sig .tc := ⟨.hbm, 68, rfl⟩
abbrev main_call1_v0 : Ref sig .tc := ⟨.hbm, 69, rfl⟩
abbrev main_call1_cst : Ref sig .tc := ⟨.hbm, 70, rfl⟩
abbrev main_call1_v1 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_call2_v0 : Ref sig .tc := ⟨.hbm, 82, rfl⟩
abbrev main_call2_cst : Ref sig .tc := ⟨.hbm, 83, rfl⟩
abbrev main_call2_v1 : Ref sig .tc := ⟨.hbm, 84, rfl⟩
abbrev main_v58 : Ref sig .tc := ⟨.hbm, 85, rfl⟩
abbrev main_call3_v0 : Ref sig .tc := ⟨.hbm, 86, rfl⟩
abbrev main_call3_cst : Ref sig .tc := ⟨.hbm, 87, rfl⟩
abbrev main_call3_v1 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_cst_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_17 : Ref sig .tc := ⟨.hbm, 105, rfl⟩
abbrev main_v71 : Ref sig .tc := ⟨.hbm, 106, rfl⟩
abbrev main_v72 : Ref sig .tc := ⟨.hbm, 107, rfl⟩
abbrev main_call4_cst : Ref sig .tc := ⟨.hbm, 108, rfl⟩
abbrev main_call4_v0 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call5_cst : Ref sig .tc := ⟨.hbm, 117, rfl⟩
abbrev main_call5_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_19 : Ref sig .tc := ⟨.hbm, 122, rfl⟩
abbrev main_v82 : Ref sig .tc := ⟨.hbm, 123, rfl⟩
abbrev main_v83 : Ref sig .tc := ⟨.hbm, 124, rfl⟩
abbrev main_cst_20 : Ref sig .tc := ⟨.hbm, 125, rfl⟩
abbrev main_v84 : Ref sig .tc := ⟨.hbm, 126, rfl⟩
abbrev main_v85 : Ref sig .tc := ⟨.hbm, 127, rfl⟩
abbrev main_c : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_21 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_22 : Ref sig .tc := ⟨.hbm, 138, rfl⟩
abbrev main_v94 : Ref sig .tc := ⟨.hbm, 139, rfl⟩
abbrev main_v95 : Ref sig .tc := ⟨.hbm, 140, rfl⟩
abbrev main_call6_cst : Ref sig .tc := ⟨.hbm, 141, rfl⟩
abbrev main_call6_v0 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_23 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_call7_cst : Ref sig .tc := ⟨.hbm, 150, rfl⟩
abbrev main_call7_v0 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_24 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_25 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_c_26 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_27 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_28 : Ref sig .tc := ⟨.hbm, 174, rfl⟩
abbrev main_v120 : Ref sig .tc := ⟨.hbm, 175, rfl⟩
abbrev main_v121 : Ref sig .tc := ⟨.hbm, 176, rfl⟩
abbrev main_call8_cst : Ref sig .tc := ⟨.hbm, 177, rfl⟩
abbrev main_call8_v0 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_29 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_call9_cst : Ref sig .tc := ⟨.hbm, 186, rfl⟩
abbrev main_call9_v0 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_30 : Ref sig .tc := ⟨.hbm, 191, rfl⟩
abbrev main_v131 : Ref sig .tc := ⟨.hbm, 192, rfl⟩
abbrev main_v132 : Ref sig .tc := ⟨.hbm, 193, rfl⟩
abbrev main_cst_31 : Ref sig .tc := ⟨.hbm, 194, rfl⟩
abbrev main_v133 : Ref sig .tc := ⟨.hbm, 195, rfl⟩
abbrev main_v134 : Ref sig .tc := ⟨.hbm, 196, rfl⟩
abbrev main_c_32 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_c_33 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_34 : Ref sig .tc := ⟨.hbm, 207, rfl⟩
abbrev main_v143 : Ref sig .tc := ⟨.hbm, 208, rfl⟩
abbrev main_v144 : Ref sig .tc := ⟨.hbm, 209, rfl⟩
abbrev main_call10_cst : Ref sig .tc := ⟨.hbm, 210, rfl⟩
abbrev main_call10_v0 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_cst_35 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_call11_cst : Ref sig .tc := ⟨.hbm, 219, rfl⟩
abbrev main_call11_v0 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_cst_36 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_c_37 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_c_38 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_cst_39 : Ref sig .tc := ⟨.hbm, 238, rfl⟩
abbrev main_v165 : Ref sig .tc := ⟨.hbm, 239, rfl⟩
abbrev main_cst_40 : Ref sig .tc := ⟨.hbm, 240, rfl⟩
abbrev main_v166 : Ref sig .tc := ⟨.hbm, 241, rfl⟩
abbrev main_v167 : Ref sig .tc := ⟨.hbm, 242, rfl⟩
abbrev main_cst_41 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩

abbrev nD : Nat := 1
abbrev τ : Topo := Topo.v7x

variable {F : FTy → Type} [FloatOps F]

class Facts₀ : Prop where
  reducesTo_S256x2x257x257_S_d0_1_2_3 : S256x2x257x257.ReducesTo [0, 1, 2, 3] S_
  h_S_ : 0 < S_.numel
  slices_S256x2x257x257_S256x2x256x256_0_0_0_1 : S256x2x257x257.Slices ![0, 0, 0, 1] S256x2x256x256
  slices_S256x2x257x257_S256x2x256x256_0_0_1_1 : S256x2x257x257.Slices ![0, 0, 1, 1] S256x2x256x256
  slices_S256x2x257x257_S256x2x256x256_0_0_0_0 : S256x2x257x257.Slices ![0, 0, 0, 0] S256x2x256x256
  slices_S256x2x257x257_S256x2x256x256_0_0_1_0 : S256x2x257x257.Slices ![0, 0, 1, 0] S256x2x256x256
  bcast_S_S256x2x256x256 : S_.BroadcastsInDim S256x2x256x256 (![] : Fin 0 → Fin S256x2x256x256.rank)
  slices_S256x2x256x256_S256x1x256x256_0_0_0_0 : S256x2x256x256.Slices ![0, 0, 0, 0] S256x1x256x256
  shapeCasts_S256x1x256x256_S256x256x256 : S256x1x256x256.ShapeCasts S256x256x256
  slices_S256x2x256x256_S256x1x256x256_0_1_0_0 : S256x2x256x256.Slices ![0, 1, 0, 0] S256x1x256x256
  bcast_S_S256x256x256 : S_.BroadcastsInDim S256x256x256 (![] : Fin 0 → Fin S256x256x256.rank)
  reducesTo_S256x256x256_S_d0_1_2 : S256x256x256.ReducesTo [0, 1, 2] S_
  reducesTo_S256x2x257x257_S256x257x257_d1 : S256x2x257x257.ReducesTo [1] S256x257x257
  bcast_S_S256x257x257 : S_.BroadcastsInDim S256x257x257 (![] : Fin 0 → Fin S256x257x257.rank)
  reducesTo_S256x257x257_S_d0_1_2 : S256x257x257.ReducesTo [0, 1, 2] S_
  bcast_S_S256x2x257x257 : S_.BroadcastsInDim S256x2x257x257 (![] : Fin 0 → Fin S256x2x257x257.rank)
  slices_S256x2x257x257_S256x1x255x256_0_0_1_1 : S256x2x257x257.Slices ![0, 0, 1, 1] S256x1x255x256
  slices_S256x2x257x257_S256x1x255x256_0_0_1_0 : S256x2x257x257.Slices ![0, 0, 1, 0] S256x1x255x256
  bcast_S_S256x1x255x256 : S_.BroadcastsInDim S256x1x255x256 (![] : Fin 0 → Fin S256x1x255x256.rank)
  slices_S256x1x256x256_S256x1x255x256_0_0_0_0 : S256x1x256x256.Slices ![0, 0, 0, 0] S256x1x255x256
  slices_S256x1x256x256_S256x1x255x256_0_0_1_0 : S256x1x256x256.Slices ![0, 0, 1, 0] S256x1x255x256
  bcast_S_S256x1x256x256 : S_.BroadcastsInDim S256x1x256x256 (![] : Fin 0 → Fin S256x1x256x256.rank)
  bcast_S_S1 : S_.BroadcastsInDim S1 (![] : Fin 0 → Fin S1.rank)
  slices_S256x2x257x257_S256x1x256x255_0_1_1_1 : S256x2x257x257.Slices ![0, 1, 1, 1] S256x1x256x255
  slices_S256x2x257x257_S256x1x256x255_0_1_0_1 : S256x2x257x257.Slices ![0, 1, 0, 1] S256x1x256x255
  bcast_S_S256x1x256x255 : S_.BroadcastsInDim S256x1x256x255 (![] : Fin 0 → Fin S256x1x256x255.rank)
  slices_S256x1x256x256_S256x1x256x255_0_0_0_0 : S256x1x256x256.Slices ![0, 0, 0, 0] S256x1x256x255
  slices_S256x1x256x256_S256x1x256x255_0_0_0_1 : S256x1x256x256.Slices ![0, 0, 0, 1] S256x1x256x255
  reducesTo_S256x1x256x256_S_d0_1_2_3 : S256x1x256x256.ReducesTo [0, 1, 2, 3] S_
  concatenates_S1_S1_S1_S1_S1_S1_S1_S1_S1_S1_S10_d0 : Shape.Concatenates [S1, S1, S1, S1, S1, S1, S1, S1, S1, S1] S10 0
  scatter_S256x1x256x256_S1_S256x1x255x256_0123_n_2_0_wf : ScatterDims.WF S256x1x256x256 S1 S256x1x255x256 [0, 1, 2, 3] [] [2] 0
  scatter_S256x1x256x256_S1_S256x1x256x255_0123_n_3_0_wf : ScatterDims.WF S256x1x256x256 S1 S256x1x256x255 [0, 1, 2, 3] [] [3] 0

variable [Facts₀]

def scatter_S256x1x256x256_S1_S256x1x255x256_0123_n_2_0 : ScatterDims S256x1x256x256 S1 S256x1x255x256 where
  updateWindowDims := [0, 1, 2, 3]
  insertedWindowDims := []
  scatterDimsToOperandDims := [2]
  indexVectorDim := 0
  wf := scatter_S256x1x256x256_S1_S256x1x255x256_0123_n_2_0_wf
def scatter_S256x1x256x256_S1_S256x1x256x255_0123_n_3_0 : ScatterDims S256x1x256x256 S1 S256x1x256x255 where
  updateWindowDims := [0, 1, 2, 3]
  insertedWindowDims := []
  scatterDimsToOperandDims := [3]
  indexVectorDim := 0
  wf := scatter_S256x1x256x256_S1_S256x1x256x255_0123_n_3_0_wf

class Facts : Prop extends Facts₀ where

variable [Facts]
-- ==== Proof.FrameK.lean ====
/-
  The frame of the kernel program: its @main is one launch on a grid of 256 points followed by 44 host
  operations. Every weakly fair execution on the TensorCores terminates without fault, and the four argument
  arrays end as they started: the launch stages them through input windows only, the body writes the one
  output window's staging buffer only, and each host operation after the launch writes its own result buffer.
-/
import proofs.«169949_j60610578481375_2_alg».proof.Proof.Gen.Kernel.Launch
import proofs.«169949_j60610578481375_2_alg».proof.Proof.Gen.Kernel.Skeleton
import proofs.«169949_j60610578481375_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- Core `c`'s TensorCore buffer contents when the launch is entered: no host operation stands before it, so
    they are the launch contents (the fold over the empty list of operations). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the launch allocate nothing. -/
theorem hostOps1_fresh : (hostOps1 : List (HloOp τ sig (Elt F))).Forall fun op => op.fresh = ∅ := by
  simp only [List.Forall]; repeat' constructor

/-- @main is the launch continued by the 44 host operations, with nothing before the launch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The operations after the launch touch the launch's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result buffer, which is none of the launch's five arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- Nothing runs before the launch: it finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-- No host operation after the launch writes `main_arg0`, and the launch stages it through an input window only
    (its contents at the launch's exit are those at its entry), so it ends as launched — for any proof data whose
    arrays are the launch-entry contents. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 winFacts0.arr_inj c (V0 m c) _ 0).trans
    (((dats 0 c).arrAt_in 0 rfl _).trans ((hA c 0).trans (V_main_arg0 m c)))
/-- No host operation after the launch writes `main_arg1`, and the launch stages it through an input window only
    (its contents at the launch's exit are those at its entry), so it ends as launched — for any proof data whose
    arrays are the launch-entry contents. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 winFacts0.arr_inj c (V0 m c) _ 1).trans
    (((dats 0 c).arrAt_in 1 rfl _).trans ((hA c 1).trans (V_main_arg1 m c)))
/-- No host operation after the launch writes `main_arg2`, and the launch stages it through an input window only
    (its contents at the launch's exit are those at its entry), so it ends as launched — for any proof data whose
    arrays are the launch-entry contents. -/
theorem W_main_arg2 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 winFacts0.arr_inj c (V0 m c) _ 2).trans
    (((dats 0 c).arrAt_in 2 rfl _).trans ((hA c 2).trans (V_main_arg2 m c)))
/-- No host operation after the launch writes `main_arg3`, and the launch stages it through an input window only
    (its contents at the launch's exit are those at its entry), so it ends as launched — for any proof data whose
    arrays are the launch-entry contents. -/
theorem W_main_arg3 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 winFacts0.arr_inj c (V0 m c) _ 3).trans
    (((dats 0 c).arrAt_in 3 rfl _).trans ((hA c 3).trans (V_main_arg3 m c)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the launch-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run whose final state has every buffer no window stages as the host operations after
    the launch leave it gives the four argument arrays as launched: each is staged by an input window only, or
    by none, and is written by no operation after the launch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c)))⟩) h

/-! ## What the body leaves in the output window's buffer -/

abbrev r0_out : Rect S8x128 := Rect.unit (s := S8x128) ![0, 0] S8x128.size inb_S8x128_S8x128_0_0

/-- The tile the body stores, as one function of the four blocks it loads (prediction, label, previous velocity, ice):
    row 0 holds, in columns 0–5, the sample's six sums; the other 122 columns and the other 7 rows are zero. It is
    the composition of the body's named pure terms in the order the body computes them. -/
def stored (x0 x1 x2 : Vec F S1x2x257x257 .f32) (x3 : Vec F S1x1x256x256 .f32) : FVec F S8x128 .f32 :=
  k0_pay1 (k0_pay4 x0 x1)
    (k0_pay11 (k0_pay9 x0 x1) (k0_pay10 x0 x1) (Scalar.ofBits .f32 0x3F000000#32))
    (k0_pay14 (k0_pay13 x1 x2 (k0_pay2 x0 x1)))
    (k0_pay15 x1 (k0_pay12 (k0_pay2 x0 x1)))
    (k0_pay29 x3 (k0_pay23 x3 (k0_pay16 x0 x2) (k0_pay21 x0 x2 x3) (k0_pay22 x0 x2 x3)) (k0_pay24 x1 x2)
      (k0_pay26 x1 x2 x3) (k0_pay27 x1 x2) (k0_pay28 x3))
    (k0_pay30 (k0_pay3 x0 x1))

/-- The output window's staging buffer after the body, from the four input blocks: its one whole store. -/
def out0_4 (x0 x1 x2 : Vec F S1x2x257x257 .f32) (x3 : Vec F S1x1x256x256 .f32) : Vec F S8x128 .f32 :=
  View.canon [⟨r0_out, stored x0 x1 x2 x3⟩]

/-- The one store covers the buffer. -/
theorem cover0_4 (p0 : Vec F S8x128 .f32) (y : S8x128.Idx) :
    ∃ pc ∈ ([⟨r0_out, p0⟩] : List (View.Piece (Elt F) S8x128 .f32)), y ∈ pc.1.set :=
  View.cover_of_tiled [⟨r0_out, p0⟩] S8x128.size (by rfl) y

/-- A load of a whole buffer through the whole-shape rectangle at zero offsets reads the buffer's contents
    (the extents spelt by the shape's name or as the literal vector). -/
theorem readAt_whole_in {sp : Space} (v : View sig .tc sp S1x2x257x257 .f32) (inb) (f : BufTy.Contents (Elt F) v.ty) :
    View.readAt (Elt F) v (Rect.unit (s := S1x2x257x257) ![0, 0, 0, 0] S1x2x257x257.size inb).toLoadRect f
      = View.read (Elt F) v f :=
  View.ld_unit_zero (by funext a; fin_cases a <;> rfl) inb (View.read (Elt F) v f)
theorem readAt_whole_in' {sp : Space} (v : View sig .tc sp S1x2x257x257 .f32) (inb) (f : BufTy.Contents (Elt F) v.ty) :
    View.readAt (Elt F) v (Rect.unit (s := S1x2x257x257) ![0, 0, 0, 0] ![1, 2, 257, 257] inb).toLoadRect f
      = View.read (Elt F) v f :=
  readAt_whole_in v inb f
theorem readAt_whole_ice {sp : Space} (v : View sig .tc sp S1x1x256x256 .f32) (inb) (f : BufTy.Contents (Elt F) v.ty) :
    View.readAt (Elt F) v (Rect.unit (s := S1x1x256x256) ![0, 0, 0, 0] S1x1x256x256.size inb).toLoadRect f
      = View.read (Elt F) v f :=
  View.ld_unit_zero (by funext a; fin_cases a <;> rfl) inb (View.read (Elt F) v f)
theorem readAt_whole_ice' {sp : Space} (v : View sig .tc sp S1x1x256x256 .f32) (inb) (f : BufTy.Contents (Elt F) v.ty) :
    View.readAt (Elt F) v (Rect.unit (s := S1x1x256x256) ![0, 0, 0, 0] ![1, 1, 256, 256] inb).toLoadRect f
      = View.read (Elt F) v f :=
  readAt_whole_ice v inb f

/-! ## The body's triple -/

set_option maxHeartbeats 1000000 in
/-- The kernel body on whole staging memrefs, the four inputs' at contents `xW` and the output's at anything,
    runs to the continuation holding the inputs' as they were and the output's at `out0_4` of the inputs'. -/
theorem sound_kernel (c : Dev nD) (E : Set ℕ) (i : grid0.Coords) (arg1 : Memref sig .tc .vmem S1x2x257x257 .f32) (harg1 : arg1.IsWhole) (arg2 : Memref sig .tc .vmem S1x2x257x257 .f32) (harg2 : arg2.IsWhole) (arg3 : Memref sig .tc .vmem S1x2x257x257 .f32) (harg3 : arg3.IsWhole) (arg4 : Memref sig .tc .vmem S1x1x256x256 .f32) (harg4 : arg4.IsWhole) (arg5 : Memref sig .tc .vmem S8x128 .f32) (harg5 : arg5.IsWhole)
    (x0 x1 x2 : Vec F S1x2x257x257 .f32) (x3 : Vec F S1x1x256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__loss_kernel i arg1 harg1 arg2 harg2 arg3 harg3 arg4 harg4 arg5 harg5) K := by
  simp only [cc0__loss_kernel_eq_skeleton]; unfold cc0__loss_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _)).trans ?_
  unfold out0_4 stored
  sl_unfold_run_names
  rw [readAt_whole_in' arg1.view, readAt_whole_in' arg2.view, readAt_whole_in' arg3.view, readAt_whole_ice' arg4.view]

/-! ## The launch's proof data -/

/-- The proof data of the launch on core `c`: the arrays as the launch finds them; after the body at point `t`
    each input's buffer at its block and the output's at `out0_4` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the launch-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and
    the core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the launch at what the proof data give and
    every other unscoped buffer as the host operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the four argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  frame_of m ρ (dats m) (A_eq m) (run_main m ρ)

end Cert.Kernel.HFrame

end
-- ==== Proof.Stored.lean ====
/-
  The tile the kernel body stores, as ONE function of the four blocks it loads (prediction, label, previous velocity, ice):
  row 0 holds, in columns 0–5, the sample's six sums; the other 122 columns and the other 7 rows are zero.
  It is the composition of the body's named pure terms in the order the body computes them.
-/
import proofs.«169949_j60610578481375_2_alg».proof.Proof.Gen.KernelIdeal.Skeleton

noncomputable section

namespace Cert.KernelIdeal.Hand

open Idealize.ShloMosaic Cert.KernelIdeal Cert.KernelIdeal.Gen

variable {F : FTy → Type} [FloatOps F]

/-- The stored tile from the loaded blocks. -/
def stored (x0 x1 x2 : Vec F S1x2x257x257 .f32) (x3 : Vec F S1x1x256x256 .f32) : FVec F S8x128 .f32 :=
  k0_pay1 (k0_pay4 x0 x1)
    (k0_pay11 (k0_pay9 x0 x1) (k0_pay10 x0 x1) (Scalar.ofBits .f32 0x3F000000#32))
    (k0_pay14 (k0_pay13 x1 x2 (k0_pay2 x0 x1)))
    (k0_pay15 x1 (k0_pay12 (k0_pay2 x0 x1)))
    (k0_pay29 x3 (k0_pay23 x3 (k0_pay16 x0 x2) (k0_pay21 x0 x2 x3) (k0_pay22 x0 x2 x3)) (k0_pay24 x1 x2)
      (k0_pay26 x1 x2 x3) (k0_pay27 x1 x2) (k0_pay28 x3))
    (k0_pay30 (k0_pay3 x0 x1))

end Cert.KernelIdeal.Hand

end
-- ==== Proof.FrameKI.lean ====
/-
  The frame of the kernel program: its @main is one launch on a grid of 256 points followed by 44 host
  operations. Every weakly fair execution on the TensorCores terminates without fault, and the four argument
  arrays end as they started: the launch stages them through input windows only, the body writes the one
  output window's staging buffer only, and each host operation after the launch writes its own result buffer.
-/
import proofs.«169949_j60610578481375_2_alg».proof.Proof.Stored
import proofs.«169949_j60610578481375_2_alg».proof.Proof.Gen.KernelIdeal.Launch
import proofs.«169949_j60610578481375_2_alg».proof.Proof.Gen.KernelIdeal.Skeleton
import proofs.«169949_j60610578481375_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- Core `c`'s TensorCore buffer contents when the launch is entered: no host operation stands before it, so
    they are the launch contents (the fold over the empty list of operations). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the launch allocate nothing. -/
theorem hostOps1_fresh : (hostOps1 : List (HloOp τ sig (Elt F))).Forall fun op => op.fresh = ∅ := by
  simp only [List.Forall]; repeat' constructor

/-- @main is the launch continued by the 44 host operations, with nothing before the launch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The operations after the launch touch the launch's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result buffer, which is none of the launch's five arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- Nothing runs before the launch: it finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-- No host operation after the launch writes `main_arg0`, and the launch stages it through an input window only
    (its contents at the launch's exit are those at its entry), so it ends as launched — for any proof data whose
    arrays are the launch-entry contents. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 winFacts0.arr_inj c (V0 m c) _ 0).trans
    (((dats 0 c).arrAt_in 0 rfl _).trans ((hA c 0).trans (V_main_arg0 m c)))
/-- No host operation after the launch writes `main_arg1`, and the launch stages it through an input window only
    (its contents at the launch's exit are those at its entry), so it ends as launched — for any proof data whose
    arrays are the launch-entry contents. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 winFacts0.arr_inj c (V0 m c) _ 1).trans
    (((dats 0 c).arrAt_in 1 rfl _).trans ((hA c 1).trans (V_main_arg1 m c)))
/-- No host operation after the launch writes `main_arg2`, and the launch stages it through an input window only
    (its contents at the launch's exit are those at its entry), so it ends as launched — for any proof data whose
    arrays are the launch-entry contents. -/
theorem W_main_arg2 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 winFacts0.arr_inj c (V0 m c) _ 2).trans
    (((dats 0 c).arrAt_in 2 rfl _).trans ((hA c 2).trans (V_main_arg2 m c)))
/-- No host operation after the launch writes `main_arg3`, and the launch stages it through an input window only
    (its contents at the launch's exit are those at its entry), so it ends as launched — for any proof data whose
    arrays are the launch-entry contents. -/
theorem W_main_arg3 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 winFacts0.arr_inj c (V0 m c) _ 3).trans
    (((dats 0 c).arrAt_in 3 rfl _).trans ((hA c 3).trans (V_main_arg3 m c)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the launch-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run whose final state has every buffer no window stages as the host operations after
    the launch leave it gives the four argument arrays as launched: each is staged by an input window only, or
    by none, and is written by no operation after the launch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c)))⟩) h

/-! ## What the body leaves in the output window's buffer -/

abbrev r0_out : Rect S8x128 := Rect.unit (s := S8x128) ![0, 0] S8x128.size inb_S8x128_S8x128_0_0

/-- The output window's staging buffer after the body, from the four input blocks: its one whole store. -/
def out0_4 (x0 x1 x2 : Vec F S1x2x257x257 .f32) (x3 : Vec F S1x1x256x256 .f32) : Vec F S8x128 .f32 :=
  View.canon [⟨r0_out, Cert.KernelIdeal.Hand.stored x0 x1 x2 x3⟩]

/-- The one store covers the buffer. -/
theorem cover0_4 (p0 : Vec F S8x128 .f32) (y : S8x128.Idx) :
    ∃ pc ∈ ([⟨r0_out, p0⟩] : List (View.Piece (Elt F) S8x128 .f32)), y ∈ pc.1.set :=
  View.cover_of_tiled [⟨r0_out, p0⟩] S8x128.size (by rfl) y

/-- A load of a whole buffer through the whole-shape rectangle at zero offsets reads the buffer's contents
    (the extents spelt by the shape's name or as the literal vector). -/
theorem readAt_whole_in {sp : Space} (v : View sig .tc sp S1x2x257x257 .f32) (inb) (f : BufTy.Contents (Elt F) v.ty) :
    View.readAt (Elt F) v (Rect.unit (s := S1x2x257x257) ![0, 0, 0, 0] S1x2x257x257.size inb).toLoadRect f
      = View.read (Elt F) v f :=
  View.ld_unit_zero (by funext a; fin_cases a <;> rfl) inb (View.read (Elt F) v f)
theorem readAt_whole_in' {sp : Space} (v : View sig .tc sp S1x2x257x257 .f32) (inb) (f : BufTy.Contents (Elt F) v.ty) :
    View.readAt (Elt F) v (Rect.unit (s := S1x2x257x257) ![0, 0, 0, 0] ![1, 2, 257, 257] inb).toLoadRect f
      = View.read (Elt F) v f :=
  readAt_whole_in v inb f
theorem readAt_whole_ice {sp : Space} (v : View sig .tc sp S1x1x256x256 .f32) (inb) (f : BufTy.Contents (Elt F) v.ty) :
    View.readAt (Elt F) v (Rect.unit (s := S1x1x256x256) ![0, 0, 0, 0] S1x1x256x256.size inb).toLoadRect f
      = View.read (Elt F) v f :=
  View.ld_unit_zero (by funext a; fin_cases a <;> rfl) inb (View.read (Elt F) v f)
theorem readAt_whole_ice' {sp : Space} (v : View sig .tc sp S1x1x256x256 .f32) (inb) (f : BufTy.Contents (Elt F) v.ty) :
    View.readAt (Elt F) v (Rect.unit (s := S1x1x256x256) ![0, 0, 0, 0] ![1, 1, 256, 256] inb).toLoadRect f
      = View.read (Elt F) v f :=
  readAt_whole_ice v inb f

/-! ## The body's triple -/

set_option maxHeartbeats 1000000 in
/-- The kernel body on whole staging memrefs, the four inputs' at contents `xW` and the output's at anything,
    runs to the continuation holding the inputs' as they were and the output's at `out0_4` of the inputs'. -/
theorem sound_kernel (c : Dev nD) (E : Set ℕ) (i : grid0.Coords) (arg1 : Memref sig .tc .vmem S1x2x257x257 .f32) (harg1 : arg1.IsWhole) (arg2 : Memref sig .tc .vmem S1x2x257x257 .f32) (harg2 : arg2.IsWhole) (arg3 : Memref sig .tc .vmem S1x2x257x257 .f32) (harg3 : arg3.IsWhole) (arg4 : Memref sig .tc .vmem S1x1x256x256 .f32) (harg4 : arg4.IsWhole) (arg5 : Memref sig .tc .vmem S8x128 .f32) (harg5 : arg5.IsWhole)
    (x0 x1 x2 : Vec F S1x2x257x257 .f32) (x3 : Vec F S1x1x256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__loss_kernel i arg1 harg1 arg2 harg2 arg3 harg3 arg4 harg4 arg5 harg5) K := by
  simp only [cc0__loss_kernel_eq_skeleton]; unfold cc0__loss_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _)).trans ?_
  unfold out0_4 Cert.KernelIdeal.Hand.stored
  sl_unfold_run_names
  rw [readAt_whole_in' arg1.view, readAt_whole_in' arg2.view, readAt_whole_in' arg3.view, readAt_whole_ice' arg4.view]

/-! ## The launch's proof data -/

/-- The proof data of the launch on core `c`: the arrays as the launch finds them; after the body at point `t`
    each input's buffer at its block and the output's at `out0_4` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the launch-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and
    the core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the launch at what the proof data give and
    every other unscoped buffer as the host operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the four argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  frame_of m ρ (dats m) (A_eq m) (run_main m ρ)

end Cert.KernelIdeal.HFrame

end
-- ==== Proof.Spec.lean ====
/-
  The loss as mathematics, on the extended reals.

  A SAMPLE is one velocity-like field on the 2 × 257 × 257 node grid (`Vel`) for each of the prediction, the label and the
  previous velocity, and one ice field on the 256 × 256 cell grid (`Ice`).  Six numbers are taken of a sample, each a plain
  nested sum over explicit coordinates: the sum of absolute errors, of squared errors, of the strain-rate integrand (central
  differences of the error onto cell midpoints), of the two relative errors (norm of the error over norm of a reference
  field plus a small constant), and of the squared difference of two upwind advection steps of the ice field.
  The totals are the sums of these over the 256 samples, and the ten results are quotients and sums of the totals (`tail`).
  Nothing here mentions a program: both programs are shown to compute `tail` of the six totals.
-/
import Idealize.ShloMosaic.PureOps.Ideal
import Idealize.ShloMosaic.Lib.ValueIdx

noncomputable section

namespace Cert.Loss

open Idealize.ShloMosaic Idealize.ShloMosaic.ValueIdx

/-- A field on the node grid: component, row, column. -/
abbrev Vel := Fin 2 → Fin 257 → Fin 257 → EReal
/-- A field on the cell grid: row, column. -/
abbrev Ice := Fin 256 → Fin 256 → EReal

/-- The float words the formulas use, each read as the extended real it denotes. -/
abbrev half : EReal := Ideal.ofBits .f32 0x3F000000#32
abbrev eps : EReal := Ideal.ofBits .f32 0x3C23D70A#32
abbrev scale : EReal := Ideal.ofBits .f32 0x38D1B717#32
abbrev rate : EReal := Ideal.ofBits .f32 0x44800000#32
abbrev zero : EReal := Ideal.ofBits .f32 0x00000000#32

/-- Node `h` and node `h + 1` of a cell `h`. -/
abbrev lo (h : Fin 256) : Fin 257 := ⟨h.val, by have := h.isLt; omega⟩
abbrev hi (h : Fin 256) : Fin 257 := ⟨h.val + 1, by have := h.isLt; omega⟩

/-- The error field. -/
def dif (a b : Vel) : Vel := fun c h w => a c h w - b c h w

/-- Sum of absolute errors of a sample. -/
def sAbs (a b : Vel) : EReal :=
  ∑ h : Fin 257, ∑ w : Fin 257, ∑ c : Fin 2, max (dif a b c h w) (-(dif a b c h w))

/-- Sum of squared errors of a sample. -/
def sSq (a b : Vel) : EReal :=
  ∑ h : Fin 257, ∑ w : Fin 257, ∑ c : Fin 2, dif a b c h w * dif a b c h w

/-- Central difference along the columns onto the midpoint of cell `(h, w)`, halved. -/
def ex (d : Vel) (c : Fin 2) (h w : Fin 256) : EReal :=
  (((d c (lo h) (hi w) + d c (hi h) (hi w)) - d c (lo h) (lo w)) - d c (hi h) (lo w)) * half
/-- Central difference along the rows onto the midpoint of cell `(h, w)`, halved. -/
def ey (d : Vel) (c : Fin 2) (h w : Fin 256) : EReal :=
  (((d c (hi h) (lo w) + d c (hi h) (hi w)) - d c (lo h) (lo w)) - d c (lo h) (hi w)) * half

/-- The strain-rate integrand at a cell. -/
def strainAt (d : Vel) (h w : Fin 256) : EReal :=
  (ex d 0 h w * ex d 0 h w + (half * (ex d 1 h w + ey d 0 h w)) * (ex d 1 h w + ey d 0 h w)) + ey d 1 h w * ey d 1 h w

/-- Sum of the strain-rate integrand of a sample. -/
def sStrain (a b : Vel) : EReal :=
  ∑ h : Fin 256, ∑ w : Fin 256, strainAt (dif a b) h w

/-- Euclidean norm of the two components at a node. -/
def nrm (a : Vel) (h w : Fin 257) : EReal := Ideal.sqrt (a 0 h w * a 0 h w + a 1 h w * a 1 h w)

/-- Sum over the nodes of |error| / (|label + previous| + eps). -/
def sMre (a b v : Vel) : EReal :=
  ∑ h : Fin 257, ∑ w : Fin 257, Ideal.div (nrm (dif a b) h w) (nrm (fun c h w => b c h w + v c h w) h w + eps)

/-- Sum over the nodes of |error| / (|label| + eps). -/
def sMrde (a b : Vel) : EReal :=
  ∑ h : Fin 257, ∑ w : Fin 257, Ideal.div (nrm (dif a b) h w) (nrm b h w + eps)

/-! ### One upwind advection step of the ice field -/

/-- Row-direction velocity on the face between cell rows `h'` and `h' + 1`, at column `w`. -/
def vx (v : Vel) (h' : Fin 255) (w : Fin 256) : EReal :=
  (v 0 ⟨h'.val + 1, by have := h'.isLt; omega⟩ ⟨w.val + 1, by have := w.isLt; omega⟩
    + v 0 ⟨h'.val + 1, by have := h'.isLt; omega⟩ ⟨w.val, by have := w.isLt; omega⟩) * half
/-- Flux out of cell row `h'` into `h' + 1`. -/
def fx (v : Vel) (A : Ice) (h' : Fin 255) (w : Fin 256) : EReal :=
  (max (vx v h' w) zero * A ⟨h'.val, by have := h'.isLt; omega⟩ w) * rate
/-- Flux out of cell row `h' + 1` into `h'`. -/
def gx (v : Vel) (A : Ice) (h' : Fin 255) (w : Fin 256) : EReal :=
  (max (zero - vx v h' w) zero * A ⟨h'.val + 1, by have := h'.isLt; omega⟩ w) * rate
/-- Net row-direction gain of cell `(h, w)`: from the face above (none for the first row) and the face below (none for the last). -/
def dHx (v : Vel) (A : Ice) (h w : Fin 256) : EReal :=
  (if hh : h.val < 1 then zero
    else fx v A ⟨h.val - 1, by have := h.isLt; omega⟩ w - gx v A ⟨h.val - 1, by have := h.isLt; omega⟩ w)
  + (if hh : h.val < 255 then gx v A ⟨h.val, hh⟩ w - fx v A ⟨h.val, hh⟩ w else zero)

/-- Column-direction velocity on the face between cell columns `w'` and `w' + 1`, at row `h`. -/
def vy (v : Vel) (h : Fin 256) (w' : Fin 255) : EReal :=
  (v 1 ⟨h.val + 1, by have := h.isLt; omega⟩ ⟨w'.val + 1, by have := w'.isLt; omega⟩
    + v 1 ⟨h.val, by have := h.isLt; omega⟩ ⟨w'.val + 1, by have := w'.isLt; omega⟩) * half
def fy (v : Vel) (A : Ice) (h : Fin 256) (w' : Fin 255) : EReal :=
  (max (vy v h w') zero * A h ⟨w'.val, by have := w'.isLt; omega⟩) * rate
def gy (v : Vel) (A : Ice) (h : Fin 256) (w' : Fin 255) : EReal :=
  (max (zero - vy v h w') zero * A h ⟨w'.val + 1, by have := w'.isLt; omega⟩) * rate
/-- Net column-direction gain of cell `(h, w)`. -/
def dHy (v : Vel) (A : Ice) (h w : Fin 256) : EReal :=
  (if hw : w.val < 1 then zero
    else fy v A h ⟨w.val - 1, by have := w.isLt; omega⟩ - gy v A h ⟨w.val - 1, by have := w.isLt; omega⟩)
  + (if hw : w.val < 255 then gy v A h ⟨w.val, hw⟩ - fy v A h ⟨w.val, hw⟩ else zero)

/-- The ice field after one step under velocity `v`. -/
def adv (v : Vel) (A : Ice) (h w : Fin 256) : EReal := (A h w + dHx v A h w) + dHy v A h w

/-- The velocity the step is taken with: (field + previous) · scale. -/
def vel (a v : Vel) : Vel := fun c h w => (a c h w + v c h w) * scale

/-- Sum over the cells of the squared difference of the two advected fields. -/
def sMce (a b v : Vel) (A : Ice) : EReal :=
  ∑ h : Fin 256, ∑ w : Fin 256,
    (adv (vel a v) A h w - adv (vel b v) A h w) * (adv (vel a v) A h w - adv (vel b v) A h w)

/-- The six sums of a sample, in the order the kernel lays them in a row. -/
def six (a b v : Vel) (A : Ice) : Fin 6 → EReal :=
  ![sAbs a b, sSq a b, sStrain a b, sMre a b v, sMrde a b, sMce a b v A]

/-! ### Arrays, blocks, totals -/

abbrev ArrV := (⟨4, ![256, 2, 257, 257]⟩ : Shape).Idx → EReal
abbrev ArrI := (⟨4, ![256, 1, 256, 256]⟩ : Shape).Idx → EReal
abbrev BlkV := (⟨4, ![1, 2, 257, 257]⟩ : Shape).Idx → EReal
abbrev BlkI := (⟨4, ![1, 1, 256, 256]⟩ : Shape).Idx → EReal

/-- Sample `n` of a whole array. -/
def rdV (x : ArrV) (n : Fin 256) : Vel := fun c h w => x (ix4 n c h w)
def rdI (x : ArrI) (n : Fin 256) : Ice := fun h w => x (ix4 n 0 h w)
/-- The one sample of a block. -/
def bkV (b : BlkV) : Vel := fun c h w => b (ix4 0 c h w)
def bkI (b : BlkI) : Ice := fun h w => b (ix4 0 0 h w)

/-- The six sums of sample `n` of the argument arrays (prediction, label, previous velocity, ice). -/
def sixAt (x0 x1 x2 : ArrV) (x3 : ArrI) (n : Fin 256) : Fin 6 → EReal :=
  six (rdV x0 n) (rdV x1 n) (rdV x2 n) (rdI x3 n)

/-- Total `k` over the 256 samples. -/
def total (x0 x1 x2 : ArrV) (x3 : ArrI) (k : Fin 6) : EReal := ∑ n : Fin 256, sixAt x0 x1 x2 x3 n k

/-- The array of per-sample rows: rows `8 n` hold sample `n`'s six sums in columns 0–5; everything else is zero. -/
def rowsArr (x0 x1 x2 : ArrV) (x3 : ArrI) : (⟨2, ![2048, 128]⟩ : Shape).Idx → EReal := fun i =>
  if (i 0).val % 8 = 0 then
    (if h6 : (i 1).val < 6 then sixAt x0 x1 x2 x3 ⟨(i 0).val / 8, by have := (i 0).isLt; simp at this; omega⟩ ⟨(i 1).val, h6⟩ else 0)
  else 0

/-! ### From the six totals to the ten results -/

/-- The ten results from the six totals, each total given as a rank-0 array: the means (totals over the element counts
    33817088, 2^24 and 16908544), their sums, laid side by side. -/
def tail (hb : (⟨0, ![]⟩ : Shape).BroadcastsInDim ⟨1, ![1]⟩ (![] : Fin 0 → Fin 1))
    (hc : Shape.Concatenates [(⟨1, ![1]⟩ : Shape), ⟨1, ![1]⟩, ⟨1, ![1]⟩, ⟨1, ![1]⟩, ⟨1, ![1]⟩, ⟨1, ![1]⟩, ⟨1, ![1]⟩, ⟨1, ![1]⟩, ⟨1, ![1]⟩, ⟨1, ![1]⟩] ⟨1, ![10]⟩ 0)
    (t0 t1 t2 t3 t4 t5 : FVec Ideal ⟨0, ![]⟩ .f32) : FVec Ideal ⟨1, ![10]⟩ .f32 :=
  let mae := Host.divf t0 (constant (F := Ideal) ⟨0, ![]⟩ .f32 0x4C010080#32)
  let mse := Host.divf t1 (constant (F := Ideal) ⟨0, ![]⟩ .f32 0x4C010080#32)
  let sre := Host.divf t2 (constant (F := Ideal) ⟨0, ![]⟩ .f32 0x4B800000#32)
  let mre := Host.divf t3 (constant (F := Ideal) ⟨0, ![]⟩ .f32 0x4B810080#32)
  let mrde := Host.divf t4 (constant (F := Ideal) ⟨0, ![]⟩ .f32 0x4B810080#32)
  let mce := Host.divf t5 (constant (F := Ideal) ⟨0, ![]⟩ .f32 0x4B800000#32)
  let bc := fun (x : FVec Ideal ⟨0, ![]⟩ .f32) => (broadcastInDim (⟨1, ![1]⟩ : Shape) ![] hb x : FVec Ideal ⟨1, ![1]⟩ .f32)
  concatenate ⟨1, ![10]⟩ 0
    [⟨⟨1, ![1]⟩, bc mae⟩, ⟨⟨1, ![1]⟩, bc mse⟩, ⟨⟨1, ![1]⟩, bc sre⟩, ⟨⟨1, ![1]⟩, bc (addf mse sre)⟩,
     ⟨⟨1, ![1]⟩, bc (addf mse (mulf (constant (F := Ideal) ⟨0, ![]⟩ .f32 0x3DCCCCCD#32) mre))⟩, ⟨⟨1, ![1]⟩, bc (addf mse mrde)⟩,
     ⟨⟨1, ![1]⟩, bc (addf (addf mse sre) mrde)⟩, ⟨⟨1, ![1]⟩, bc mre⟩, ⟨⟨1, ![1]⟩, bc mrde⟩, ⟨⟨1, ![1]⟩, bc mce⟩] hc

/-- The ten results of the argument arrays. -/
def result (hb : (⟨0, ![]⟩ : Shape).BroadcastsInDim ⟨1, ![1]⟩ (![] : Fin 0 → Fin 1))
    (hc : Shape.Concatenates [(⟨1, ![1]⟩ : Shape), ⟨1, ![1]⟩, ⟨1, ![1]⟩, ⟨1, ![1]⟩, ⟨1, ![1]⟩, ⟨1, ![1]⟩, ⟨1, ![1]⟩, ⟨1, ![1]⟩, ⟨1, ![1]⟩, ⟨1, ![1]⟩] ⟨1, ![10]⟩ 0)
    (x0 x1 x2 : ArrV) (x3 : ArrI) : FVec Ideal ⟨1, ![10]⟩ .f32 :=
  tail hb hc (fun _ => total x0 x1 x2 x3 0) (fun _ => total x0 x1 x2 x3 1) (fun _ => total x0 x1 x2 x3 2)
    (fun _ => total x0 x1 x2 x3 3) (fun _ => total x0 x1 x2 x3 4) (fun _ => total x0 x1 x2 x3 5)

end Cert.Loss

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.KTotals.lean ====
/-
  The column sums of the array of per-sample rows.

  Row 8 n of that array holds sample n's six sums in its first six columns, and every other entry of the array is zero.
  Cut the 2048 rows into 256 tiles of 8: inside tile n only position 0 can be nonzero, so the sum of column k < 6 over all
  the rows is the sum over the 256 samples of their k-th sum — total k of the specification.
-/
import proofs.«169949_j60610578481375_2_alg».proof.Proof.Spec
import proofs.«169949_j60610578481375_2_alg».proof.Proof.LibSums

noncomputable section

open scoped BigOperators

namespace Cert.KernelIdeal.HValue

open Idealize.ShloMosaic Idealize.ShloMosaic.ValueIdx Cert.Loss

/-- Position `r` of tile `n`: entry `(8 n + r, j)` is sample `n`'s `j`-th sum when `r = 0` and `j < 6`, and zero otherwise. -/
theorem rowsArr_tile (x0 x1 x2 : ArrV) (x3 : ArrI) (n : Fin 256) (r : Fin 8) (j : Fin 128) (h : 8 * n.val + r.val < 2048) :
    rowsArr x0 x1 x2 x3 (ix2 (⟨8 * n.val + r.val, h⟩ : Fin 2048) j)
      = if r.val = 0 then (if h6 : j.val < 6 then sixAt x0 x1 x2 x3 n ⟨j.val, h6⟩ else 0) else 0 := by
  have hr := r.isLt
  have hdiv : (8 * n.val + r.val) / 8 = n.val := by omega
  have e : ∀ p, (⟨(8 * n.val + r.val) / 8, p⟩ : Fin 256) = n := fun p => Fin.ext hdiv
  unfold rowsArr
  show (if (8 * n.val + r.val) % 8 = 0 then
      (if h6 : j.val < 6 then sixAt x0 x1 x2 x3 ⟨(8 * n.val + r.val) / 8, _⟩ ⟨j.val, h6⟩ else 0) else 0) = _
  by_cases hr0 : r.val = 0
  · rw [if_pos hr0, if_pos (by omega)]
    simp only [e]
  · rw [if_neg hr0, if_neg (by omega)]

/-- The sum of column `k < 6` over the 2048 rows is total `k`. -/
theorem rowsArr_colsum (x0 x1 x2 : ArrV) (x3 : ArrI) (k : Fin 128) (h6 : k.val < 6) :
    ∑ r : Fin 2048, rowsArr x0 x1 x2 x3 (ix2 r k) = total x0 x1 x2 x3 ⟨k.val, h6⟩ := by
  rw [Cert.LibSums.sum_by_tiles (T := 256) (R := 8) (by norm_num : 256 * 8 = 2048)
    (fun r : Fin 2048 => rowsArr x0 x1 x2 x3 (ix2 r k))]
  unfold total
  refine Finset.sum_congr rfl fun n _ => ?_
  rw [Fintype.sum_eq_single (0 : Fin 8)]
  · show rowsArr x0 x1 x2 x3 (ix2 (⟨8 * n.val + (0 : Fin 8).val, _⟩ : Fin 2048) k) = _
    rw [rowsArr_tile, if_pos (show (0 : Fin 8).val = 0 from rfl), dif_pos h6]
  · intro r hr
    show rowsArr x0 x1 x2 x3 (ix2 (⟨8 * n.val + r.val, _⟩ : Fin 2048) k) = _
    rw [rowsArr_tile, if_neg (show ¬ r.val = 0 from fun h => hr (Fin.ext h))]

end Cert.KernelIdeal.HValue

end
-- ==== Proof.KBlocks.lean ====
/-
  From the blocks the body sees to the whole array the launch leaves.

  The launch visits 256 points.  At point t each of the four input windows holds sample t of its argument array (a block
  is one whole sample: its coordinate in the array is the point on the sample axis and the block's own coordinate on the
  other axes), and the output window's block is rows 8 t … 8 t + 7 of the 2048 × 128 result array.  The body stores into
  that block the tile whose row 0 holds the sample's six sums in columns 0 … 5 and which is zero elsewhere; so what point t
  writes back is block t of the array of per-sample rows.  The 256 blocks cover the 2048 rows (row i lies in block i / 8),
  hence the array ends as the array of per-sample rows of the four arguments.
-/
import proofs.«169949_j60610578481375_2_alg».proof.Proof.FrameKI
import proofs.«169949_j60610578481375_2_alg».proof.Proof.Spec
import proofs.«169949_j60610578481375_2_alg».proof.Proof.KTotals
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HValue

open Cert.KernelIdeal Cert.KernelIdeal.Gen Cert.KernelIdeal.HFrame Cert.Loss

variable (m : (ℓ : Loc nD τ sig) → Buf (Elt Ideal) ℓ)

/-! ## Where a block sits in its array -/

/-- The windows' block indices at point `t`, decided once over the grid: every window moves along its leading axis with
    the point and stays at block 0 on the others. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 2) = t.val ∧ win0_4.index t (1 : Fin 2) = 0) :=
  (by decide +kernel : ∀ t : Fin grid0.N, _)

/-- A point is below 256. -/
theorem point_lt (t : Fin cfg0.N) : t.val < 256 := by
  exact Nat.lt_of_lt_of_eq (show t.val < grid0.N from t.isLt) N_0

/-! ## The input blocks are the samples -/

/-- Window 0's block at point `t`, read at `x`, is the first argument at sample `t` and `x`'s other coordinates. -/
theorem iblk0_apply (c : Dev nD) (t : Fin cfg0.N) (x : S1x2x257x257.Idx) (k : S256x2x257x257.Idx)
    (h0 : (k 0).val = t.val) (h1 : (k 1).val = (x 1).val) (h2 : (k 2).val = (x 2).val) (h3 : (k 3).val = (x 3).val) :
    (iblk m c 0 t : Vec Ideal S1x2x257x257 .f32) x = (m ((c : Thread nD τ).loc main_arg0) : S256x2x257x257.Idx → EReal) k := by
  obtain ⟨⟨e0, e1, e2, e3⟩, -⟩ := idx_facts t
  have hx0 : (x 0).val < 1 := (x 0).isLt
  unfold iblk
  rw [View.read_apply]
  show V m c main_arg0 _ = m ((c : Thread nD τ).loc main_arg0) k
  rw [V_main_arg0 m c]
  refine congrArg (m ((c : Thread nD τ).loc main_arg0)) (funext fun a => Fin.ext ?_)
  match a with
  | ⟨0, _⟩ => show win0_0.index t (0 : Fin 4) * 1 + 1 * (x 0).val = (k 0).val; omega
  | ⟨1, _⟩ => show win0_0.index t (1 : Fin 4) * 2 + 1 * (x 1).val = (k 1).val; omega
  | ⟨2, _⟩ => show win0_0.index t (2 : Fin 4) * 257 + 1 * (x 2).val = (k 2).val; omega
  | ⟨3, _⟩ => show win0_0.index t (3 : Fin 4) * 257 + 1 * (x 3).val = (k 3).val; omega

/-- Window 1's block likewise, of the second argument. -/
theorem iblk1_apply (c : Dev nD) (t : Fin cfg0.N) (x : S1x2x257x257.Idx) (k : S256x2x257x257.Idx)
    (h0 : (k 0).val = t.val) (h1 : (k 1).val = (x 1).val) (h2 : (k 2).val = (x 2).val) (h3 : (k 3).val = (x 3).val) :
    (iblk m c 1 t : Vec Ideal S1x2x257x257 .f32) x = (m ((c : Thread nD τ).loc main_arg1) : S256x2x257x257.Idx → EReal) k := by
  obtain ⟨-, ⟨e0, e1, e2, e3⟩, -⟩ := idx_facts t
  have hx0 : (x 0).val < 1 := (x 0).isLt
  unfold iblk
  rw [View.read_apply]
  show V m c main_arg1 _ = m ((c : Thread nD τ).loc main_arg1) k
  rw [V_main_arg1 m c]
  refine congrArg (m ((c : Thread nD τ).loc main_arg1)) (funext fun a => Fin.ext ?_)
  match a with
  | ⟨0, _⟩ => show win0_1.index t (0 : Fin 4) * 1 + 1 * (x 0).val = (k 0).val; omega
  | ⟨1, _⟩ => show win0_1.index t (1 : Fin 4) * 2 + 1 * (x 1).val = (k 1).val; omega
  | ⟨2, _⟩ => show win0_1.index t (2 : Fin 4) * 257 + 1 * (x 2).val = (k 2).val; omega
  | ⟨3, _⟩ => show win0_1.index t (3 : Fin 4) * 257 + 1 * (x 3).val = (k 3).val; omega

/-- Window 2's block likewise, of the third argument. -/
theorem iblk2_apply (c : Dev nD) (t : Fin cfg0.N) (x : S1x2x257x257.Idx) (k : S256x2x257x257.Idx)
    (h0 : (k 0).val = t.val) (h1 : (k 1).val = (x 1).val) (h2 : (k 2).val = (x 2).val) (h3 : (k 3).val = (x 3).val) :
    (iblk m c 2 t : Vec Ideal S1x2x257x257 .f32) x = (m ((c : Thread nD τ).loc main_arg2) : S256x2x257x257.Idx → EReal) k := by
  obtain ⟨-, -, ⟨e0, e1, e2, e3⟩, -⟩ := idx_facts t
  have hx0 : (x 0).val < 1 := (x 0).isLt
  unfold iblk
  rw [View.read_apply]
  show V m c main_arg2 _ = m ((c : Thread nD τ).loc main_arg2) k
  rw [V_main_arg2 m c]
  refine congrArg (m ((c : Thread nD τ).loc main_arg2)) (funext fun a => Fin.ext ?_)
  match a with
  | ⟨0, _⟩ => show win0_2.index t (0 : Fin 4) * 1 + 1 * (x 0).val = (k 0).val; omega
  | ⟨1, _⟩ => show win0_2.index t (1 : Fin 4) * 2 + 1 * (x 1).val = (k 1).val; omega
  | ⟨2, _⟩ => show win0_2.index t (2 : Fin 4) * 257 + 1 * (x 2).val = (k 2).val; omega
  | ⟨3, _⟩ => show win0_2.index t (3 : Fin 4) * 257 + 1 * (x 3).val = (k 3).val; omega

/-- Window 3's block at point `t` is the fourth argument (the ice field) at sample `t`. -/
theorem iblk3_apply (c : Dev nD) (t : Fin cfg0.N) (x : S1x1x256x256.Idx) (k : S256x1x256x256.Idx)
    (h0 : (k 0).val = t.val) (h1 : (k 1).val = (x 1).val) (h2 : (k 2).val = (x 2).val) (h3 : (k 3).val = (x 3).val) :
    (iblk m c 3 t : Vec Ideal S1x1x256x256 .f32) x = (m ((c : Thread nD τ).loc main_arg3) : S256x1x256x256.Idx → EReal) k := by
  obtain ⟨-, -, -, ⟨e0, e1, e2, e3⟩, -⟩ := idx_facts t
  have hx0 : (x 0).val < 1 := (x 0).isLt
  unfold iblk
  rw [View.read_apply]
  show V m c main_arg3 _ = m ((c : Thread nD τ).loc main_arg3) k
  rw [V_main_arg3 m c]
  refine congrArg (m ((c : Thread nD τ).loc main_arg3)) (funext fun a => Fin.ext ?_)
  match a with
  | ⟨0, _⟩ => show win0_3.index t (0 : Fin 4) * 1 + 1 * (x 0).val = (k 0).val; omega
  | ⟨1, _⟩ => show win0_3.index t (1 : Fin 4) * 1 + 1 * (x 1).val = (k 1).val; omega
  | ⟨2, _⟩ => show win0_3.index t (2 : Fin 4) * 256 + 1 * (x 2).val = (k 2).val; omega
  | ⟨3, _⟩ => show win0_3.index t (3 : Fin 4) * 256 + 1 * (x 3).val = (k 3).val; omega

/-- So the one sample of window 0's block at point `t` is sample `t` of the first argument, -/
theorem blkV0 (c : Dev nD) (t : Fin cfg0.N) :
    bkV (iblk m c 0 t : Vec Ideal S1x2x257x257 .f32) = rdV (m ((c : Thread nD τ).loc main_arg0)) ⟨t.val, point_lt t⟩ :=
  funext fun c' => funext fun h => funext fun w =>
    iblk0_apply m c t (ix4 0 c' h w) (ix4 (⟨t.val, point_lt t⟩ : Fin 256) c' h w) rfl rfl rfl rfl
/-- of window 1's, of the second, -/
theorem blkV1 (c : Dev nD) (t : Fin cfg0.N) :
    bkV (iblk m c 1 t : Vec Ideal S1x2x257x257 .f32) = rdV (m ((c : Thread nD τ).loc main_arg1)) ⟨t.val, point_lt t⟩ :=
  funext fun c' => funext fun h => funext fun w =>
    iblk1_apply m c t (ix4 0 c' h w) (ix4 (⟨t.val, point_lt t⟩ : Fin 256) c' h w) rfl rfl rfl rfl
/-- of window 2's, of the third, -/
theorem blkV2 (c : Dev nD) (t : Fin cfg0.N) :
    bkV (iblk m c 2 t : Vec Ideal S1x2x257x257 .f32) = rdV (m ((c : Thread nD τ).loc main_arg2)) ⟨t.val, point_lt t⟩ :=
  funext fun c' => funext fun h => funext fun w =>
    iblk2_apply m c t (ix4 0 c' h w) (ix4 (⟨t.val, point_lt t⟩ : Fin 256) c' h w) rfl rfl rfl rfl
/-- and of window 3's, of the ice field. -/
theorem blkI3 (c : Dev nD) (t : Fin cfg0.N) :
    bkI (iblk m c 3 t : Vec Ideal S1x1x256x256 .f32) = rdI (m ((c : Thread nD τ).loc main_arg3)) ⟨t.val, point_lt t⟩ :=
  funext fun h => funext fun w =>
    iblk3_apply m c t (ix4 0 0 h w) (ix4 (⟨t.val, point_lt t⟩ : Fin 256) 0 h w) rfl rfl rfl rfl

theorem hz : (![0, 0] : Fin 2 → Nat) = fun _ => 0 := funext fun a => by fin_cases a <;> rfl

/-- The array of per-sample rows of the four arguments as launched on core `c`. -/
abbrev rowsOf (c : Dev nD) : S2048x128.Idx → EReal :=
  rowsArr (m ((c : Thread nD τ).loc main_arg0)) (m ((c : Thread nD τ).loc main_arg1)) (m ((c : Thread nD τ).loc main_arg2))
    (m ((c : Thread nD τ).loc main_arg3))

/-! ## The blocks cover the array -/

/-- An index of the array is in point `t`'s block iff each coordinate is in the block's range on its axis. -/
theorem mem_blk (t : Fin cfg0.N) (i : S2048x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0).slice (win0_4.rect t)).set ↔ _
  rw [View.set_slice_whole, Rect.mem_set_unit]
  exact Iff.rfl

/-- Row `i` lies in the block of point `i / 8`, and every point writes its block back. -/
theorem cover (i : S2048x128.Idx) : ∃ t : Fin cfg0.N, (cfg0.win 4).flush t = true ∧ i ∈ ((cfg0.win 4).blk t).view.set := by
  have hi0 : (i 0).val < 2048 := (i 0).isLt
  have hi1 : (i 1).val < 128 := (i 1).isLt
  obtain ⟨t, ht⟩ : ∃ t : Fin cfg0.N, t.val = (i 0).val / 8 :=
    ⟨⟨(i 0).val / 8, by rw [show cfg0.N = 256 from N_0]; omega⟩, rfl⟩
  obtain ⟨-, -, -, -, e40, e41⟩ := idx_facts t
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-! ## What a point writes back, and the array after the launch -/

section Stored

-- The stored tile at an index: row 0 holds the six sums of the loaded sample in columns 0 … 5, all else is zero.
variable (stored_apply : ∀ (x0 x1 x2 : Vec Ideal S1x2x257x257 .f32) (x3 : Vec Ideal S1x1x256x256 .f32) (r : Fin 8) (j : Fin 128),
  Cert.KernelIdeal.Hand.stored (F := Ideal) x0 x1 x2 x3 (ValueIdx.ix2 r j)
    = if r.val = 0 then (if h6 : j.val < 6 then Cert.Loss.six (Cert.Loss.bkV x0) (Cert.Loss.bkV x1) (Cert.Loss.bkV x2) (Cert.Loss.bkI x3) ⟨j.val, h6⟩ else 0) else 0)
include stored_apply

/-- WHAT POINT `t` WRITES BACK is block `t` of the array of per-sample rows. -/
theorem flushed_eq (c : Dev nD) (t : Fin cfg0.N) :
    (dats m 0 c).flushed 4 t = ((cfg0.win 4).blk t).view.read (Elt Ideal) (rowsOf m c) := by
  have ht : t.val < 256 := point_lt t
  obtain ⟨-, -, -, -, e40, e41⟩ := idx_facts t
  show (cfg0.win 4).cut (grid0.coords t) ((dats m 0 c).after 4 t) = _
  rw [after0_4]
  unfold out0_4
  rw [View.canon_unit_zero hz]
  funext j
  obtain ⟨r, q, rfl⟩ : ∃ (r : Fin 8) (q : Fin 128), j = ix2 r q := ⟨j 0, j 1, eq_ix2 j⟩
  rw [View.read_apply]
  show Cert.KernelIdeal.Hand.stored (F := Ideal) (iblk m c 0 t) (iblk m c 1 t) (iblk m c 2 t) (iblk m c 3 t) (ix2 r q)
    = rowsOf m c (((cfg0.win 4).blk t).view.emb (ix2 r q))
  have hemb : ((cfg0.win 4).blk t).view.emb (ix2 r q) = (ix2 (⟨8 * t.val + r.val, by have := r.isLt; omega⟩ : Fin 2048) q : S2048x128.Idx) := by
    funext a
    apply Fin.ext
    have hr := r.isLt
    match a with
    | ⟨0, _⟩ => show win0_4.index t (0 : Fin 2) * 8 + 1 * r.val = 8 * t.val + r.val; omega
    | ⟨1, _⟩ => show win0_4.index t (1 : Fin 2) * 128 + 1 * q.val = q.val; omega
  rw [hemb]
  refine (stored_apply (iblk m c 0 t) (iblk m c 1 t) (iblk m c 2 t) (iblk m c 3 t) r q).trans ?_
  rw [blkV0 m c t, blkV1 m c t, blkV2 m c t, blkI3 m c t]
  exact (rowsArr_tile _ _ _ _ ⟨t.val, ht⟩ r q _).symm

/-- THE ARRAY after the launch is the array of per-sample rows of the four arguments. -/
theorem final (c : Dev nD) : (dats m 0 c).arrAt 4 cfg0.N = rowsOf m c :=
  (dats m 0 c).arrAt_eq_of_cover 4 (rowsOf m c) (fun t _ => flushed_eq m stored_apply c t) cover

end Stored

end Cert.KernelIdeal.HValue

end
-- ==== Proof.KTail.lean ====
/-
  The host operations after the launch, on the array of per-sample rows.

  After the launch the program sums the 2048 × 128 array over its rows (one sum per column, started from zero), takes
  columns 0 … 5 of that as six scalars, and from them forms the ten results by the shared function `Cert.Loss.tail`
  (divisions by the element counts, sums, the ten numbers side by side).  When the array is the array of per-sample rows,
  column k < 6 sums to total k, so the ten results are `Cert.Loss.result` of the argument arrays.
-/
import proofs.«169949_j60610578481375_2_alg».proof.Proof.Gen.KernelIdeal
import proofs.«169949_j60610578481375_2_alg».proof.Proof.Spec
import proofs.«169949_j60610578481375_2_alg».proof.Proof.KTotals
import Idealize.ShloMosaic.Lib.Pipeline.Value
import Idealize.ShloMosaic.PureOps.Ideal.Laws

noncomputable section

open scoped BigOperators

namespace Cert.KernelIdeal.HValue

open Idealize.ShloMosaic Idealize.ShloMosaic.ValueIdx Cert.KernelIdeal Cert.Loss

/-- Column `off 0` of the column sums of `R` (each started from zero), as a scalar: the slice of width one at that
    column, its one entry read as a rank-0 array. -/
def colTotal (R : FVec Ideal S2048x128 .f32) (off : Fin S128.rank → Nat) (hs : S128.Slices off S1) : FVec Ideal S_ .f32 :=
  shapeCast S_ (extractStridedSlice S1 off
    (Host.reduceAdd (F := Ideal) R (constant (F := Ideal) S_ .f32 0x00000000#32) Facts₀.reducesTo_S2048x128_S128_d0 Facts₀.h_S_) hs)
    Facts₀.shapeCasts_S1_S_

/-- It is the sum of that column over the 2048 rows. -/
theorem colTotal_apply (R : FVec Ideal S2048x128 .f32) (off : Fin S128.rank → Nat) (hs : S128.Slices off S1)
    (k : Fin 128) (hoff : off 0 = k.val) : colTotal R off hs = fun _ => ∑ r : Fin 2048, R (ix2 r k) := by
  funext i
  have hR : S2048x128.Reduces [0] S128 := by decide
  have h1 : (S1.rowMajor (ix1 (0 : Fin 1))).val < 1 := (S1.rowMajor _).isLt
  have h0 : (S_.rowMajor i).val < 1 := (S_.rowMajor i).isLt
  unfold colTotal
  rw [shapeCast_apply _ Facts₀.shapeCasts_S1_S_ i (ix1 (0 : Fin 1)) (by omega)]
  rw [extractStridedSlice_apply off _ hs (ix1 (0 : Fin 1)) (ix1 k) (fun a => by
    match a with
    | ⟨0, _⟩ => show k.val = off 0 + 0; omega)]
  simp only [Host.reduceAdd, Ideal.hostReduceAdd_def]
  rw [Ideal.hostReduceAdd_single Facts₀.reducesTo_S2048x128_S128_d0 hR, constant_apply, Ideal.ofBits_zero_f32, zero_add]
  refine Finset.sum_congr rfl fun r _ => congrArg R (funext fun a => Fin.ext ?_)
  match a with
  | ⟨0, _⟩ => rfl
  | ⟨1, _⟩ => rfl

/-- Of the array of per-sample rows, column `k < 6` totals to total `k` of the specification. -/
theorem colTotal_rows (x0 x1 x2 : ArrV) (x3 : ArrI) (off : Fin S128.rank → Nat) (hs : S128.Slices off S1)
    (k : Fin 6) (hoff : off 0 = k.val) : colTotal (rowsArr x0 x1 x2 x3) off hs = fun _ => total x0 x1 x2 x3 k := by
  have hk : k.val < 128 := by have := k.isLt; omega
  rw [colTotal_apply (rowsArr x0 x1 x2 x3) off hs ⟨k.val, hk⟩ hoff, rowsArr_colsum x0 x1 x2 x3 ⟨k.val, hk⟩ k.isLt]

/-- What the host operations after the launch compute from the array `R` the launch leaves: the six column totals,
    then the shared tail. -/
def hostTail (R : FVec Ideal S2048x128 .f32) : FVec Ideal S10 .f32 :=
  Cert.Loss.tail Facts₀.bcast_S_S1 Facts₀.concatenates_S1_S1_S1_S1_S1_S1_S1_S1_S1_S1_S10_d0
    (colTotal R ![0] Facts₀.slices_S128_S1_0) (colTotal R ![1] Facts₀.slices_S128_S1_1) (colTotal R ![2] Facts₀.slices_S128_S1_2)
    (colTotal R ![3] Facts₀.slices_S128_S1_3) (colTotal R ![4] Facts₀.slices_S128_S1_4) (colTotal R ![5] Facts₀.slices_S128_S1_5)

/-- On the array of per-sample rows that is the specification's result. -/
theorem hostTail_rows (x0 x1 x2 : ArrV) (x3 : ArrI) :
    hostTail (rowsArr x0 x1 x2 x3)
      = Cert.Loss.result Facts₀.bcast_S_S1 Facts₀.concatenates_S1_S1_S1_S1_S1_S1_S1_S1_S1_S1_S10_d0 x0 x1 x2 x3 := by
  unfold hostTail Cert.Loss.result
  rw [colTotal_rows x0 x1 x2 x3 ![0] Facts₀.slices_S128_S1_0 0 rfl, colTotal_rows x0 x1 x2 x3 ![1] Facts₀.slices_S128_S1_1 1 rfl,
    colTotal_rows x0 x1 x2 x3 ![2] Facts₀.slices_S128_S1_2 2 rfl, colTotal_rows x0 x1 x2 x3 ![3] Facts₀.slices_S128_S1_3 3 rfl,
    colTotal_rows x0 x1 x2 x3 ![4] Facts₀.slices_S128_S1_4 4 rfl, colTotal_rows x0 x1 x2 x3 ![5] Facts₀.slices_S128_S1_5 5 rfl]

end Cert.KernelIdeal.HValue

end
-- ==== Proof.LibNary10.lean ====
/-
  A host operation with TEN operand buffers given as a literal family (a concatenation of ten arrays): what it writes is its
  function applied to the ten operands' contents, each read AT ITS OWN buffer.  Stated so, the contents of each operand can be
  rewritten further by the results of the operations before it; with the operands left under a binder (`fun k => F (xs k)`) they
  cannot, since `xs k` is no literal buffer.  The four-operand form is the library's; this is the same statement for ten.
-/
import Idealize.ShloMosaic.Lib.StableHlo.Run

noncomputable section

namespace Cert.Lib

open Idealize.ShloMosaic Idealize.ShloMosaic.StableHlo

variable {τ : Topo} {sig : RefSig} {Val : EltTy → Type}
variable {x0 x1 x2 x3 x4 x5 x6 x7 x8 x9 y : Ref sig .tc}

set_option maxHeartbeats 1000000 in
/-- The result of a ten-operand operation, its operands' contents read at their own buffers. -/
theorem nary10_result
    (f : ((k : Fin 10) → ((![x0, x1, x2, x3, x4, x5, x6, x7, x8, x9] : Fin 10 → Ref sig .tc) k).ty.Contents Val) → y.ty.Contents Val) (hxs hy)
    (F : Valuation τ sig Val) :
    (nary (τ := τ) ![x0, x1, x2, x3, x4, x5, x6, x7, x8, x9] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (fun i => i.elim0))))))))))) := by
  rw [nary_result]; congr 1; funext k; fin_cases k <;> rfl

/-- The same with the result buffer un-indexed, for use as a rewrite rule of one simplification pass. -/
theorem nary10_result'
    (f : ((k : Fin 10) → ((![x0, x1, x2, x3, x4, x5, x6, x7, x8, x9] : Fin 10 → Ref sig .tc) k).ty.Contents Val) → y.ty.Contents Val) (hxs hy)
    (F : Valuation τ sig Val) :
    (nary (τ := τ) ![x0, x1, x2, x3, x4, x5, x6, x7, x8, x9] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (fun i => i.elim0))))))))))) :=
  nary10_result f hxs hy F

/-- The form used to read a run: when the operation's function takes its ten operands one by one, `fun u => g (u 0) … (u 9)`, the result
    is `g` of the ten operands' contents, each a plain argument read at its own buffer. -/
theorem nary10_result_args
    (g : x0.ty.Contents Val → x1.ty.Contents Val → x2.ty.Contents Val → x3.ty.Contents Val → x4.ty.Contents Val → x5.ty.Contents Val → x6.ty.Contents Val → x7.ty.Contents Val → x8.ty.Contents Val → x9.ty.Contents Val → y.ty.Contents Val) (hxs hy) (F : Valuation τ sig Val) :
    (nary (τ := τ) ![x0, x1, x2, x3, x4, x5, x6, x7, x8, x9] y (fun u => g (u 0) (u 1) (u 2) (u 3) (u 4) (u 5) (u 6) (u 7) (u 8) (u 9)) hxs hy).result F (Proc.devRef .tc y)
      = g (F (Proc.devRef .tc x0)) (F (Proc.devRef .tc x1)) (F (Proc.devRef .tc x2)) (F (Proc.devRef .tc x3)) (F (Proc.devRef .tc x4)) (F (Proc.devRef .tc x5)) (F (Proc.devRef .tc x6)) (F (Proc.devRef .tc x7)) (F (Proc.devRef .tc x8)) (F (Proc.devRef .tc x9)) := by
  rw [nary_result]
  rfl

/-- The same with each operand's contents KNOWN: if the ten operands hold `v0 … v9`, the operation writes `g v0 … v9`.  Each operand's
    equation is then a goal of its own. -/
theorem nary10_result_of
    (g : x0.ty.Contents Val → x1.ty.Contents Val → x2.ty.Contents Val → x3.ty.Contents Val → x4.ty.Contents Val → x5.ty.Contents Val → x6.ty.Contents Val → x7.ty.Contents Val → x8.ty.Contents Val → x9.ty.Contents Val → y.ty.Contents Val) (hxs hy) (F : Valuation τ sig Val)
    (v0 : x0.ty.Contents Val) (v1 : x1.ty.Contents Val) (v2 : x2.ty.Contents Val) (v3 : x3.ty.Contents Val) (v4 : x4.ty.Contents Val) (v5 : x5.ty.Contents Val) (v6 : x6.ty.Contents Val) (v7 : x7.ty.Contents Val) (v8 : x8.ty.Contents Val) (v9 : x9.ty.Contents Val)
    (h0 : F (Proc.devRef .tc x0) = v0) (h1 : F (Proc.devRef .tc x1) = v1) (h2 : F (Proc.devRef .tc x2) = v2) (h3 : F (Proc.devRef .tc x3) = v3) (h4 : F (Proc.devRef .tc x4) = v4) (h5 : F (Proc.devRef .tc x5) = v5) (h6 : F (Proc.devRef .tc x6) = v6) (h7 : F (Proc.devRef .tc x7) = v7) (h8 : F (Proc.devRef .tc x8) = v8) (h9 : F (Proc.devRef .tc x9) = v9) :
    (nary (τ := τ) ![x0, x1, x2, x3, x4, x5, x6, x7, x8, x9] y (fun u => g (u 0) (u 1) (u 2) (u 3) (u 4) (u 5) (u 6) (u 7) (u 8) (u 9)) hxs hy).result F (Proc.devRef .tc y)
      = g v0 v1 v2 v3 v4 v5 v6 v7 v8 v9 := by
  subst h0 h1 h2 h3 h4 h5 h6 h7 h8 h9
  exact nary10_result_args g hxs hy F

end Cert.Lib

end
-- ==== Proof.LibReduce.lean ====
/-
  Sums of a whole block, as a vector unit takes them.

  A sum over every element of a block is taken one axis at a time: the leading unit axis first (a one-term sum), for a
  field of two components the component axis next, then the columns of each row, and last — after the row sums are laid
  out as a 1 × H row — the rows; the one number left is read out of a 1 × 1 vector.  On the extended reals each step is a
  plain finite sum over that axis's coordinates, so the whole chain is the nested sum over rows, columns (and components)
  of the block's entries at explicit coordinates.  The statements are over arbitrary extents H and W.
-/
import Idealize.ShloMosaic.PureOps.Ideal.Laws
import Idealize.ShloMosaic.Lib.ValueLayout

noncomputable section

namespace Cert.Lib

open Idealize.ShloMosaic Idealize.ShloMosaic.ValueIdx

/-! ### The source index over a reduced index, by coordinates -/

/-- Over (b, c, d) with a put back on the leading axis of a rank-4 shape: (a, b, c, d). -/
theorem lift4_axis0 {n0 n1 n2 n3 : Nat} (h : (⟨4, ![n0, n1, n2, n3]⟩ : Shape).Reduces [0] ⟨3, ![n1, n2, n3]⟩)
    (a : Fin n0) (b : Fin n1) (c : Fin n2) (d : Fin n3) : h.lift (ix3 b c d) a = ix4 a b c d := by
  funext e
  refine Fin.ext ?_
  match e with
  | ⟨0, _⟩ => rfl
  | ⟨1, _⟩ => rfl
  | ⟨2, _⟩ => rfl
  | ⟨3, _⟩ => rfl

/-- Over (b, c) with a put back on the leading axis of a rank-3 shape: (a, b, c). -/
theorem lift3_axis0 {n0 n1 n2 : Nat} (h : (⟨3, ![n0, n1, n2]⟩ : Shape).Reduces [0] ⟨2, ![n1, n2]⟩)
    (a : Fin n0) (b : Fin n1) (c : Fin n2) : h.lift (ix2 b c) a = ix3 a b c := by
  funext e
  refine Fin.ext ?_
  match e with
  | ⟨0, _⟩ => rfl
  | ⟨1, _⟩ => rfl
  | ⟨2, _⟩ => rfl

/-- Over a with k put back on the last axis of a rank-2 shape: (a, k). -/
theorem lift2_axis1 {n0 n1 : Nat} (h : (⟨2, ![n0, n1]⟩ : Shape).Reduces [1] ⟨1, ![n0]⟩)
    (a : Fin n0) (k : Fin n1) : h.lift (ix1 a) k = ix2 a k := by
  funext e
  refine Fin.ext ?_
  match e with
  | ⟨0, _⟩ => rfl
  | ⟨1, _⟩ => rfl

/-! ### One axis summed away, read at explicit coordinates -/

/-- The leading axis of a rank-4 vector summed away: at (b, c, d) the sum over a of the entries (a, b, c, d). -/
theorem reduce4_axis0 {n0 n1 n2 n3 : Nat} (x : FVec Ideal ⟨4, ![n0, n1, n2, n3]⟩ .f32)
    (h : (⟨4, ![n0, n1, n2, n3]⟩ : Shape).Reduces [0] ⟨3, ![n1, n2, n3]⟩) (hφ : FKind.Formats .f32)
    (hacc : (0x00000000#32 : BitVec 32) = 0x00000000#32) (b : Fin n1) (c : Fin n2) (d : Fin n3) :
    multiReduction .add [0] ⟨3, ![n1, n2, n3]⟩ x 0x00000000#32 h hφ hacc (ix3 b c d) = ∑ a : Fin n0, x (ix4 a b c d) :=
  (Ideal.multiReduction_add_single x 0x00000000#32 h hφ hacc (ix3 b c d)).trans
    (Finset.sum_congr rfl fun a _ => congrArg x (lift4_axis0 h a b c d))

/-- The leading axis of a rank-3 vector summed away: at (b, c) the sum over a of the entries (a, b, c). -/
theorem reduce3_axis0 {n0 n1 n2 : Nat} (x : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = 0x00000000#32) (b : Fin n1) (c : Fin n2) :
    multiReduction .add [0] ⟨2, ![n1, n2]⟩ x 0x00000000#32 h hφ hacc (ix2 b c) = ∑ a : Fin n0, x (ix3 a b c) :=
  (Ideal.multiReduction_add_single x 0x00000000#32 h hφ hacc (ix2 b c)).trans
    (Finset.sum_congr rfl fun a _ => congrArg x (lift3_axis0 h a b c))

/-- The columns of a matrix summed away: at row a the sum over k of the entries (a, k). -/
theorem reduce2_axis1 {n0 n1 : Nat} (x : FVec Ideal ⟨2, ![n0, n1]⟩ .f32)
    (h : (⟨2, ![n0, n1]⟩ : Shape).Reduces [1] ⟨1, ![n0]⟩) (hφ : FKind.Formats .f32)
    (hacc : (0x00000000#32 : BitVec 32) = 0x00000000#32) (a : Fin n0) :
    multiReduction .add [1] ⟨1, ![n0]⟩ x 0x00000000#32 h hφ hacc (ix1 a) = ∑ k : Fin n1, x (ix2 a k) :=
  (Ideal.multiReduction_add_single x 0x00000000#32 h hφ hacc (ix1 a)).trans
    (Finset.sum_congr rfl fun k _ => congrArg x (lift2_axis1 h a k))

/-! ### The chains -/

/-- The one entry of a 1 × 1 vector. -/
theorem extractAt_00 {α : Type} (v : (⟨2, ![1, 1]⟩ : Shape).Idx → α)
    (hp : ∀ a, (![0, 0] : Fin 2 → Nat) a < (⟨2, ![1, 1]⟩ : Shape).size a) :
    extractAt ![0, 0] v hp = v (ix2 (0 : Fin 1) (0 : Fin 1)) := by
  unfold extractAt
  refine congrArg v (funext fun a => Fin.ext ?_)
  match a with
  | ⟨0, _⟩ => rfl
  | ⟨1, _⟩ => rfl

/-- A 1 × H row summed along itself, laid out 1 × 1 and read out: the sum of the row's entries. -/
theorem rowTotal {H : Nat} (v : FVec Ideal ⟨2, ![1, H]⟩ .f32)
    (h4 : (⟨2, ![1, H]⟩ : Shape).Reduces [1] ⟨1, ![1]⟩) (c2 : (⟨1, ![1]⟩ : Shape).ShapeCasts ⟨2, ![1, 1]⟩)
    (hp : ∀ a, (![0, 0] : Fin 2 → Nat) a < (⟨2, ![1, 1]⟩ : Shape).size a)
    (hφ : FKind.Formats .f32) (hacc : (0x00000000#32 : BitVec 32) = 0x00000000#32) :
    extractAt ![0, 0] (shapeCast ⟨2, ![1, 1]⟩ (multiReduction .add [1] ⟨1, ![1]⟩ v 0x00000000#32 h4 hφ hacc) c2) hp
      = ∑ h : Fin H, v (ix2 (0 : Fin 1) h) :=
  (extractAt_00 _ hp).trans
    ((shapeCast_a_1a_apply _ c2 (0 : Fin 1) (0 : Fin 1)).trans (reduce2_axis1 v h4 hφ hacc (0 : Fin 1)))

/-- The sums along the rows of an H × W matrix, laid out as a 1 × H row: entry h is the sum of row h. -/
theorem rowSums2 {H W : Nat} (y : FVec Ideal ⟨2, ![H, W]⟩ .f32)
    (h3 : (⟨2, ![H, W]⟩ : Shape).Reduces [1] ⟨1, ![H]⟩) (c1 : (⟨1, ![H]⟩ : Shape).ShapeCasts ⟨2, ![1, H]⟩)
    (hφ : FKind.Formats .f32) (hacc : (0x00000000#32 : BitVec 32) = 0x00000000#32) (u : Fin 1) (h : Fin H) :
    shapeCast ⟨2, ![1, H]⟩ (multiReduction .add [1] ⟨1, ![H]⟩ y 0x00000000#32 h3 hφ hacc) c1 (ix2 u h)
      = ∑ w : Fin W, y (ix2 h w) :=
  (shapeCast_a_1a_apply _ c1 u h).trans (reduce2_axis1 y h3 hφ hacc h)

/-- The same of a 1 × H × W block, its unit axis summed away first: entry h is the sum over w of the entries (0, h, w). -/
theorem rowSums3 {H W : Nat} (x : FVec Ideal ⟨3, ![1, H, W]⟩ .f32)
    (h2 : (⟨3, ![1, H, W]⟩ : Shape).Reduces [0] ⟨2, ![H, W]⟩)
    (h3 : (⟨2, ![H, W]⟩ : Shape).Reduces [1] ⟨1, ![H]⟩) (c1 : (⟨1, ![H]⟩ : Shape).ShapeCasts ⟨2, ![1, H]⟩)
    (hφ : FKind.Formats .f32) (hacc : (0x00000000#32 : BitVec 32) = 0x00000000#32) (u : Fin 1) (h : Fin H) :
    shapeCast ⟨2, ![1, H]⟩ (multiReduction .add [1] ⟨1, ![H]⟩
        (multiReduction .add [0] ⟨2, ![H, W]⟩ x 0x00000000#32 h2 hφ hacc) 0x00000000#32 h3 hφ hacc) c1 (ix2 u h)
      = ∑ w : Fin W, x (ix3 (0 : Fin 1) h w) :=
  (rowSums2 _ h3 c1 hφ hacc u h).trans
    (Finset.sum_congr rfl fun w _ => (reduce3_axis0 x h2 hφ hacc h w).trans (Fin.sum_univ_one _))

/-- THE WHOLE SUM of a 1 × H × W block: unit axis, columns, rows, read out. -/
theorem total3 {H W : Nat} (x : FVec Ideal ⟨3, ![1, H, W]⟩ .f32)
    (h2 : (⟨3, ![1, H, W]⟩ : Shape).Reduces [0] ⟨2, ![H, W]⟩)
    (h3 : (⟨2, ![H, W]⟩ : Shape).Reduces [1] ⟨1, ![H]⟩) (c1 : (⟨1, ![H]⟩ : Shape).ShapeCasts ⟨2, ![1, H]⟩)
    (h4 : (⟨2, ![1, H]⟩ : Shape).Reduces [1] ⟨1, ![1]⟩) (c2 : (⟨1, ![1]⟩ : Shape).ShapeCasts ⟨2, ![1, 1]⟩)
    (hp : ∀ a, (![0, 0] : Fin 2 → Nat) a < (⟨2, ![1, 1]⟩ : Shape).size a)
    (hφ : FKind.Formats .f32) (hacc : (0x00000000#32 : BitVec 32) = 0x00000000#32) :
    extractAt ![0, 0] (shapeCast ⟨2, ![1, 1]⟩ (multiReduction .add [1] ⟨1, ![1]⟩
        (shapeCast ⟨2, ![1, H]⟩ (multiReduction .add [1] ⟨1, ![H]⟩
          (multiReduction .add [0] ⟨2, ![H, W]⟩ x 0x00000000#32 h2 hφ hacc) 0x00000000#32 h3 hφ hacc) c1)
        0x00000000#32 h4 hφ hacc) c2) hp
      = ∑ h : Fin H, ∑ w : Fin W, x (ix3 (0 : Fin 1) h w) :=
  (rowTotal _ h4 c2 hp hφ hacc).trans
    (Finset.sum_congr rfl fun h _ => rowSums3 x h2 h3 c1 hφ hacc (0 : Fin 1) h)

/-- THE WHOLE SUM of a 1 × 2 × H × W block (a field of two components): unit axis, components, columns, rows, read out. -/
theorem total4 {H W : Nat} (x : FVec Ideal ⟨4, ![1, 2, H, W]⟩ .f32)
    (h1 : (⟨4, ![1, 2, H, W]⟩ : Shape).Reduces [0] ⟨3, ![2, H, W]⟩)
    (h2 : (⟨3, ![2, H, W]⟩ : Shape).Reduces [0] ⟨2, ![H, W]⟩)
    (h3 : (⟨2, ![H, W]⟩ : Shape).Reduces [1] ⟨1, ![H]⟩) (c1 : (⟨1, ![H]⟩ : Shape).ShapeCasts ⟨2, ![1, H]⟩)
    (h4 : (⟨2, ![1, H]⟩ : Shape).Reduces [1] ⟨1, ![1]⟩) (c2 : (⟨1, ![1]⟩ : Shape).ShapeCasts ⟨2, ![1, 1]⟩)
    (hp : ∀ a, (![0, 0] : Fin 2 → Nat) a < (⟨2, ![1, 1]⟩ : Shape).size a)
    (hφ : FKind.Formats .f32) (hacc : (0x00000000#32 : BitVec 32) = 0x00000000#32) :
    extractAt ![0, 0] (shapeCast ⟨2, ![1, 1]⟩ (multiReduction .add [1] ⟨1, ![1]⟩
        (shapeCast ⟨2, ![1, H]⟩ (multiReduction .add [1] ⟨1, ![H]⟩
          (multiReduction .add [0] ⟨2, ![H, W]⟩
            (multiReduction .add [0] ⟨3, ![2, H, W]⟩ x 0x00000000#32 h1 hφ hacc) 0x00000000#32 h2 hφ hacc)
          0x00000000#32 h3 hφ hacc) c1)
        0x00000000#32 h4 hφ hacc) c2) hp
      = ∑ h : Fin H, ∑ w : Fin W, ∑ c : Fin 2, x (ix4 (0 : Fin 1) c h w) :=
  (rowTotal _ h4 c2 hp hφ hacc).trans
    (Finset.sum_congr rfl fun h _ =>
      (rowSums2 _ h3 c1 hφ hacc (0 : Fin 1) h).trans
        (Finset.sum_congr rfl fun w _ =>
          (reduce3_axis0 _ h2 hφ hacc h w).trans
            (Finset.sum_congr rfl fun c _ => (reduce4_axis0 x h1 hφ hacc c h w).trans (Fin.sum_univ_one _))))

/-- THE WHOLE SUM of a 1 × 1 × H × W block: the two unit axes, columns, rows, read out. -/
theorem total4u {H W : Nat} (x : FVec Ideal ⟨4, ![1, 1, H, W]⟩ .f32)
    (h1 : (⟨4, ![1, 1, H, W]⟩ : Shape).Reduces [0] ⟨3, ![1, H, W]⟩)
    (h2 : (⟨3, ![1, H, W]⟩ : Shape).Reduces [0] ⟨2, ![H, W]⟩)
    (h3 : (⟨2, ![H, W]⟩ : Shape).Reduces [1] ⟨1, ![H]⟩) (c1 : (⟨1, ![H]⟩ : Shape).ShapeCasts ⟨2, ![1, H]⟩)
    (h4 : (⟨2, ![1, H]⟩ : Shape).Reduces [1] ⟨1, ![1]⟩) (c2 : (⟨1, ![1]⟩ : Shape).ShapeCasts ⟨2, ![1, 1]⟩)
    (hp : ∀ a, (![0, 0] : Fin 2 → Nat) a < (⟨2, ![1, 1]⟩ : Shape).size a)
    (hφ : FKind.Formats .f32) (hacc : (0x00000000#32 : BitVec 32) = 0x00000000#32) :
    extractAt ![0, 0] (shapeCast ⟨2, ![1, 1]⟩ (multiReduction .add [1] ⟨1, ![1]⟩
        (shapeCast ⟨2, ![1, H]⟩ (multiReduction .add [1] ⟨1, ![H]⟩
          (multiReduction .add [0] ⟨2, ![H, W]⟩
            (multiReduction .add [0] ⟨3, ![1, H, W]⟩ x 0x00000000#32 h1 hφ hacc) 0x00000000#32 h2 hφ hacc)
          0x00000000#32 h3 hφ hacc) c1)
        0x00000000#32 h4 hφ hacc) c2) hp
      = ∑ h : Fin H, ∑ w : Fin W, x (ix4 (0 : Fin 1) (0 : Fin 1) h w) :=
  (total3 _ h2 h3 c1 h4 c2 hp hφ hacc).trans
    (Finset.sum_congr rfl fun h _ => Finset.sum_congr rfl fun w _ =>
      (reduce4_axis0 x h1 hφ hacc (0 : Fin 1) h w).trans (Fin.sum_univ_one _))

end Cert.Lib

end
-- ==== Proof.KPayAbsSq.lean ====
/-
  The first two sums of a sample as the kernel takes them: the error block is the prediction block less the label block,
  entry by entry; its absolute values, and its squares, are summed over the whole 1 × 2 × 257 × 257 block one axis at a
  time.  Each is the specification's nested sum over rows, columns and components of the same entries.
-/
import proofs.«169949_j60610578481375_2_alg».proof.Proof.Gen.KernelIdeal.Skeleton
import proofs.«169949_j60610578481375_2_alg».proof.Proof.Spec
import proofs.«169949_j60610578481375_2_alg».proof.Proof.LibReduce

noncomputable section

namespace Cert.KernelIdeal.HPay

open Idealize.ShloMosaic Idealize.ShloMosaic.ValueIdx Cert.KernelIdeal Cert.KernelIdeal.Gen Cert.Loss

/-- The error block at component c and node (h, w) is the error field there. -/
theorem pay2_apply (x0 x1 : Vec Ideal S1x2x257x257 .f32) (c : Fin 2) (h w : Fin 257) :
    k0_pay2 (F := Ideal) x0 x1 (ix4 (0 : Fin 1) c h w) = dif (bkV x0) (bkV x1) c h w := rfl

/-- The kernel's sum of absolute errors is the specification's. -/
theorem pay3_eq (x0 x1 : Vec Ideal S1x2x257x257 .f32) :
    k0_pay3 (F := Ideal) x0 x1 = Cert.Loss.sAbs (bkV x0) (bkV x1) := by
  unfold k0_pay3
  refine (Cert.Lib.total4 (H := 257) (W := 257) _ _ _ _ _ _ _ _ _ _).trans ?_
  unfold Cert.Loss.sAbs
  refine Finset.sum_congr rfl fun h _ => Finset.sum_congr rfl fun w _ => Finset.sum_congr rfl fun c _ => ?_
  rfl

/-- The kernel's sum of squared errors is the specification's. -/
theorem pay4_eq (x0 x1 : Vec Ideal S1x2x257x257 .f32) :
    k0_pay4 (F := Ideal) x0 x1 = Cert.Loss.sSq (bkV x0) (bkV x1) := by
  unfold k0_pay4
  refine (Cert.Lib.total4 (H := 257) (W := 257) _ _ _ _ _ _ _ _ _ _).trans ?_
  unfold Cert.Loss.sSq
  refine Finset.sum_congr rfl fun h _ => Finset.sum_congr rfl fun w _ => Finset.sum_congr rfl fun c _ => ?_
  rfl

end Cert.KernelIdeal.HPay

end
-- ==== Proof.KPayStrain.lean ====
/-
  The kernel's strain-rate number of a block is the specification's sum for the block's one sample.

  From the error field d (prediction minus label) of the block the kernel cuts the four arrays of corner values of every cell
  — d at rows h or h + 1 and columns w or w + 1 —, forms the column difference ((d(h,w+1) + d(h+1,w+1)) − d(h,w)) − d(h+1,w),
  halved, and the row difference ((d(h+1,w) + d(h+1,w+1)) − d(h,w)) − d(h,w+1), halved later; it picks the two components of
  each (a cut of one component followed by dropping that axis), forms
  e_x0 · e_x0 + (0.5 · (e_x1 + e_y0)) · (e_x1 + e_y0) + e_y1 · e_y1 at every cell, and sums the 1 × 256 × 256 array one axis at a
  time.  Every cut reads the field at an explicit node, the axis-by-axis sum is the double sum over rows and columns, and the
  integrand is grouped exactly as the specification's, so the two agree term by term: no law of arithmetic is needed.
-/
import proofs.«169949_j60610578481375_2_alg».proof.Proof.Gen.KernelIdeal.Skeleton
import proofs.«169949_j60610578481375_2_alg».proof.Proof.Spec
import proofs.«169949_j60610578481375_2_alg».proof.Proof.LibReduce
import Idealize.ShloMosaic.Lib.Pipeline.Value
import Idealize.ShloMosaic.Lib.ValueLayout

noncomputable section

open scoped BigOperators

namespace Cert.KernelIdeal.HPay

open Idealize.ShloMosaic Idealize.ShloMosaic.ValueIdx Cert.KernelIdeal Cert.KernelIdeal.Gen Cert.Loss

/-! ### The four corner values of a cell -/

/-- The cut at rows `0:256`, columns `1:257` reads the error at node `(h, w + 1)`. -/
theorem pay5_at (x0 x1 : Vec Ideal S1x2x257x257 .f32) (c : Fin 2) (h w : Fin 256) :
    k0_pay5 (F := Ideal) x0 x1 (ix4 (0 : Fin 1) c h w) = dif (bkV x0) (bkV x1) c (lo h) (hi w) := by
  unfold k0_pay5
  refine (extractStridedSlice_apply ![0, 0, 0, 1] (k0_pay2 (F := Ideal) x0 x1) slices_S1x2x257x257_o0_0_0_1_S1x2x256x256
    (ix4 (0 : Fin 1) c h w) (ix4 (0 : Fin 1) c (lo h) (hi w)) (fun a => ?_)).trans rfl
  match a with
  | ⟨0, _⟩ => rfl
  | ⟨1, _⟩ => exact (Nat.zero_add _).symm
  | ⟨2, _⟩ => exact (Nat.zero_add _).symm
  | ⟨3, _⟩ => exact Nat.add_comm w.val 1

/-- The cut at rows `1:257`, columns `1:257` reads the error at node `(h + 1, w + 1)`. -/
theorem pay6_at (x0 x1 : Vec Ideal S1x2x257x257 .f32) (c : Fin 2) (h w : Fin 256) :
    k0_pay6 (F := Ideal) x0 x1 (ix4 (0 : Fin 1) c h w) = dif (bkV x0) (bkV x1) c (hi h) (hi w) := by
  unfold k0_pay6
  refine (extractStridedSlice_apply ![0, 0, 1, 1] (k0_pay2 (F := Ideal) x0 x1) slices_S1x2x257x257_o0_0_1_1_S1x2x256x256
    (ix4 (0 : Fin 1) c h w) (ix4 (0 : Fin 1) c (hi h) (hi w)) (fun a => ?_)).trans rfl
  match a with
  | ⟨0, _⟩ => rfl
  | ⟨1, _⟩ => exact (Nat.zero_add _).symm
  | ⟨2, _⟩ => exact Nat.add_comm h.val 1
  | ⟨3, _⟩ => exact Nat.add_comm w.val 1

/-- The cut at rows `0:256`, columns `0:256` reads the error at node `(h, w)`. -/
theorem pay7_at (x0 x1 : Vec Ideal S1x2x257x257 .f32) (c : Fin 2) (h w : Fin 256) :
    k0_pay7 (F := Ideal) x0 x1 (ix4 (0 : Fin 1) c h w) = dif (bkV x0) (bkV x1) c (lo h) (lo w) := by
  unfold k0_pay7
  refine (extractStridedSlice_apply ![0, 0, 0, 0] (k0_pay2 (F := Ideal) x0 x1) slices_S1x2x257x257_o0_0_0_0_S1x2x256x256
    (ix4 (0 : Fin 1) c h w) (ix4 (0 : Fin 1) c (lo h) (lo w)) (fun a => ?_)).trans rfl
  match a with
  | ⟨0, _⟩ => rfl
  | ⟨1, _⟩ => exact (Nat.zero_add _).symm
  | ⟨2, _⟩ => exact (Nat.zero_add _).symm
  | ⟨3, _⟩ => exact (Nat.zero_add _).symm

/-- The cut at rows `1:257`, columns `0:256` reads the error at node `(h + 1, w)`. -/
theorem pay8_at (x0 x1 : Vec Ideal S1x2x257x257 .f32) (c : Fin 2) (h w : Fin 256) :
    k0_pay8 (F := Ideal) x0 x1 (ix4 (0 : Fin 1) c h w) = dif (bkV x0) (bkV x1) c (hi h) (lo w) := by
  unfold k0_pay8
  refine (extractStridedSlice_apply ![0, 0, 1, 0] (k0_pay2 (F := Ideal) x0 x1) slices_S1x2x257x257_o0_0_1_0_S1x2x256x256
    (ix4 (0 : Fin 1) c h w) (ix4 (0 : Fin 1) c (hi h) (lo w)) (fun a => ?_)).trans rfl
  match a with
  | ⟨0, _⟩ => rfl
  | ⟨1, _⟩ => exact (Nat.zero_add _).symm
  | ⟨2, _⟩ => exact Nat.add_comm h.val 1
  | ⟨3, _⟩ => exact (Nat.zero_add _).symm

/-! ### The two central differences -/

/-- The kernel's halved column difference at component `c`, cell `(h, w)`. -/
theorem pay9_at (x0 x1 : Vec Ideal S1x2x257x257 .f32) (c : Fin 2) (h w : Fin 256) :
    k0_pay9 (F := Ideal) x0 x1 (ix4 (0 : Fin 1) c h w) = ex (dif (bkV x0) (bkV x1)) c h w := by
  show (((k0_pay5 (F := Ideal) x0 x1 (ix4 (0 : Fin 1) c h w) + k0_pay6 (F := Ideal) x0 x1 (ix4 (0 : Fin 1) c h w))
      - k0_pay7 (F := Ideal) x0 x1 (ix4 (0 : Fin 1) c h w)) - k0_pay8 (F := Ideal) x0 x1 (ix4 (0 : Fin 1) c h w)) * half = _
  rw [pay5_at, pay6_at, pay7_at, pay8_at]
  rfl

/-- The kernel's row difference, not yet halved, at component `c`, cell `(h, w)`. -/
theorem pay10_at (x0 x1 : Vec Ideal S1x2x257x257 .f32) (c : Fin 2) (h w : Fin 256) :
    k0_pay10 (F := Ideal) x0 x1 (ix4 (0 : Fin 1) c h w) * half = ey (dif (bkV x0) (bkV x1)) c h w := by
  show (((k0_pay8 (F := Ideal) x0 x1 (ix4 (0 : Fin 1) c h w) + k0_pay6 (F := Ideal) x0 x1 (ix4 (0 : Fin 1) c h w))
      - k0_pay7 (F := Ideal) x0 x1 (ix4 (0 : Fin 1) c h w)) - k0_pay5 (F := Ideal) x0 x1 (ix4 (0 : Fin 1) c h w)) * half = _
  rw [pay5_at, pay6_at, pay7_at, pay8_at]
  rfl

/-! ### Picking a component, and the sum -/

/-- Cutting component `k` of a two-component cell field and dropping the component axis: entry `(0, h, w)` of the result is
    entry `(0, k, h, w)` of the field. -/
theorem comp_at (v : FVec Ideal S1x2x256x256 .f32) (o : Nat) (hs : S1x2x256x256.Slices ![0, o, 0, 0] S1x1x256x256)
    (hc : S1x1x256x256.ShapeCasts S1x256x256) (k : Fin 2) (hk : k.val = o + (0 : Fin 1).val) (h w : Fin 256) :
    shapeCast S1x256x256 (extractStridedSlice S1x1x256x256 ![0, o, 0, 0] v hs) hc (ix3 (0 : Fin 1) h w)
      = v (ix4 (0 : Fin 1) k h w) :=
  (shapeCast_1abc_abc_apply _ hc (0 : Fin 1) h w).trans
    (slice4_axis1_apply o v hs (0 : Fin 1) (0 : Fin 1) h w k hk)

/-- The kernel's strain number of two cell fields `A`, `B` and a factor `s`: the double sum over the cells of
    A₀ · A₀ + (0.5 · (A₁ + B₀ · s)) · (A₁ + B₀ · s) + (B₁ · s) · (B₁ · s). -/
theorem pay11_sum (A B : FVec Ideal S1x2x256x256 .f32) (s : Ideal .f32) :
    k0_pay11 (F := Ideal) A B s = ∑ h : Fin 256, ∑ w : Fin 256,
      ((A (ix4 (0 : Fin 1) (0 : Fin 2) h w) * A (ix4 (0 : Fin 1) (0 : Fin 2) h w)
        + (half * (A (ix4 (0 : Fin 1) (1 : Fin 2) h w) + B (ix4 (0 : Fin 1) (0 : Fin 2) h w) * s))
            * (A (ix4 (0 : Fin 1) (1 : Fin 2) h w) + B (ix4 (0 : Fin 1) (0 : Fin 2) h w) * s))
        + (B (ix4 (0 : Fin 1) (1 : Fin 2) h w) * s) * (B (ix4 (0 : Fin 1) (1 : Fin 2) h w) * s)) := by
  unfold k0_pay11
  refine (Cert.Lib.total3 (H := 256) (W := 256) _ _ _ _ _ _ _ _ _).trans ?_
  refine Finset.sum_congr rfl fun h _ => Finset.sum_congr rfl fun w _ => ?_
  have a0 : _ = A (ix4 (0 : Fin 1) (0 : Fin 2) h w) :=
    comp_at A 0 slices_S1x2x256x256_o0_0_0_0_S1x1x256x256 shapeCasts_S1x1x256x256_S1x256x256 (0 : Fin 2) rfl h w
  have a1 : _ = A (ix4 (0 : Fin 1) (1 : Fin 2) h w) :=
    comp_at A 1 slices_S1x2x256x256_o0_1_0_0_S1x1x256x256 shapeCasts_S1x1x256x256_S1x256x256 (1 : Fin 2) rfl h w
  have b0 : _ = B (ix4 (0 : Fin 1) (0 : Fin 2) h w) * s :=
    comp_at (mulf B (broadcast S1x2x256x256 s)) 0 slices_S1x2x256x256_o0_0_0_0_S1x1x256x256
      shapeCasts_S1x1x256x256_S1x256x256 (0 : Fin 2) rfl h w
  have b1 : _ = B (ix4 (0 : Fin 1) (1 : Fin 2) h w) * s :=
    comp_at (mulf B (broadcast S1x2x256x256 s)) 1 slices_S1x2x256x256_o0_1_0_0_S1x1x256x256
      shapeCasts_S1x1x256x256_S1x256x256 (1 : Fin 2) rfl h w
  rw [← a0, ← a1, ← b0, ← b1]
  rfl

/-- The kernel's strain-rate number of a block is the specification's sum of the strain-rate integrand of its sample. -/
theorem pay11_eq (x0 x1 : Vec Ideal S1x2x257x257 .f32) :
    k0_pay11 (F := Ideal) (k0_pay9 x0 x1) (k0_pay10 x0 x1) (Scalar.ofBits .f32 0x3F000000#32)
      = Cert.Loss.sStrain (bkV x0) (bkV x1) := by
  refine (pay11_sum _ _ _).trans ?_
  unfold sStrain
  refine Finset.sum_congr rfl fun h _ => Finset.sum_congr rfl fun w _ => ?_
  show ((k0_pay9 (F := Ideal) x0 x1 (ix4 (0 : Fin 1) (0 : Fin 2) h w) * k0_pay9 (F := Ideal) x0 x1 (ix4 (0 : Fin 1) (0 : Fin 2) h w)
        + (half * (k0_pay9 (F := Ideal) x0 x1 (ix4 (0 : Fin 1) (1 : Fin 2) h w)
              + k0_pay10 (F := Ideal) x0 x1 (ix4 (0 : Fin 1) (0 : Fin 2) h w) * half))
            * (k0_pay9 (F := Ideal) x0 x1 (ix4 (0 : Fin 1) (1 : Fin 2) h w)
              + k0_pay10 (F := Ideal) x0 x1 (ix4 (0 : Fin 1) (0 : Fin 2) h w) * half))
        + (k0_pay10 (F := Ideal) x0 x1 (ix4 (0 : Fin 1) (1 : Fin 2) h w) * half)
            * (k0_pay10 (F := Ideal) x0 x1 (ix4 (0 : Fin 1) (1 : Fin 2) h w) * half)) = _
  rw [pay9_at, pay9_at, pay10_at, pay10_at]
  rfl

end Cert.KernelIdeal.HPay

end
-- ==== Proof.LibBlock.lean ====
/-
  Sub-blocks read at explicit coordinates.

  A window of a rank-4 block, cut at unit strides from an offset on every axis, read at (a, b, c, d) is the block at
  the coordinates shifted by the offsets; and one component of a 1 × n × H × W field, cut out as a 1 × 1 × H × W block
  and viewed as 1 × H × W, read at (0, h, w) is the field at (0, component, h, w).
-/
import Idealize.ShloMosaic.Lib.ValueLayout

noncomputable section

namespace Cert.Lib

open Idealize.ShloMosaic Idealize.ShloMosaic.ValueIdx

variable {α : Type}

/-- A unit-stride window of a rank-4 array read at (a, b, c, d): the array at the coordinates the caller names, each the
    offset plus the window's coordinate. -/
theorem slice4_apply {n0 n1 n2 n3 m0 m1 m2 m3 : Nat} (o0 o1 o2 o3 : Nat)
    (X : (⟨4, ![n0, n1, n2, n3]⟩ : Shape).Idx → α)
    (hs : (⟨4, ![n0, n1, n2, n3]⟩ : Shape).Slices ![o0, o1, o2, o3] ⟨4, ![m0, m1, m2, m3]⟩)
    (a : Fin m0) (b : Fin m1) (c : Fin m2) (d : Fin m3) (a' : Fin n0) (b' : Fin n1) (c' : Fin n2) (d' : Fin n3)
    (ha : a'.val = o0 + a.val) (hb : b'.val = o1 + b.val) (hc : c'.val = o2 + c.val) (hd : d'.val = o3 + d.val) :
    extractStridedSlice ⟨4, ![m0, m1, m2, m3]⟩ ![o0, o1, o2, o3] X hs (ix4 a b c d) = X (ix4 a' b' c' d') :=
  extractStridedSlice_apply _ _ _ _ _ (fun ax => by
    match ax with
    | ⟨0, _⟩ => exact ha
    | ⟨1, _⟩ => exact hb
    | ⟨2, _⟩ => exact hc
    | ⟨3, _⟩ => exact hd)

/-- Component k of a 1 × n × H × W field, cut out and viewed as a 1 × H × W block, read at (u, h, w). -/
theorem comp_apply {n H W : Nat} (o : Nat) (X : (⟨4, ![1, n, H, W]⟩ : Shape).Idx → α)
    (hs : (⟨4, ![1, n, H, W]⟩ : Shape).Slices ![0, o, 0, 0] ⟨4, ![1, 1, H, W]⟩)
    (hc : (⟨4, ![1, 1, H, W]⟩ : Shape).ShapeCasts ⟨3, ![1, H, W]⟩) (u : Fin 1) (h : Fin H) (w : Fin W)
    (k : Fin n) (hk : k.val = o) :
    shapeCast ⟨3, ![1, H, W]⟩ (extractStridedSlice ⟨4, ![1, 1, H, W]⟩ ![0, o, 0, 0] X hs) hc (ix3 u h w)
      = X (ix4 (0 : Fin 1) k h w) :=
  (shapeCast_1abc_abc_apply _ hc u h w).trans
    (slice4_axis1_apply o X hs (0 : Fin 1) u h w k (by have := u.isLt; omega))

/-- Component 0 of a field of two components. -/
theorem comp0_apply {H W : Nat} (X : (⟨4, ![1, 2, H, W]⟩ : Shape).Idx → α)
    (hs : (⟨4, ![1, 2, H, W]⟩ : Shape).Slices ![0, 0, 0, 0] ⟨4, ![1, 1, H, W]⟩)
    (hc : (⟨4, ![1, 1, H, W]⟩ : Shape).ShapeCasts ⟨3, ![1, H, W]⟩) (u : Fin 1) (h : Fin H) (w : Fin W) :
    shapeCast ⟨3, ![1, H, W]⟩ (extractStridedSlice ⟨4, ![1, 1, H, W]⟩ ![0, 0, 0, 0] X hs) hc (ix3 u h w)
      = X (ix4 (0 : Fin 1) (0 : Fin 2) h w) :=
  comp_apply 0 X hs hc u h w (0 : Fin 2) rfl

/-- Component 1 of a field of two components. -/
theorem comp1_apply {H W : Nat} (X : (⟨4, ![1, 2, H, W]⟩ : Shape).Idx → α)
    (hs : (⟨4, ![1, 2, H, W]⟩ : Shape).Slices ![0, 1, 0, 0] ⟨4, ![1, 1, H, W]⟩)
    (hc : (⟨4, ![1, 1, H, W]⟩ : Shape).ShapeCasts ⟨3, ![1, H, W]⟩) (u : Fin 1) (h : Fin H) (w : Fin W) :
    shapeCast ⟨3, ![1, H, W]⟩ (extractStridedSlice ⟨4, ![1, 1, H, W]⟩ ![0, 1, 0, 0] X hs) hc (ix3 u h w)
      = X (ix4 (0 : Fin 1) (1 : Fin 2) h w) :=
  comp_apply 1 X hs hc u h w (1 : Fin 2) rfl

end Cert.Lib

end
-- ==== Proof.KPayRel.lean ====
/-
  The two relative errors of a sample as the kernel takes them.  The norm block of a two-component field holds, at each
  node, the square root of the sum of the squares of the two components there; the kernel divides the norm block of the
  error by the norm block of a reference field (the label plus the previous velocity, or the label) plus a small
  constant, node by node, and sums the quotients over the nodes: over the columns of each row first, then over the rows.
  Each is the specification's nested sum of the same quotients.
-/
import Idealize.ShloMosaic.PureOps.Ideal.Laws
import Idealize.ShloMosaic.Lib.ValueLayout
import proofs.«169949_j60610578481375_2_alg».proof.Proof.Gen.KernelIdeal.Skeleton
import proofs.«169949_j60610578481375_2_alg».proof.Proof.Spec
import proofs.«169949_j60610578481375_2_alg».proof.Proof.LibReduce
import proofs.«169949_j60610578481375_2_alg».proof.Proof.LibBlock

noncomputable section

namespace Cert.KernelIdeal.HPay

open Idealize.ShloMosaic Idealize.ShloMosaic.ValueIdx Cert.KernelIdeal Cert.KernelIdeal.Gen Cert.Loss

/-- A square root taken entry by entry, read at an index. -/
theorem sqrt_apply {s : Shape} {φ : FTy} (a : FVec Ideal s φ) (i : s.Idx) : sqrt a i = Ideal.sqrt (a i) := rfl

/-- The norm block of a two-component field at node (h, w). -/
theorem pay12_apply (v : FVec Ideal S1x2x257x257 .f32) (h w : Fin 257) :
    k0_pay12 (F := Ideal) v (ix3 (0 : Fin 1) h w)
      = Ideal.sqrt (v (ix4 (0 : Fin 1) (0 : Fin 2) h w) * v (ix4 (0 : Fin 1) (0 : Fin 2) h w)
          + v (ix4 (0 : Fin 1) (1 : Fin 2) h w) * v (ix4 (0 : Fin 1) (1 : Fin 2) h w)) := by
  unfold k0_pay12
  simp only [sqrt_apply, addf_apply, mulf_apply, Cert.Lib.comp0_apply, Cert.Lib.comp1_apply]

/-- The kernel's sum of |error| / (|label| + eps) is the specification's. -/
theorem pay15_eq (x0 x1 : Vec Ideal S1x2x257x257 .f32) :
    k0_pay15 (F := Ideal) x1 (k0_pay12 (k0_pay2 x0 x1)) = Cert.Loss.sMrde (bkV x0) (bkV x1) := by
  unfold k0_pay15
  refine (Cert.Lib.total3 (H := 257) (W := 257) _ _ _ _ _ _ _ _ _).trans ?_
  unfold Cert.Loss.sMrde
  refine Finset.sum_congr rfl fun h _ => Finset.sum_congr rfl fun w _ => ?_
  simp only [divf_apply, sqrt_apply, addf_apply, mulf_apply, broadcast_apply, pay12_apply,
    Cert.Lib.comp0_apply, Cert.Lib.comp1_apply]
  rfl

/-- Row h of the quotients |error| / (|label + previous| + eps), summed. -/
theorem pay13_apply (x0 x1 x2 : Vec Ideal S1x2x257x257 .f32) (h : Fin 257) :
    k0_pay13 (F := Ideal) x1 x2 (k0_pay2 x0 x1) (ix2 (0 : Fin 1) h)
      = ∑ w : Fin 257, Ideal.div (nrm (dif (bkV x0) (bkV x1)) h w)
          (nrm (fun c h w => bkV x1 c h w + bkV x2 c h w) h w + eps) := by
  unfold k0_pay13
  refine (Cert.Lib.rowSums3 (H := 257) (W := 257) _ _ _ _ _ _ (0 : Fin 1) h).trans ?_
  refine Finset.sum_congr rfl fun w _ => ?_
  simp only [divf_apply, sqrt_apply, addf_apply, mulf_apply, broadcast_apply, pay12_apply,
    Cert.Lib.comp0_apply, Cert.Lib.comp1_apply]
  rfl

/-- The kernel's sum of |error| / (|label + previous| + eps) is the specification's. -/
theorem pay14_eq (x0 x1 x2 : Vec Ideal S1x2x257x257 .f32) :
    k0_pay14 (F := Ideal) (k0_pay13 x1 x2 (k0_pay2 x0 x1)) = Cert.Loss.sMre (bkV x0) (bkV x1) (bkV x2) := by
  unfold k0_pay14
  refine (Cert.Lib.rowTotal (H := 257) _ _ _ _ _ _).trans ?_
  unfold Cert.Loss.sMre
  exact Finset.sum_congr rfl fun h _ => pay13_apply x0 x1 x2 h

end Cert.KernelIdeal.HPay

end
-- ==== Proof.KPayPad.lean ====
/-
  Padding a tile of face values back to the cell grid.

  The advection step forms flux differences on the 255 × 256 row faces and on the 256 × 255 column faces of the
  256 × 256 cell grid, and lays each beside a zero row (above or below) or a zero column (left or right) to get a
  tile on the cells again.  Read at a cell, such a padded tile is zero on the padding and the face tile, shifted by
  the padding's width, everywhere else.  The four lemmas here say exactly that, one per side.
-/
import proofs.«169949_j60610578481375_2_alg».proof.Proof.Gen.KernelIdeal.Skeleton
import proofs.«169949_j60610578481375_2_alg».proof.Proof.Spec
import Idealize.ShloMosaic.Lib.Pipeline.Value
import Idealize.ShloMosaic.Lib.ValueIdx

noncomputable section

namespace Cert.KernelIdeal.HPay

open Idealize.ShloMosaic Idealize.ShloMosaic.ValueIdx Cert.KernelIdeal Cert.KernelIdeal.Gen Cert.Loss

/-- The zero word as the body writes it. -/
abbrev zw : Ideal .f32 := Scalar.ofBits .f32 0x00000000#32

/-! ### Padding a tile of row faces or column faces back to the cell grid -/

/-- A zero row above a 255 × 256 tile. -/
def rowLo (X : FVec Ideal S1x1x255x256 .f32) : FVec Ideal S1x1x256x256 .f32 :=
  concatenate S1x1x256x256 2 [⟨S1x1x1x256, broadcast S1x1x1x256 zw⟩, ⟨S1x1x255x256, X⟩]
    concatenates_S1x1x1x256_S1x1x255x256_S1x1x256x256_d2
/-- A zero row below a 255 × 256 tile. -/
def rowHi (X : FVec Ideal S1x1x255x256 .f32) : FVec Ideal S1x1x256x256 .f32 :=
  concatenate S1x1x256x256 2 [⟨S1x1x255x256, X⟩, ⟨S1x1x1x256, broadcast S1x1x1x256 zw⟩]
    concatenates_S1x1x255x256_S1x1x1x256_S1x1x256x256_d2
/-- A zero column left of a 256 × 255 tile. -/
def colLo (Y : FVec Ideal S1x1x256x255 .f32) : FVec Ideal S1x1x256x256 .f32 :=
  concatenate S1x1x256x256 3 [⟨S1x1x256x1, broadcast S1x1x256x1 zw⟩, ⟨S1x1x256x255, Y⟩]
    concatenates_S1x1x256x1_S1x1x256x255_S1x1x256x256_d3
/-- A zero column right of a 256 × 255 tile. -/
def colHi (Y : FVec Ideal S1x1x256x255 .f32) : FVec Ideal S1x1x256x256 .f32 :=
  concatenate S1x1x256x256 3 [⟨S1x1x256x255, Y⟩, ⟨S1x1x256x1, broadcast S1x1x256x1 zw⟩]
    concatenates_S1x1x256x255_S1x1x256x1_S1x1x256x256_d3

/-- Row 0 of the padded tile is zero; row `h ≥ 1` is row `h − 1` of the tile. -/
theorem rowLo_apply (X : FVec Ideal S1x1x255x256 .f32) (h w : Fin 256) :
    rowLo X (ix4 0 0 h w)
      = if hh : h.val < 1 then zero else X (ix4 0 0 ⟨h.val - 1, by have := h.isLt; omega⟩ w) := by
  unfold rowLo
  by_cases hh : h.val < 1
  · rw [dif_pos hh]
    refine (concatenate_pair_apply_left (s₁ := S1x1x1x256) (s₂ := S1x1x255x256) 2 _ _ _ (ix4 0 0 h w) rfl
      (ix4 (0 : Fin 1) (0 : Fin 1) (0 : Fin 1) w) (fun b => ?_)).trans rfl
    match b with
    | ⟨0, _⟩ => rfl
    | ⟨1, _⟩ => rfl
    | ⟨2, _⟩ => show 0 = h.val; omega
    | ⟨3, _⟩ => rfl
  · rw [dif_neg hh]
    refine concatenate_pair_apply_right (s₁ := S1x1x1x256) (s₂ := S1x1x255x256) 2 _ _ _ (ix4 0 0 h w) rfl rfl
      (ix4 (0 : Fin 1) (0 : Fin 1) (⟨h.val - 1, by have := h.isLt; omega⟩ : Fin 255) w) (fun b hb => ?_)
      (by show h.val - 1 + 1 = h.val; omega)
    match b, hb with
    | ⟨0, _⟩, _ => rfl
    | ⟨1, _⟩, _ => rfl
    | ⟨2, _⟩, hb => exact absurd rfl hb
    | ⟨3, _⟩, _ => rfl

/-- Row `h ≤ 254` of the padded tile is row `h` of the tile; row 255 is zero. -/
theorem rowHi_apply (X : FVec Ideal S1x1x255x256 .f32) (h w : Fin 256) :
    rowHi X (ix4 0 0 h w) = if hh : h.val < 255 then X (ix4 0 0 ⟨h.val, hh⟩ w) else zero := by
  unfold rowHi
  by_cases hh : h.val < 255
  · rw [dif_pos hh]
    refine concatenate_pair_apply_left (s₁ := S1x1x255x256) (s₂ := S1x1x1x256) 2 _ _ _ (ix4 0 0 h w) rfl
      (ix4 (0 : Fin 1) (0 : Fin 1) (⟨h.val, hh⟩ : Fin 255) w) (fun b => ?_)
    match b with
    | ⟨0, _⟩ => rfl
    | ⟨1, _⟩ => rfl
    | ⟨2, _⟩ => rfl
    | ⟨3, _⟩ => rfl
  · rw [dif_neg hh]
    refine (concatenate_pair_apply_right (s₁ := S1x1x255x256) (s₂ := S1x1x1x256) 2 _ _ _ (ix4 0 0 h w) rfl rfl
      (ix4 (0 : Fin 1) (0 : Fin 1) (0 : Fin 1) w) (fun b hb => ?_)
      (by have := h.isLt; show 0 + 255 = h.val; omega)).trans rfl
    match b, hb with
    | ⟨0, _⟩, _ => rfl
    | ⟨1, _⟩, _ => rfl
    | ⟨2, _⟩, hb => exact absurd rfl hb
    | ⟨3, _⟩, _ => rfl

/-- Column 0 of the padded tile is zero; column `w ≥ 1` is column `w − 1` of the tile. -/
theorem colLo_apply (Y : FVec Ideal S1x1x256x255 .f32) (h w : Fin 256) :
    colLo Y (ix4 0 0 h w)
      = if hw : w.val < 1 then zero else Y (ix4 0 0 h ⟨w.val - 1, by have := w.isLt; omega⟩) := by
  unfold colLo
  by_cases hw : w.val < 1
  · rw [dif_pos hw]
    refine (concatenate_pair_apply_left (s₁ := S1x1x256x1) (s₂ := S1x1x256x255) 3 _ _ _ (ix4 0 0 h w) rfl
      (ix4 (0 : Fin 1) (0 : Fin 1) h (0 : Fin 1)) (fun b => ?_)).trans rfl
    match b with
    | ⟨0, _⟩ => rfl
    | ⟨1, _⟩ => rfl
    | ⟨2, _⟩ => rfl
    | ⟨3, _⟩ => show 0 = w.val; omega
  · rw [dif_neg hw]
    refine concatenate_pair_apply_right (s₁ := S1x1x256x1) (s₂ := S1x1x256x255) 3 _ _ _ (ix4 0 0 h w) rfl rfl
      (ix4 (0 : Fin 1) (0 : Fin 1) h (⟨w.val - 1, by have := w.isLt; omega⟩ : Fin 255)) (fun b hb => ?_)
      (by show w.val - 1 + 1 = w.val; omega)
    match b, hb with
    | ⟨0, _⟩, _ => rfl
    | ⟨1, _⟩, _ => rfl
    | ⟨2, _⟩, _ => rfl
    | ⟨3, _⟩, hb => exact absurd rfl hb

/-- Column `w ≤ 254` of the padded tile is column `w` of the tile; column 255 is zero. -/
theorem colHi_apply (Y : FVec Ideal S1x1x256x255 .f32) (h w : Fin 256) :
    colHi Y (ix4 0 0 h w) = if hw : w.val < 255 then Y (ix4 0 0 h ⟨w.val, hw⟩) else zero := by
  unfold colHi
  by_cases hw : w.val < 255
  · rw [dif_pos hw]
    refine concatenate_pair_apply_left (s₁ := S1x1x256x255) (s₂ := S1x1x256x1) 3 _ _ _ (ix4 0 0 h w) rfl
      (ix4 (0 : Fin 1) (0 : Fin 1) h (⟨w.val, hw⟩ : Fin 255)) (fun b => ?_)
    match b with
    | ⟨0, _⟩ => rfl
    | ⟨1, _⟩ => rfl
    | ⟨2, _⟩ => rfl
    | ⟨3, _⟩ => rfl
  · rw [dif_neg hw]
    refine (concatenate_pair_apply_right (s₁ := S1x1x256x255) (s₂ := S1x1x256x1) 3 _ _ _ (ix4 0 0 h w) rfl rfl
      (ix4 (0 : Fin 1) (0 : Fin 1) h (0 : Fin 1)) (fun b hb => ?_)
      (by have := w.isLt; show 0 + 255 = w.val; omega)).trans rfl
    match b, hb with
    | ⟨0, _⟩, _ => rfl
    | ⟨1, _⟩, _ => rfl
    | ⟨2, _⟩, _ => rfl
    | ⟨3, _⟩, hb => exact absurd rfl hb

end Cert.KernelIdeal.HPay

end
-- ==== Proof.KPayAdv.lean ====
/-
  One upwind advection step of the ice field, as the kernel body computes it, read cell by cell.

  The body works on whole tiles.  From the velocity tile `V` it takes two windows shifted by one node and averages them:
  the velocity on each row face (component 0) and on each column face (component 1).  On each face the flux leaving
  the cell before it is  max(v, 0) · A(cell before) · rate  and the flux leaving the cell after it is
  max(0 − v, 0) · A(cell after) · rate,  the ice values again windows of the ice tile `A`.  The two flux differences
  are padded with a zero row or column back to the cell grid and added to `A`.  This module writes that tile
  computation once, over an arbitrary `V` and `A`, in the body's own order of operations, and shows that at cell
  `(h, w)` it is the specification's `adv` of the fields the tiles hold.  The only facts used: a window read at a
  face is the tile read at the shifted node or cell, a padded tile is zero on the padding and the tile elsewhere,
  and every arithmetic operation acts entry by entry.
-/
import proofs.«169949_j60610578481375_2_alg».proof.Proof.KPayPad

noncomputable section

namespace Cert.KernelIdeal.HPay

open Idealize.ShloMosaic Idealize.ShloMosaic.ValueIdx Cert.KernelIdeal Cert.KernelIdeal.Gen Cert.Loss

/-- One half, the weight of each end of a face. -/
abbrev halfw : Ideal .f32 := Scalar.ofBits .f32 0x3F000000#32
/-- The step's rate: time step over cell width. -/
abbrev ratew : Ideal .f32 := Scalar.ofBits .f32 0x44800000#32

/-! ### Windows of the two tiles, read at a face -/

section Windows
variable (V : FVec Ideal S1x2x257x257 .f32) (A : Vec Ideal S1x1x256x256 .f32)

/-- Component 0 at node `(h' + 1, w + 1)`. -/
theorem winV_0_1_1 (h' : Fin 255) (w : Fin 256) :
    extractStridedSlice S1x1x255x256 ![0, 0, 1, 1] V slices_S1x2x257x257_o0_0_1_1_S1x1x255x256 (ix4 0 0 h' w)
      = V (ix4 (0 : Fin 1) (0 : Fin 2) (⟨h'.val + 1, by have := h'.isLt; omega⟩ : Fin 257)
            (⟨w.val + 1, by have := w.isLt; omega⟩ : Fin 257)) :=
  extractStridedSlice_apply _ V _ _ _ (fun a => match a with
    | ⟨0, _⟩ => rfl | ⟨1, _⟩ => rfl | ⟨2, _⟩ => Nat.add_comm _ _ | ⟨3, _⟩ => Nat.add_comm _ _)

/-- Component 0 at node `(h' + 1, w)`. -/
theorem winV_0_1_0 (h' : Fin 255) (w : Fin 256) :
    extractStridedSlice S1x1x255x256 ![0, 0, 1, 0] V slices_S1x2x257x257_o0_0_1_0_S1x1x255x256 (ix4 0 0 h' w)
      = V (ix4 (0 : Fin 1) (0 : Fin 2) (⟨h'.val + 1, by have := h'.isLt; omega⟩ : Fin 257)
            (⟨w.val, by have := w.isLt; omega⟩ : Fin 257)) :=
  extractStridedSlice_apply _ V _ _ _ (fun a => match a with
    | ⟨0, _⟩ => rfl | ⟨1, _⟩ => rfl | ⟨2, _⟩ => Nat.add_comm _ _ | ⟨3, _⟩ => (Nat.zero_add _).symm)

/-- Component 1 at node `(h + 1, w' + 1)`. -/
theorem winV_1_1_1 (h : Fin 256) (w' : Fin 255) :
    extractStridedSlice S1x1x256x255 ![0, 1, 1, 1] V slices_S1x2x257x257_o0_1_1_1_S1x1x256x255 (ix4 0 0 h w')
      = V (ix4 (0 : Fin 1) (1 : Fin 2) (⟨h.val + 1, by have := h.isLt; omega⟩ : Fin 257)
            (⟨w'.val + 1, by have := w'.isLt; omega⟩ : Fin 257)) :=
  extractStridedSlice_apply _ V _ _ _ (fun a => match a with
    | ⟨0, _⟩ => rfl | ⟨1, _⟩ => rfl | ⟨2, _⟩ => Nat.add_comm _ _ | ⟨3, _⟩ => Nat.add_comm _ _)

/-- Component 1 at node `(h, w' + 1)`. -/
theorem winV_1_0_1 (h : Fin 256) (w' : Fin 255) :
    extractStridedSlice S1x1x256x255 ![0, 1, 0, 1] V slices_S1x2x257x257_o0_1_0_1_S1x1x256x255 (ix4 0 0 h w')
      = V (ix4 (0 : Fin 1) (1 : Fin 2) (⟨h.val, by have := h.isLt; omega⟩ : Fin 257)
            (⟨w'.val + 1, by have := w'.isLt; omega⟩ : Fin 257)) :=
  extractStridedSlice_apply _ V _ _ _ (fun a => match a with
    | ⟨0, _⟩ => rfl | ⟨1, _⟩ => rfl | ⟨2, _⟩ => (Nat.zero_add _).symm | ⟨3, _⟩ => Nat.add_comm _ _)

/-- The ice in the cell above row face `h'`. -/
theorem winA_rows_0 (h' : Fin 255) (w : Fin 256) :
    extractStridedSlice S1x1x255x256 ![0, 0, 0, 0] A slices_S1x1x256x256_o0_0_0_0_S1x1x255x256 (ix4 0 0 h' w)
      = A (ix4 (0 : Fin 1) (0 : Fin 1) (⟨h'.val, by have := h'.isLt; omega⟩ : Fin 256) w) :=
  extractStridedSlice_apply _ A _ _ _ (fun a => match a with
    | ⟨0, _⟩ => rfl | ⟨1, _⟩ => rfl | ⟨2, _⟩ => (Nat.zero_add _).symm | ⟨3, _⟩ => (Nat.zero_add _).symm)

/-- The ice in the cell below row face `h'`. -/
theorem winA_rows_1 (h' : Fin 255) (w : Fin 256) :
    extractStridedSlice S1x1x255x256 ![0, 0, 1, 0] A slices_S1x1x256x256_o0_0_1_0_S1x1x255x256 (ix4 0 0 h' w)
      = A (ix4 (0 : Fin 1) (0 : Fin 1) (⟨h'.val + 1, by have := h'.isLt; omega⟩ : Fin 256) w) :=
  extractStridedSlice_apply _ A _ _ _ (fun a => match a with
    | ⟨0, _⟩ => rfl | ⟨1, _⟩ => rfl | ⟨2, _⟩ => Nat.add_comm _ _ | ⟨3, _⟩ => (Nat.zero_add _).symm)

/-- The ice in the cell left of column face `w'`. -/
theorem winA_cols_0 (h : Fin 256) (w' : Fin 255) :
    extractStridedSlice S1x1x256x255 ![0, 0, 0, 0] A slices_S1x1x256x256_o0_0_0_0_S1x1x256x255 (ix4 0 0 h w')
      = A (ix4 (0 : Fin 1) (0 : Fin 1) h (⟨w'.val, by have := w'.isLt; omega⟩ : Fin 256)) :=
  extractStridedSlice_apply _ A _ _ _ (fun a => match a with
    | ⟨0, _⟩ => rfl | ⟨1, _⟩ => rfl | ⟨2, _⟩ => (Nat.zero_add _).symm | ⟨3, _⟩ => (Nat.zero_add _).symm)

/-- The ice in the cell right of column face `w'`. -/
theorem winA_cols_1 (h : Fin 256) (w' : Fin 255) :
    extractStridedSlice S1x1x256x255 ![0, 0, 0, 1] A slices_S1x1x256x256_o0_0_0_1_S1x1x256x255 (ix4 0 0 h w')
      = A (ix4 (0 : Fin 1) (0 : Fin 1) h (⟨w'.val + 1, by have := w'.isLt; omega⟩ : Fin 256)) :=
  extractStridedSlice_apply _ A _ _ _ (fun a => match a with
    | ⟨0, _⟩ => rfl | ⟨1, _⟩ => rfl | ⟨2, _⟩ => (Nat.zero_add _).symm | ⟨3, _⟩ => Nat.add_comm _ _)

end Windows

/-! ### The step on tiles, in the body's order of operations -/

/-- Velocity on the row faces. -/
def vxK (V : FVec Ideal S1x2x257x257 .f32) : FVec Ideal S1x1x255x256 .f32 :=
  mulf (addf (extractStridedSlice S1x1x255x256 ![0, 0, 1, 1] V slices_S1x2x257x257_o0_0_1_1_S1x1x255x256)
             (extractStridedSlice S1x1x255x256 ![0, 0, 1, 0] V slices_S1x2x257x257_o0_0_1_0_S1x1x255x256))
       (broadcast S1x1x255x256 halfw)
/-- Flux across a row face out of the cell above it. -/
def fxK (V : FVec Ideal S1x2x257x257 .f32) (A : Vec Ideal S1x1x256x256 .f32) : FVec Ideal S1x1x255x256 .f32 :=
  mulf (mulf (maximumf (vxK V) (broadcast S1x1x255x256 zw))
             (extractStridedSlice S1x1x255x256 ![0, 0, 0, 0] A slices_S1x1x256x256_o0_0_0_0_S1x1x255x256))
       (broadcast S1x1x255x256 ratew)
/-- The upward part of the row-face velocity. -/
def upK (V : FVec Ideal S1x2x257x257 .f32) : FVec Ideal S1x1x255x256 .f32 :=
  maximumf (subf (broadcast S1x1x255x256 zw) (vxK V)) (broadcast S1x1x255x256 zw)
/-- Flux across a row face out of the cell below it. -/
def gxK (V : FVec Ideal S1x2x257x257 .f32) (A : Vec Ideal S1x1x256x256 .f32) : FVec Ideal S1x1x255x256 .f32 :=
  mulf (mulf (upK V)
             (extractStridedSlice S1x1x255x256 ![0, 0, 1, 0] A slices_S1x1x256x256_o0_0_1_0_S1x1x255x256))
       (broadcast S1x1x255x256 ratew)
/-- Net gain of each cell through its two row faces. -/
def dHxK (V : FVec Ideal S1x2x257x257 .f32) (A : Vec Ideal S1x1x256x256 .f32) : FVec Ideal S1x1x256x256 .f32 :=
  addf (rowLo (subf (fxK V A) (gxK V A))) (rowHi (subf (gxK V A) (fxK V A)))

/-- Velocity on the column faces. -/
def vyK (V : FVec Ideal S1x2x257x257 .f32) : FVec Ideal S1x1x256x255 .f32 :=
  mulf (addf (extractStridedSlice S1x1x256x255 ![0, 1, 1, 1] V slices_S1x2x257x257_o0_1_1_1_S1x1x256x255)
             (extractStridedSlice S1x1x256x255 ![0, 1, 0, 1] V slices_S1x2x257x257_o0_1_0_1_S1x1x256x255))
       (broadcast S1x1x256x255 halfw)
/-- Flux across a column face out of the cell left of it. -/
def fyK (V : FVec Ideal S1x2x257x257 .f32) (A : Vec Ideal S1x1x256x256 .f32) : FVec Ideal S1x1x256x255 .f32 :=
  mulf (mulf (maximumf (vyK V) (broadcast S1x1x256x255 zw))
             (extractStridedSlice S1x1x256x255 ![0, 0, 0, 0] A slices_S1x1x256x256_o0_0_0_0_S1x1x256x255))
       (broadcast S1x1x256x255 ratew)
/-- Flux across a column face out of the cell right of it. -/
def gyK (V : FVec Ideal S1x2x257x257 .f32) (A : Vec Ideal S1x1x256x256 .f32) : FVec Ideal S1x1x256x255 .f32 :=
  mulf (mulf (maximumf (subf (broadcast S1x1x256x255 zw) (vyK V)) (broadcast S1x1x256x255 zw))
             (extractStridedSlice S1x1x256x255 ![0, 0, 0, 1] A slices_S1x1x256x256_o0_0_0_1_S1x1x256x255))
       (broadcast S1x1x256x255 ratew)
/-- Net gain of each cell through its two column faces. -/
def dHyK (V : FVec Ideal S1x2x257x257 .f32) (A : Vec Ideal S1x1x256x256 .f32) : FVec Ideal S1x1x256x256 .f32 :=
  addf (colLo (subf (fyK V A) (gyK V A))) (colHi (subf (gyK V A) (fyK V A)))

/-- The ice tile after the step. -/
def advK (V : FVec Ideal S1x2x257x257 .f32) (A : Vec Ideal S1x1x256x256 .f32) : FVec Ideal S1x1x256x256 .f32 :=
  addf (addf A (dHxK V A)) (dHyK V A)

/-! ### Each of them at a face or a cell is the specification's -/

section Pointwise
variable (V : FVec Ideal S1x2x257x257 .f32) (A : Vec Ideal S1x1x256x256 .f32)

theorem vxK_apply (h' : Fin 255) (w : Fin 256) : vxK V (ix4 0 0 h' w) = vx (bkV V) h' w := by
  show (extractStridedSlice S1x1x255x256 ![0, 0, 1, 1] V slices_S1x2x257x257_o0_0_1_1_S1x1x255x256 (ix4 0 0 h' w)
      + extractStridedSlice S1x1x255x256 ![0, 0, 1, 0] V slices_S1x2x257x257_o0_0_1_0_S1x1x255x256 (ix4 0 0 h' w))
      * halfw = _
  rw [winV_0_1_1, winV_0_1_0]
  rfl

theorem fxK_apply (h' : Fin 255) (w : Fin 256) : fxK V A (ix4 0 0 h' w) = fx (bkV V) (bkI A) h' w := by
  show (max (vxK V (ix4 0 0 h' w)) zw
      * extractStridedSlice S1x1x255x256 ![0, 0, 0, 0] A slices_S1x1x256x256_o0_0_0_0_S1x1x255x256 (ix4 0 0 h' w))
      * ratew = _
  rw [vxK_apply, winA_rows_0]
  rfl

theorem gxK_apply (h' : Fin 255) (w : Fin 256) : gxK V A (ix4 0 0 h' w) = gx (bkV V) (bkI A) h' w := by
  show (max (zw - vxK V (ix4 0 0 h' w)) zw
      * extractStridedSlice S1x1x255x256 ![0, 0, 1, 0] A slices_S1x1x256x256_o0_0_1_0_S1x1x255x256 (ix4 0 0 h' w))
      * ratew = _
  rw [vxK_apply, winA_rows_1]
  rfl

theorem vyK_apply (h : Fin 256) (w' : Fin 255) : vyK V (ix4 0 0 h w') = vy (bkV V) h w' := by
  show (extractStridedSlice S1x1x256x255 ![0, 1, 1, 1] V slices_S1x2x257x257_o0_1_1_1_S1x1x256x255 (ix4 0 0 h w')
      + extractStridedSlice S1x1x256x255 ![0, 1, 0, 1] V slices_S1x2x257x257_o0_1_0_1_S1x1x256x255 (ix4 0 0 h w'))
      * halfw = _
  rw [winV_1_1_1, winV_1_0_1]
  rfl

theorem fyK_apply (h : Fin 256) (w' : Fin 255) : fyK V A (ix4 0 0 h w') = fy (bkV V) (bkI A) h w' := by
  show (max (vyK V (ix4 0 0 h w')) zw
      * extractStridedSlice S1x1x256x255 ![0, 0, 0, 0] A slices_S1x1x256x256_o0_0_0_0_S1x1x256x255 (ix4 0 0 h w'))
      * ratew = _
  rw [vyK_apply, winA_cols_0]
  rfl

theorem gyK_apply (h : Fin 256) (w' : Fin 255) : gyK V A (ix4 0 0 h w') = gy (bkV V) (bkI A) h w' := by
  show (max (zw - vyK V (ix4 0 0 h w')) zw
      * extractStridedSlice S1x1x256x255 ![0, 0, 0, 1] A slices_S1x1x256x256_o0_0_0_1_S1x1x256x255 (ix4 0 0 h w'))
      * ratew = _
  rw [vyK_apply, winA_cols_1]
  rfl

/-- The row-face gain at a cell: nothing comes through the grid's top edge or its bottom edge. -/
theorem dHxK_apply (h w : Fin 256) : dHxK V A (ix4 0 0 h w) = dHx (bkV V) (bkI A) h w := by
  show rowLo (subf (fxK V A) (gxK V A)) (ix4 0 0 h w) + rowHi (subf (gxK V A) (fxK V A)) (ix4 0 0 h w) = _
  rw [rowLo_apply, rowHi_apply]
  unfold dHx
  refine congrArg₂ (· + ·) ?_ ?_
  · by_cases hh : h.val < 1
    · rw [dif_pos hh, dif_pos hh]
    · rw [dif_neg hh, dif_neg hh]
      show fxK V A (ix4 0 0 _ w) - gxK V A (ix4 0 0 _ w) = _
      rw [fxK_apply, gxK_apply]
  · by_cases hh : h.val < 255
    · rw [dif_pos hh, dif_pos hh]
      show gxK V A (ix4 0 0 _ w) - fxK V A (ix4 0 0 _ w) = _
      rw [fxK_apply, gxK_apply]
    · rw [dif_neg hh, dif_neg hh]

/-- The column-face gain at a cell: nothing comes through the grid's left edge or its right edge. -/
theorem dHyK_apply (h w : Fin 256) : dHyK V A (ix4 0 0 h w) = dHy (bkV V) (bkI A) h w := by
  show colLo (subf (fyK V A) (gyK V A)) (ix4 0 0 h w) + colHi (subf (gyK V A) (fyK V A)) (ix4 0 0 h w) = _
  rw [colLo_apply, colHi_apply]
  unfold dHy
  refine congrArg₂ (· + ·) ?_ ?_
  · by_cases hw : w.val < 1
    · rw [dif_pos hw, dif_pos hw]
    · rw [dif_neg hw, dif_neg hw]
      show fyK V A (ix4 0 0 h _) - gyK V A (ix4 0 0 h _) = _
      rw [fyK_apply, gyK_apply]
  · by_cases hw : w.val < 255
    · rw [dif_pos hw, dif_pos hw]
      show gyK V A (ix4 0 0 h _) - fyK V A (ix4 0 0 h _) = _
      rw [fyK_apply, gyK_apply]
    · rw [dif_neg hw, dif_neg hw]

/-- THE STEP AT A CELL is the specification's `adv` of the fields the two tiles hold. -/
theorem advK_apply (h w : Fin 256) : advK V A (ix4 0 0 h w) = adv (bkV V) (bkI A) h w := by
  show (A (ix4 0 0 h w) + dHxK V A (ix4 0 0 h w)) + dHyK V A (ix4 0 0 h w) = _
  rw [dHxK_apply, dHyK_apply]
  rfl

end Pointwise

end Cert.KernelIdeal.HPay

end
-- ==== Proof.KPayMce.lean ====
/-
  The sixth sum of a sample, as the kernel body computes it, is the specification's.

  The body takes the advection step twice — once under the velocity (prediction + previous) · scale, once under
  (label + previous) · scale —, squares the difference of the two advected tiles entry by entry, and sums the square
  over the 256 × 256 cells (unit axes first, then the columns of each row, then the rows).  The step on tiles is the
  specification's step at every cell, the velocity tiles hold the specification's velocities, and the sum chain is
  the nested sum over rows and columns; so the number the body reads out is the specification's sum over the cells
  of the squared difference of the two advected fields.
-/
import proofs.«169949_j60610578481375_2_alg».proof.Proof.KPayAdv
import proofs.«169949_j60610578481375_2_alg».proof.Proof.LibReduce

noncomputable section

namespace Cert.KernelIdeal.HPay

open Idealize.ShloMosaic Idealize.ShloMosaic.ValueIdx Cert.KernelIdeal Cert.KernelIdeal.Gen Cert.Loss

/-- The body's whole sum of a tile on the cells: the two unit axes, the columns, the rows, read out. -/
def cellSum (T : FVec Ideal S1x1x256x256 .f32) : Ideal .f32 :=
  extractAt ![0, 0]
    (shapeCast S1x1
      (multiReduction .add [1] S1
        (shapeCast S1x256
          (multiReduction .add [1] S256
            (multiReduction .add [0] S256x256
              (multiReduction .add [0] S1x256x256 T 0x00000000#32 reduces_S1x1x256x256_S1x256x256 (.inl rfl) rfl)
              0x00000000#32 reduces_S1x256x256_S256x256 (.inl rfl) rfl)
            0x00000000#32 reduces_S256x256_S256 (.inl rfl) rfl)
          shapeCasts_S256_S1x256)
        0x00000000#32 reduces_S1x256_S1 (.inl rfl) rfl)
      shapeCasts_S1_S1x1)
    inpos_S1x1_p0_0

/-- It is the nested sum over rows and columns of the tile's entries. -/
theorem cellSum_eq (T : FVec Ideal S1x1x256x256 .f32) :
    cellSum T = ∑ h : Fin 256, ∑ w : Fin 256, T (ix4 (0 : Fin 1) (0 : Fin 1) h w) :=
  Cert.Lib.total4u (H := 256) (W := 256) T reduces_S1x1x256x256_S1x256x256 reduces_S1x256x256_S256x256
    reduces_S256x256_S256 shapeCasts_S256_S1x256 reduces_S1x256_S1 shapeCasts_S1_S1x1 inpos_S1x1_p0_0 (.inl rfl) rfl

/-- The velocity tile of the first step holds the specification's velocity of the prediction … -/
theorem bkV_pay16 (x0 x2 : Vec Ideal S1x2x257x257 .f32) :
    bkV (k0_pay16 (F := Ideal) x0 x2) = vel (bkV x0) (bkV x2) := rfl

/-- … and that of the second step the velocity of the label. -/
theorem bkV_pay24 (x1 x2 : Vec Ideal S1x2x257x257 .f32) :
    bkV (k0_pay24 (F := Ideal) x1 x2) = vel (bkV x1) (bkV x2) := rfl

/-- The first advected tile, as the body's named terms compose it, is the step on tiles under the first velocity. -/
theorem pay23_eq (x0 x2 : Vec Ideal S1x2x257x257 .f32) (x3 : Vec Ideal S1x1x256x256 .f32) :
    k0_pay23 (F := Ideal) x3 (k0_pay16 x0 x2) (k0_pay21 x0 x2 x3) (k0_pay22 x0 x2 x3) = advK (k0_pay16 x0 x2) x3 := rfl

/-- The number the body reads out is the whole sum of the squared difference of the two steps on tiles: the second
    step's terms, some named and some computed in place, compose to the step under the second velocity. -/
theorem pay29_struct (x1 x2 : Vec Ideal S1x2x257x257 .f32) (x3 : Vec Ideal S1x1x256x256 .f32)
    (a1 : FVec Ideal S1x1x256x256 .f32) :
    k0_pay29 (F := Ideal) x3 a1 (k0_pay24 x1 x2) (k0_pay26 x1 x2 x3) (k0_pay27 x1 x2) (k0_pay28 x3)
      = cellSum (mulf (subf a1 (advK (k0_pay24 x1 x2) x3)) (subf a1 (advK (k0_pay24 x1 x2) x3))) := rfl

/-- THE SIXTH SUM: the body's number is the specification's `sMce` of the four blocks' fields. -/
theorem pay29_eq (x0 x1 x2 : Vec Ideal S1x2x257x257 .f32) (x3 : Vec Ideal S1x1x256x256 .f32) :
    k0_pay29 (F := Ideal) x3 (k0_pay23 x3 (k0_pay16 x0 x2) (k0_pay21 x0 x2 x3) (k0_pay22 x0 x2 x3)) (k0_pay24 x1 x2)
        (k0_pay26 x1 x2 x3) (k0_pay27 x1 x2) (k0_pay28 x3)
      = Cert.Loss.sMce (Cert.Loss.bkV x0) (Cert.Loss.bkV x1) (Cert.Loss.bkV x2) (Cert.Loss.bkI x3) := by
  rw [pay29_struct, pay23_eq, cellSum_eq]
  unfold sMce
  refine Finset.sum_congr rfl fun h _ => Finset.sum_congr rfl fun w _ => ?_
  show (advK (k0_pay16 x0 x2) x3 (ix4 0 0 h w) - advK (k0_pay24 x1 x2) x3 (ix4 0 0 h w))
      * (advK (k0_pay16 x0 x2) x3 (ix4 0 0 h w) - advK (k0_pay24 x1 x2) x3 (ix4 0 0 h w)) = _
  rw [advK_apply, advK_apply, bkV_pay16, bkV_pay24]

end Cert.KernelIdeal.HPay

end
-- ==== Proof.KPayRow.lean ====
/-
  The tile a sample leaves: an 8 × 128 tile whose row 0 holds six numbers in columns 0–5 and whose every other entry is
  zero.  It is built from six 1 × 1 pieces laid side by side, padded with 122 zero columns and then with 7 zero rows; read
  at (r, j) it is the j-th number when r = 0 and j < 6, and the zero word, which is the extended real 0, elsewhere.
-/
import Idealize.ShloMosaic.PureOps.Ideal.Laws
import Idealize.ShloMosaic.Lib.ValueLayout
import proofs.«169949_j60610578481375_2_alg».proof.Proof.Gen.KernelIdeal.Skeleton

noncomputable section

namespace Cert.KernelIdeal.HPay

open Idealize.ShloMosaic Idealize.ShloMosaic.ValueIdx Cert.KernelIdeal Cert.KernelIdeal.Gen

/-- The six one-entry pieces, in the order they are laid. -/
abbrev sixPieces (f a b c d e : EReal) : List ((s : Shape) × (s.Idx → Ideal .f32)) :=
  [⟨S1x1, broadcast S1x1 f⟩, ⟨S1x1, broadcast S1x1 a⟩, ⟨S1x1, broadcast S1x1 b⟩,
    ⟨S1x1, broadcast S1x1 c⟩, ⟨S1x1, broadcast S1x1 d⟩, ⟨S1x1, broadcast S1x1 e⟩]

/-- Six 1 × 1 pieces laid side by side, read at column k: the k-th piece's one entry. -/
theorem six_apply (f a b c d e : EReal) (hcat : Shape.Concatenates ((sixPieces f a b c d e).map (·.1)) S1x6 1) (k : Fin 6) :
    concatenate S1x6 1 (sixPieces f a b c d e) hcat (ix2 (0 : Fin 1) k) = (![f, a, b, c, d, e] : Fin 6 → EReal) k := by
  have hi : ∀ (k : Fin 6) (b : Fin S1x1.rank), b.cast (rfl : S1x1.rank = S1x6.rank) ≠ (1 : Fin 2) →
      ((ix2 (0 : Fin 1) (0 : Fin 1) : S1x1.Idx) b).val = ((ix2 (0 : Fin 1) k : S1x6.Idx) (b.cast rfl)).val :=
    fun k b hb => by
      match b with
      | ⟨0, _⟩ => rfl
      | ⟨1, _⟩ => exact absurd rfl hb
  match k with
  | ⟨0, hk⟩ =>
    exact concatenate_apply_piece (1 : Fin 2) (sixPieces f a b c d e) hcat (ix2 (0 : Fin 1) (⟨0, hk⟩ : Fin 6)) 0 (by show (0 : Nat) < 6; decide) S1x1 _ rfl rfl 0 rfl
      (ix2 (0 : Fin 1) (0 : Fin 1)) (hi _) rfl
  | ⟨1, hk⟩ =>
    exact concatenate_apply_piece (1 : Fin 2) (sixPieces f a b c d e) hcat (ix2 (0 : Fin 1) (⟨1, hk⟩ : Fin 6)) 1 (by show (1 : Nat) < 6; decide) S1x1 _ rfl rfl 1 rfl
      (ix2 (0 : Fin 1) (0 : Fin 1)) (hi _) rfl
  | ⟨2, hk⟩ =>
    exact concatenate_apply_piece (1 : Fin 2) (sixPieces f a b c d e) hcat (ix2 (0 : Fin 1) (⟨2, hk⟩ : Fin 6)) 2 (by show (2 : Nat) < 6; decide) S1x1 _ rfl rfl 2 rfl
      (ix2 (0 : Fin 1) (0 : Fin 1)) (hi _) rfl
  | ⟨3, hk⟩ =>
    exact concatenate_apply_piece (1 : Fin 2) (sixPieces f a b c d e) hcat (ix2 (0 : Fin 1) (⟨3, hk⟩ : Fin 6)) 3 (by show (3 : Nat) < 6; decide) S1x1 _ rfl rfl 3 rfl
      (ix2 (0 : Fin 1) (0 : Fin 1)) (hi _) rfl
  | ⟨4, hk⟩ =>
    exact concatenate_apply_piece (1 : Fin 2) (sixPieces f a b c d e) hcat (ix2 (0 : Fin 1) (⟨4, hk⟩ : Fin 6)) 4 (by show (4 : Nat) < 6; decide) S1x1 _ rfl rfl 4 rfl
      (ix2 (0 : Fin 1) (0 : Fin 1)) (hi _) rfl
  | ⟨5, hk⟩ =>
    exact concatenate_apply_piece (1 : Fin 2) (sixPieces f a b c d e) hcat (ix2 (0 : Fin 1) (⟨5, hk⟩ : Fin 6)) 5 (by show (5 : Nat) < 6; decide) S1x1 _ rfl rfl 5 rfl
      (ix2 (0 : Fin 1) (0 : Fin 1)) (hi _) rfl

/-- The stored tile read at (r, j). -/
theorem pay1_apply (a b c d e f : EReal) (r : Fin 8) (j : Fin 128) :
    k0_pay1 (F := Ideal) a b c d e (k0_pay30 f) (ix2 r j)
      = if r.val = 0 then (if h6 : j.val < 6 then (![f, a, b, c, d, e] : Fin 6 → EReal) ⟨j.val, h6⟩ else 0) else 0 := by
  by_cases hr : r.val = 0
  · rw [if_pos hr]
    by_cases h6 : j.val < 6
    · rw [dif_pos h6]
      unfold k0_pay1 k0_pay30
      refine (concatenate_pair_apply_left (s₁ := S1x128) (s₂ := S7x128) (0 : Fin 2) _ _ _ (ix2 r j) rfl
        (ix2 (0 : Fin 1) j) (fun b => ?_)).trans ?_
      · match b with
        | ⟨0, _⟩ => exact hr.symm
        | ⟨1, _⟩ => rfl
      refine (concatenate_pair_apply_left (s₁ := S1x6) (s₂ := S1x122) (1 : Fin 2) _ _ _ (ix2 (0 : Fin 1) j) rfl
        (ix2 (0 : Fin 1) (⟨j.val, h6⟩ : Fin 6)) (fun b => ?_)).trans ?_
      · match b with
        | ⟨0, _⟩ => rfl
        | ⟨1, _⟩ => rfl
      exact six_apply f a b c d e _ ⟨j.val, h6⟩
    · rw [dif_neg h6]
      unfold k0_pay1 k0_pay30
      refine (concatenate_pair_apply_left (s₁ := S1x128) (s₂ := S7x128) (0 : Fin 2) _ _ _ (ix2 r j) rfl
        (ix2 (0 : Fin 1) j) (fun b => ?_)).trans ?_
      · match b with
        | ⟨0, _⟩ => exact hr.symm
        | ⟨1, _⟩ => rfl
      refine (concatenate_pair_apply_right (s₁ := S1x6) (s₂ := S1x122) (1 : Fin 2) _ _ _ (ix2 (0 : Fin 1) j) rfl rfl
        (ix2 (0 : Fin 1) (⟨j.val - 6, by have := j.isLt; omega⟩ : Fin 122)) (fun b hb => ?_) ?_).trans ?_
      · match b with
        | ⟨0, _⟩ => rfl
        | ⟨1, _⟩ => exact absurd rfl hb
      · show (j.val - 6) + 6 = j.val
        omega
      exact Ideal.ofBits_zero_f32
  · rw [if_neg hr]
    unfold k0_pay1 k0_pay30
    refine (concatenate_pair_apply_right (s₁ := S1x128) (s₂ := S7x128) (0 : Fin 2) _ _ _ (ix2 r j) rfl rfl
      (ix2 (⟨r.val - 1, by have := r.isLt; omega⟩ : Fin 7) j) (fun b hb => ?_) ?_).trans ?_
    · match b with
      | ⟨0, _⟩ => exact absurd rfl hb
      | ⟨1, _⟩ => rfl
    · show (r.val - 1) + 1 = r.val
      omega
    exact Ideal.ofBits_zero_f32

end Cert.KernelIdeal.HPay

end
-- ==== Proof.KStored.lean ====
/-
  The tile the kernel stores for a sample, read entry by entry: row 0 holds the sample's six sums — absolute errors,
  squared errors, strain-rate integrand, the two relative errors, and the squared difference of the two advected ice
  fields — in columns 0–5, and every other entry is zero.  The stored tile is the row layout applied to the kernel's six
  per-sample numbers, and each of those is the specification's sum of the same name.
-/
import Idealize.ShloMosaic.PureOps.Ideal.Laws
import Idealize.ShloMosaic.Lib.ValueLayout
import proofs.«169949_j60610578481375_2_alg».proof.Proof.Stored
import proofs.«169949_j60610578481375_2_alg».proof.Proof.Spec
import proofs.«169949_j60610578481375_2_alg».proof.Proof.KPayAbsSq
import proofs.«169949_j60610578481375_2_alg».proof.Proof.KPayStrain
import proofs.«169949_j60610578481375_2_alg».proof.Proof.KPayRel
import proofs.«169949_j60610578481375_2_alg».proof.Proof.KPayMce
import proofs.«169949_j60610578481375_2_alg».proof.Proof.KPayRow

noncomputable section

namespace Cert.KernelIdeal.HPay

open Idealize.ShloMosaic Idealize.ShloMosaic.ValueIdx Cert.KernelIdeal Cert.KernelIdeal.Gen Cert.Loss

/-- The stored tile at (r, j): the j-th of the sample's six sums on row 0, columns 0–5; zero elsewhere. -/
theorem stored_apply (x0 x1 x2 : Vec Ideal S1x2x257x257 .f32) (x3 : Vec Ideal S1x1x256x256 .f32) (r : Fin 8) (j : Fin 128) :
    Cert.KernelIdeal.Hand.stored (F := Ideal) x0 x1 x2 x3 (ix2 r j)
      = if r.val = 0 then
          (if h6 : j.val < 6 then Cert.Loss.six (bkV x0) (bkV x1) (bkV x2) (bkI x3) ⟨j.val, h6⟩ else 0)
        else 0 := by
  unfold Cert.KernelIdeal.Hand.stored
  refine (pay1_apply _ _ _ _ _ _ r j).trans ?_
  rw [pay3_eq, pay4_eq, pay11_eq, pay14_eq, pay15_eq, pay29_eq]
  rfl

end Cert.KernelIdeal.HPay

end
-- ==== Proof.KernelValue.lean ====
/-
  The kernel program's value: its result buffer ends holding the specification's ten results of the argument arrays.

  The launch leaves the 2048 × 128 array at the array of per-sample rows of the four arguments (the blocks cover it).  The
  host operations after the launch read nothing else: they sum that array over its rows, take columns 0 … 5 as six scalars
  — the six totals over the 256 samples — and form the ten results from them by the shared tail.  The four argument arrays
  are input windows' arrays: no write-back touches them and no host operation writes them, so they end as they started.
-/
import proofs.«169949_j60610578481375_2_alg».proof.Proof.FrameKI
import proofs.«169949_j60610578481375_2_alg».proof.Proof.KBlocks
import proofs.«169949_j60610578481375_2_alg».proof.Proof.KTail
import proofs.«169949_j60610578481375_2_alg».proof.Proof.LibNary10
import proofs.«169949_j60610578481375_2_alg».proof.Proof.KStored
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HValue

open Cert.KernelIdeal Cert.KernelIdeal.Gen Cert.KernelIdeal.HFrame Cert.Loss

variable (m : (ℓ : Loc nD τ sig) → Buf (Elt Ideal) ℓ) (ρ : Dev nD → PrngReg)

/-- The result buffer after the host operations is their composed function — the six column totals, then the shared
    tail — of what the launch left in the 2048 × 128 array; every other buffer they read is one they wrote. -/
theorem v36_eq (c : Dev nD) :
    Pipeline.afterTail₀ cfgs (dats m) 0 (V0 m) [hostOps1] c main_v36
      = hostTail (Pipeline.withArrays (cfgs 0).spec c (V0 m c) (fun w => (dats m 0 c).arrAt w (cfgs 0).N) (Proc.devRef .tc main_v0)) := by
  unfold Pipeline.afterTail₀
  show StableHlo.after hostOps1 _ (Proc.devRef .tc main_v36) = _
  generalize Pipeline.withArrays (cfgs 0).spec c (V0 m c) (fun w => (dats m 0 c).arrAt w (cfgs 0).N) = W
  simp (disch := decide) only [StableHlo.after_cons, StableHlo.after_nil,
    StableHlo.nullary_result', StableHlo.unary_result', StableHlo.binary_result', StableHlo.reshape_result', Cert.Lib.nary10_result',
    StableHlo.nullary_result_ne', StableHlo.unary_result_ne', StableHlo.binary_result_ne', StableHlo.reshape_result_ne',
    StableHlo.nary_result_ne']
  rfl

/-- So it is the specification's result of the four arguments. -/
theorem value (c : Dev nD) :
    Pipeline.afterTail₀ cfgs (dats m) 0 (V0 m) [hostOps1] c main_v36
      = Cert.Loss.result bcast_S_S1 concatenates_S1_S1_S1_S1_S1_S1_S1_S1_S1_S1_S10_d0
          (m ((c.tc : Thread nD τ).loc main_arg0)) (m ((c.tc : Thread nD τ).loc main_arg1))
          (m ((c.tc : Thread nD τ).loc main_arg2)) (m ((c.tc : Thread nD τ).loc main_arg3)) :=
  (v36_eq m c).trans ((congrArg hostTail
    ((Pipeline.withArrays_arr spec0 launch0.win.arr_inj c _ _ 4).trans (final m Cert.KernelIdeal.HPay.stored_apply c))).trans
      (hostTail_rows _ _ _ _))

/-- THE RUN, READ: the result buffer at the specification's result, the four arguments unchanged. -/
theorem run :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v36) = Cert.Loss.result bcast_S_S1 concatenates_S1_S1_S1_S1_S1_S1_S1_S1_S1_S1_S10_d0
          (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h c =>
    ⟨((h c).2 main_v36 (Pipeline.mem_restRefs_of main_v36 (by decide) (by decide))).trans (value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main (F := Ideal) m ρ)

end Cert.KernelIdeal.HValue

end
-- ==== Proof.RefAfter.lean ====
/-
  The reference program's last buffer after its 256 host operations.  The operations run as a fold over the buffer contents; the
  last one joins ten one-element arrays, each written by an earlier operation.  Read at the result buffer, the fold is the join of
  the ten operands' contents, and each operand's contents, read through the 255 operations before, is the value the reading
  module states for it as a function of the four argument arrays.  Hence the result buffer holds `val_main_v183` of the arguments.
-/
import proofs.«169949_j60610578481375_2_alg».proof.Proof.RefRead
import proofs.«169949_j60610578481375_2_alg».proof.Proof.LibNary10

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
set_option maxHeartbeats 102400000 in
/-- After the 256 operations, from any contents `V`, the result buffer holds the composed value of the four argument arrays:
    the join of the ten means and sums, each operand's equation a goal of its own (one rewriting pass through the operations
    before it, then the two spellings of the value agree by unfolding). -/
theorem after_result (V : Valuation τ sig (Elt F)) :
    after (Cert.ReferenceIdeal.ValueP.ops (F := F)) V (Proc.devRef .tc main_v183)
      = Cert.ReferenceIdeal.ReadP.val_main_v183 (F := F) (V (Proc.devRef .tc main_arg0)) (V (Proc.devRef .tc main_arg1)) (V (Proc.devRef .tc main_arg2)) (V (Proc.devRef .tc main_arg3)) := by
  simp only [after_cons, after_nil]
  refine (Cert.Lib.nary10_result_of (x0 := main_v173) (x1 := main_v174) (x2 := main_v175) (x3 := main_v176) (x4 := main_v177) (x5 := main_v178) (x6 := main_v179) (x7 := main_v180) (x8 := main_v181) (x9 := main_v182) (y := main_v183) (g := fun a0 a1 a2 a3 a4 a5 a6 a7 a8 a9 => concatenate S10 0 [⟨S1, a0⟩, ⟨S1, a1⟩, ⟨S1, a2⟩, ⟨S1, a3⟩, ⟨S1, a4⟩, ⟨S1, a5⟩, ⟨S1, a6⟩, ⟨S1, a7⟩, ⟨S1, a8⟩, ⟨S1, a9⟩] concatenates_S1_S1_S1_S1_S1_S1_S1_S1_S1_S1_S10_d0) _ _ _
      (v0 := Cert.ReferenceIdeal.ReadP.val_main_v173 (F := F) (V (Proc.devRef .tc main_arg0)) (V (Proc.devRef .tc main_arg1)))
      (v1 := Cert.ReferenceIdeal.ReadP.val_main_v174 (F := F) (V (Proc.devRef .tc main_arg0)) (V (Proc.devRef .tc main_arg1)))
      (v2 := Cert.ReferenceIdeal.ReadP.val_main_v175 (F := F) (V (Proc.devRef .tc main_arg0)) (V (Proc.devRef .tc main_arg1)))
      (v3 := Cert.ReferenceIdeal.ReadP.val_main_v176 (F := F) (V (Proc.devRef .tc main_arg0)) (V (Proc.devRef .tc main_arg1)))
      (v4 := Cert.ReferenceIdeal.ReadP.val_main_v177 (F := F) (V (Proc.devRef .tc main_arg0)) (V (Proc.devRef .tc main_arg1)) (V (Proc.devRef .tc main_arg2)))
      (v5 := Cert.ReferenceIdeal.ReadP.val_main_v178 (F := F) (V (Proc.devRef .tc main_arg0)) (V (Proc.devRef .tc main_arg1)))
      (v6 := Cert.ReferenceIdeal.ReadP.val_main_v179 (F := F) (V (Proc.devRef .tc main_arg0)) (V (Proc.devRef .tc main_arg1)))
      (v7 := Cert.ReferenceIdeal.ReadP.val_main_v180 (F := F) (V (Proc.devRef .tc main_arg0)) (V (Proc.devRef .tc main_arg1)) (V (Proc.devRef .tc main_arg2)))
      (v8 := Cert.ReferenceIdeal.ReadP.val_main_v181 (F := F) (V (Proc.devRef .tc main_arg0)) (V (Proc.devRef .tc main_arg1)))
      (v9 := Cert.ReferenceIdeal.ReadP.val_main_v182 (F := F) (V (Proc.devRef .tc main_arg0)) (V (Proc.devRef .tc main_arg1)) (V (Proc.devRef .tc main_arg2)) (V (Proc.devRef .tc main_arg3)))
      ?h0 ?h1 ?h2 ?h3 ?h4 ?h5 ?h6 ?h7 ?h8 ?h9).trans rfl
  all_goals (simp (disch := decide) only [after_cons, after_nil, nullary_result', unary_result', binary_result', ternary_result', quaternary_result', reshape_result', unaryIndexed_result', binaryIndexed_result', nullary_result_ne', unary_result_ne', binary_result_ne', ternary_result_ne', quaternary_result_ne', reshape_result_ne', nary_result_ne', unaryIndexed_result_ne', binaryIndexed_result_ne']; rfl)

end Cert.ReferenceIdeal.HRun

end
-- ==== Proof.RefRun.lean ====
/-
  The reference program's run: every weakly fair execution of its 256 host operations terminates, the result buffer holds the
  composed value of the four argument arrays (`val_main_v183`, which the reading module states operation by operation) and the
  argument arrays are as launched — no operation writes them.
-/
import proofs.«169949_j60610578481375_2_alg».proof.Proof.RefAfter

noncomputable section

namespace Cert.ReferenceIdeal.HRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 8192 in
set_option maxHeartbeats 102400000 in
/-- On every device, from any memory with zero counters: the program terminates with its result at the composed value of its
    arguments and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v183)
          = Cert.ReferenceIdeal.ReadP.val_main_v183 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v183).trans (after_result _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.HRun

end
-- ==== Proof.RefResult.lean ====
/-
  The reference's result from its six totals.  After the six whole-array sums the reference only divides each by its element
  count, adds, and lays the ten numbers side by side — the shared function `Cert.Loss.tail`.  So once each sum is known to be
  the corresponding total of the specification, the result array is `Cert.Loss.result` of the arguments.
-/
import proofs.«169949_j60610578481375_2_alg».proof.Proof.RefRead
import proofs.«169949_j60610578481375_2_alg».proof.Proof.Spec

noncomputable section

namespace Cert.ReferenceIdeal.HRef

open Idealize.ShloMosaic Cert.ReferenceIdeal Cert.ReferenceIdeal.Gen Cert.ReferenceIdeal.ReadP Cert.Loss

/-- The ten results are `tail` of the six sums, whatever the sums are; with each sum a total of the specification they are
    the specification's result. -/
theorem result_of_totals (x0 x1 x2 : ArrV) (x3 : ArrI)
    (h0 : val_main_v2 (F := Ideal) x0 x1 = fun _ => total x0 x1 x2 x3 0)
    (h1 : val_main_v5 (F := Ideal) x0 x1 = fun _ => total x0 x1 x2 x3 1)
    (h2 : val_main_v46 (F := Ideal) x0 x1 = fun _ => total x0 x1 x2 x3 2)
    (h3 : val_main_v55 (F := Ideal) x0 x1 x2 = fun _ => total x0 x1 x2 x3 3)
    (h4 : val_main_v63 (F := Ideal) x0 x1 = fun _ => total x0 x1 x2 x3 4)
    (h5 : val_main_v165 (F := Ideal) x0 x1 x2 x3 = fun _ => total x0 x1 x2 x3 5) :
    val_main_v183 (F := Ideal) x0 x1 x2 x3
      = Cert.Loss.result bcast_S_S1 concatenates_S1_S1_S1_S1_S1_S1_S1_S1_S1_S1_S10_d0 x0 x1 x2 x3 := by
  unfold val_main_v183 val_main_v173 val_main_v174 val_main_v175 val_main_v176 val_main_v177 val_main_v178 val_main_v179
    val_main_v180 val_main_v181 val_main_v182 val_main_v172 val_main_v171 val_main_v170 val_main_v169 val_main_v168 val_main_v167
    val_main_v166 val_main_v64 val_main_v56 val_main_v47 val_main_v6 val_main_v3
    val_main_cst_0 val_main_cst_2 val_main_cst_9 val_main_cst_12 val_main_cst_15 val_main_cst_40 val_main_cst_41
  rw [h0, h1, h2, h3, h4, h5]
  rfl

end Cert.ReferenceIdeal.HRef

end
-- ==== Proof.LibIdxSum.lean ====
/-
  Sums over a rank-3 or rank-4 index set as nested sums over the coordinates.

  An index of a shape of rank 3 (rank 4) is the same thing as a triple (quadruple) of coordinates, one below each extent;
  so a sum of any function over all indices of the shape is the iterated sum over the coordinates, outermost axis first.
  The statements hold for every extent and for values in any commutative additive monoid (the extended reals among them).
-/
import Idealize.ShloMosaic.Lib.ValueIdx

noncomputable section

open scoped BigOperators

namespace Cert.Lib

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost axis first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates, outermost axis first. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.Lib

end
-- ==== Proof.RefTotAbsSq.lean ====
/-
  The reference's first two totals are the specification's.

  The reference forms the error array (prediction minus label) over all samples, components and nodes, takes its absolute
  value (the larger of a number and its negative) or its square entry by entry, and adds up every entry starting from zero.
  A sum over all indices of the array is the nested sum over sample, component, row and column; moving the sum over the two
  components innermost (sums over finite ranges commute) gives, sample by sample, exactly the specification's sum of absolute
  errors and sum of squared errors.  Only commutativity of finite sums and `0 + x = x` on the extended reals are used.
-/
import proofs.«169949_j60610578481375_2_alg».proof.Proof.RefRead
import proofs.«169949_j60610578481375_2_alg».proof.Proof.Spec
import proofs.«169949_j60610578481375_2_alg».proof.Proof.LibIdxSum

noncomputable section

open scoped BigOperators

namespace Cert.ReferenceIdeal.HRef

open Idealize.ShloMosaic Idealize.ShloMosaic.ValueIdx Cert.ReferenceIdeal Cert.ReferenceIdeal.ReadP Cert.Loss Cert.Lib

/-- A triple sum with the outermost range moved innermost. -/
theorem sum_rotate {A B C : Type} [Fintype A] [Fintype B] [Fintype C] (f : A → B → C → EReal) :
    ∑ c : A, ∑ h : B, ∑ w : C, f c h w = ∑ h : B, ∑ w : C, ∑ c : A, f c h w := by
  rw [Finset.sum_comm]
  exact Finset.sum_congr rfl fun h _ => Finset.sum_comm

/-- The reference's absolute error at sample `n`, component `c`, node `(h, w)`. -/
theorem abs_at (x0 x1 : ArrV) (n : Fin 256) (c : Fin 2) (h w : Fin 257) :
    val_main_v1 (F := Ideal) x0 x1 (ix4 n c h w)
      = max (dif (rdV x0 n) (rdV x1 n) c h w) (-(dif (rdV x0 n) (rdV x1 n) c h w)) := by
  rw [val_main_v1_apply, val_main_v0_apply, Ideal.hostAbsf_def, Ideal.absf_def, Ideal.subf_def]
  rfl

/-- The reference's squared error at sample `n`, component `c`, node `(h, w)`. -/
theorem sq_at (x0 x1 : ArrV) (n : Fin 256) (c : Fin 2) (h w : Fin 257) :
    val_main_v4 (F := Ideal) x0 x1 (ix4 n c h w)
      = dif (rdV x0 n) (rdV x1 n) c h w * dif (rdV x0 n) (rdV x1 n) c h w := by
  rw [val_main_v4_apply, val_main_v0_apply, Ideal.mulf_def, Ideal.subf_def]
  rfl

/-- The reference's sum of absolute errors over everything is the sum over the samples of each sample's. -/
theorem tot0 (x0 x1 x2 : ArrV) (x3 : ArrI) :
    val_main_v2 (F := Ideal) x0 x1 = fun _ => Cert.Loss.total x0 x1 x2 x3 0 := by
  funext i
  rw [val_main_v2_apply, val_main_cst_apply, Ideal.ofBits_def, Ideal.ofBits_zero_f32, zero_add, sum_idx4]
  show _ = ∑ n : Fin 256, sAbs (rdV x0 n) (rdV x1 n)
  refine Finset.sum_congr rfl fun n _ => ?_
  unfold sAbs
  rw [sum_rotate]
  exact Finset.sum_congr rfl fun h _ => Finset.sum_congr rfl fun w _ => Finset.sum_congr rfl fun c _ =>
    abs_at x0 x1 n c h w

/-- The reference's sum of squared errors over everything is the sum over the samples of each sample's. -/
theorem tot1 (x0 x1 x2 : ArrV) (x3 : ArrI) :
    val_main_v5 (F := Ideal) x0 x1 = fun _ => Cert.Loss.total x0 x1 x2 x3 1 := by
  funext i
  rw [val_main_v5_apply, val_main_cst_1_apply, Ideal.ofBits_def, Ideal.ofBits_zero_f32, zero_add, sum_idx4]
  show _ = ∑ n : Fin 256, sSq (rdV x0 n) (rdV x1 n)
  refine Finset.sum_congr rfl fun n _ => ?_
  unfold sSq
  rw [sum_rotate]
  exact Finset.sum_congr rfl fun h _ => Finset.sum_congr rfl fun w _ => Finset.sum_congr rfl fun c _ =>
    sq_at x0 x1 n c h w

end Cert.ReferenceIdeal.HRef

end
-- ==== Proof.RefAlg.lean ====
/-
  The small facts on the extended reals that join the reference's spelling of the loss integrands to the specification's.

  The float words 1.0, 2.0 and 0.5 denote the reals 1, 2 and 1/2.  Dividing by 1 and then by 2 is multiplying by 1/2, at the
  infinities too, because division by a nonzero real is multiplication by its reciprocal on all of the extended reals.
  A sum over the two components that starts from zero is the sum of the two terms.  Nothing here needs finiteness: only the
  reading of the three words, the commutative-monoid laws of + and ·, and the definition of division.
-/
import proofs.«169949_j60610578481375_2_alg».proof.Proof.Spec
import Idealize.ShloMosaic.PureOps.Ideal.Laws

noncomputable section

open scoped BigOperators

namespace Cert.ReferenceIdeal.HRef

open Idealize.ShloMosaic Cert.Loss

/-- The word of `1.0` denotes the real 1. -/
theorem ofBits_one : Ideal.ofBits .f32 0x3F800000#32 = ((1 : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

/-- The word of `0.5` denotes the real 1/2. -/
theorem ofBits_half : Ideal.ofBits .f32 0x3F000000#32 = ((1 / 2 : ℝ) : EReal) := by
  simp [Ideal.ofBits, Ideal.ieee, -EReal.coe_mul]; norm_num

/-- Dividing by 1.0 and then by 2.0 is multiplying by 0.5, for every extended real. -/
theorem div_one_div_two (a : EReal) :
    Ideal.div (Ideal.div a (Ideal.ofBits .f32 0x3F800000#32)) (Ideal.ofBits .f32 0x40000000#32) = a * half := by
  rw [ofBits_one, ofBits_two, Ideal.div_coe one_ne_zero, Ideal.div_coe two_ne_zero]
  show a * ((1 / 1 : ℝ) : EReal) * ((1 / 2 : ℝ) : EReal) = a * Ideal.ofBits .f32 0x3F000000#32
  rw [ofBits_half, div_one, EReal.coe_one, mul_one]

/-- A sum over the two components started from zero is the sum of the two terms. -/
theorem zero_add_sum_two (f : Fin 2 → EReal) : (0 : EReal) + ∑ c : Fin 2, f c = f 0 + f 1 := by
  rw [zero_add, Fin.sum_univ_two]

end Cert.ReferenceIdeal.HRef

end
-- ==== Proof.RefTotStrain.lean ====
/-
  The reference's strain-rate total is the specification's.

  The reference takes the error field, cuts from it the four arrays of corner values of every cell (rows h or h + 1, columns
  w or w + 1), combines them into the two central differences, divides each by the grid spacing 1 and by 2, picks the two
  components of each (a cut of one component followed by dropping that axis), and adds up
  e_x0² + 0.5 · (e_x1 + e_y0)² + e_y1² over all samples and cells starting from zero.
  Each cut reads the error field at an explicit node, dropping the unit axis does not move an entry, dividing by 1 and then
  by 2 is multiplying by 1/2 on all of the extended reals, and 0.5 · (s · s) = (0.5 · s) · s by associativity; so the
  integrand at sample n and cell (h, w) is the specification's, and the sum over all indices is the nested sum over sample,
  row and column, which is the specification's order.  No finiteness is needed.
-/
import proofs.«169949_j60610578481375_2_alg».proof.Proof.RefRead
import proofs.«169949_j60610578481375_2_alg».proof.Proof.Spec
import proofs.«169949_j60610578481375_2_alg».proof.Proof.LibIdxSum
import proofs.«169949_j60610578481375_2_alg».proof.Proof.RefAlg

noncomputable section

open scoped BigOperators

namespace Cert.ReferenceIdeal.HRef

open Idealize.ShloMosaic Idealize.ShloMosaic.ValueIdx Cert.ReferenceIdeal Cert.ReferenceIdeal.ReadP Cert.Loss Cert.Lib

/-! ### Where each cut of the error field reads it -/

/-- Rows `0:256`, columns `1:257`: node `(h, w + 1)`. -/
theorem idx8 (n : Fin 256) (c : Fin 2) (h w : Fin 256) : idx_main_v8 (ix4 n c h w) = ix4 n c (lo h) (hi w) :=
  funext fun a => Fin.ext (by
    match a with
    | ⟨0, _⟩ => rfl
    | ⟨1, _⟩ => rfl
    | ⟨2, _⟩ => rfl
    | ⟨3, _⟩ => exact Nat.add_comm 1 w.val)

/-- Rows `1:257`, columns `1:257`: node `(h + 1, w + 1)`. -/
theorem idx9 (n : Fin 256) (c : Fin 2) (h w : Fin 256) : idx_main_v9 (ix4 n c h w) = ix4 n c (hi h) (hi w) :=
  funext fun a => Fin.ext (by
    match a with
    | ⟨0, _⟩ => rfl
    | ⟨1, _⟩ => rfl
    | ⟨2, _⟩ => exact Nat.add_comm 1 h.val
    | ⟨3, _⟩ => exact Nat.add_comm 1 w.val)

/-- Rows `0:256`, columns `0:256`: node `(h, w)`. -/
theorem idx11 (n : Fin 256) (c : Fin 2) (h w : Fin 256) : idx_main_v11 (ix4 n c h w) = ix4 n c (lo h) (lo w) :=
  funext fun a => Fin.ext (by
    match a with
    | ⟨0, _⟩ => rfl
    | ⟨1, _⟩ => rfl
    | ⟨2, _⟩ => rfl
    | ⟨3, _⟩ => rfl)

/-- Rows `1:257`, columns `0:256`: node `(h + 1, w)`. -/
theorem idx13 (n : Fin 256) (c : Fin 2) (h w : Fin 256) : idx_main_v13 (ix4 n c h w) = ix4 n c (hi h) (lo w) :=
  funext fun a => Fin.ext (by
    match a with
    | ⟨0, _⟩ => rfl
    | ⟨1, _⟩ => rfl
    | ⟨2, _⟩ => exact Nat.add_comm 1 h.val
    | ⟨3, _⟩ => rfl)

/-- Rows `1:257`, columns `0:256` again: node `(h + 1, w)`. -/
theorem idx19 (n : Fin 256) (c : Fin 2) (h w : Fin 256) : idx_main_v19 (ix4 n c h w) = ix4 n c (hi h) (lo w) :=
  funext fun a => Fin.ext (by
    match a with
    | ⟨0, _⟩ => rfl
    | ⟨1, _⟩ => rfl
    | ⟨2, _⟩ => exact Nat.add_comm 1 h.val
    | ⟨3, _⟩ => rfl)

/-- Rows `1:257`, columns `1:257` again: node `(h + 1, w + 1)`. -/
theorem idx20 (n : Fin 256) (c : Fin 2) (h w : Fin 256) : idx_main_v20 (ix4 n c h w) = ix4 n c (hi h) (hi w) :=
  funext fun a => Fin.ext (by
    match a with
    | ⟨0, _⟩ => rfl
    | ⟨1, _⟩ => rfl
    | ⟨2, _⟩ => exact Nat.add_comm 1 h.val
    | ⟨3, _⟩ => exact Nat.add_comm 1 w.val)

/-- Rows `0:256`, columns `0:256` again: node `(h, w)`. -/
theorem idx22 (n : Fin 256) (c : Fin 2) (h w : Fin 256) : idx_main_v22 (ix4 n c h w) = ix4 n c (lo h) (lo w) :=
  funext fun a => Fin.ext (by
    match a with
    | ⟨0, _⟩ => rfl
    | ⟨1, _⟩ => rfl
    | ⟨2, _⟩ => rfl
    | ⟨3, _⟩ => rfl)

/-- Rows `0:256`, columns `1:257` again: node `(h, w + 1)`. -/
theorem idx24 (n : Fin 256) (c : Fin 2) (h w : Fin 256) : idx_main_v24 (ix4 n c h w) = ix4 n c (lo h) (hi w) :=
  funext fun a => Fin.ext (by
    match a with
    | ⟨0, _⟩ => rfl
    | ⟨1, _⟩ => rfl
    | ⟨2, _⟩ => rfl
    | ⟨3, _⟩ => exact Nat.add_comm 1 w.val)

/-! ### The two halved central differences -/

/-- The reference's column difference at sample `n`, component `c`, cell `(h, w)`. -/
theorem ex_at (x0 x1 : ArrV) (n : Fin 256) (c : Fin 2) (h w : Fin 256) :
    val_main_v18 (F := Ideal) x0 x1 (ix4 n c h w) = ex (dif (rdV x0 n) (rdV x1 n)) c h w := by
  rw [val_main_v18_apply, val_main_v17_apply, val_main_cst_4_apply, val_main_v16_apply, val_main_v15_apply,
    val_main_cst_3_apply, val_main_v14_apply, val_main_v13_apply, val_main_v12_apply, val_main_v11_apply,
    val_main_v10_apply, val_main_v9_apply, val_main_v8_apply, idx8, idx9, idx11, idx13]
  simp only [val_main_v7_apply, Ideal.hostDivf_def, Ideal.ofBits_def, Ideal.subf_def, Ideal.addf_def]
  rw [div_one_div_two]
  rfl

/-- The reference's row difference at sample `n`, component `c`, cell `(h, w)`. -/
theorem ey_at (x0 x1 : ArrV) (n : Fin 256) (c : Fin 2) (h w : Fin 256) :
    val_main_v29 (F := Ideal) x0 x1 (ix4 n c h w) = ey (dif (rdV x0 n) (rdV x1 n)) c h w := by
  rw [val_main_v29_apply, val_main_v28_apply, val_main_cst_6_apply, val_main_v27_apply, val_main_v26_apply,
    val_main_cst_5_apply, val_main_v25_apply, val_main_v24_apply, val_main_v23_apply, val_main_v22_apply,
    val_main_v21_apply, val_main_v20_apply, val_main_v19_apply, idx19, idx20, idx22, idx24]
  simp only [val_main_v7_apply, Ideal.hostDivf_def, Ideal.ofBits_def, Ideal.subf_def, Ideal.addf_def]
  rw [div_one_div_two]
  rfl

/-! ### Picking a component: cut one component, then drop its axis -/

/-- Component 0 of the column difference is cut at component index 0. -/
theorem idx30 (n h w : Fin 256) : idx_main_v30 (ix4 n (0 : Fin 1) h w) = ix4 n (0 : Fin 2) h w :=
  funext fun a => Fin.ext (by
    match a with
    | ⟨0, _⟩ => rfl
    | ⟨1, _⟩ => rfl
    | ⟨2, _⟩ => rfl
    | ⟨3, _⟩ => rfl)

/-- Component 1 of the column difference is cut at component index 1. -/
theorem idx33 (n h w : Fin 256) : idx_main_v33 (ix4 n (0 : Fin 1) h w) = ix4 n (1 : Fin 2) h w :=
  funext fun a => Fin.ext (by
    match a with
    | ⟨0, _⟩ => rfl
    | ⟨1, _⟩ => rfl
    | ⟨2, _⟩ => rfl
    | ⟨3, _⟩ => rfl)

/-- Component 0 of the row difference is cut at component index 0. -/
theorem idx35 (n h w : Fin 256) : idx_main_v35 (ix4 n (0 : Fin 1) h w) = ix4 n (0 : Fin 2) h w :=
  funext fun a => Fin.ext (by
    match a with
    | ⟨0, _⟩ => rfl
    | ⟨1, _⟩ => rfl
    | ⟨2, _⟩ => rfl
    | ⟨3, _⟩ => rfl)

/-- Component 1 of the row difference is cut at component index 1. -/
theorem idx42 (n h w : Fin 256) : idx_main_v42 (ix4 n (0 : Fin 1) h w) = ix4 n (1 : Fin 2) h w :=
  funext fun a => Fin.ext (by
    match a with
    | ⟨0, _⟩ => rfl
    | ⟨1, _⟩ => rfl
    | ⟨2, _⟩ => rfl
    | ⟨3, _⟩ => rfl)

/-- Dropping the unit axis: entry `(n, h, w)` of the result is entry `(n, 0, h, w)` of the operand (the row-major position
    `(n · 256 + h) · 256 + w` splits back into `n`, `h`, `w`). -/
theorem idx31 (n h w : Fin 256) : idx_main_v31 (ix3 n h w) = ix4 n (0 : Fin 1) h w := by
  have hn := n.isLt
  have hh := h.isLt
  have hw := w.isLt
  refine funext fun a => Fin.ext ?_
  match a with
  | ⟨0, _⟩ => show ((n.val * 256 + h.val) * 256 + w.val) / 65536 = n.val; omega
  | ⟨1, _⟩ => rfl
  | ⟨2, _⟩ => show ((n.val * 256 + h.val) * 256 + w.val) / 256 % 256 = h.val; omega
  | ⟨3, _⟩ => show ((n.val * 256 + h.val) * 256 + w.val) % 256 = w.val; omega

theorem idx34 (n h w : Fin 256) : idx_main_v34 (ix3 n h w) = ix4 n (0 : Fin 1) h w := by
  have hn := n.isLt
  have hh := h.isLt
  have hw := w.isLt
  refine funext fun a => Fin.ext ?_
  match a with
  | ⟨0, _⟩ => show ((n.val * 256 + h.val) * 256 + w.val) / 65536 = n.val; omega
  | ⟨1, _⟩ => rfl
  | ⟨2, _⟩ => show ((n.val * 256 + h.val) * 256 + w.val) / 256 % 256 = h.val; omega
  | ⟨3, _⟩ => show ((n.val * 256 + h.val) * 256 + w.val) % 256 = w.val; omega

theorem idx36 (n h w : Fin 256) : idx_main_v36 (ix3 n h w) = ix4 n (0 : Fin 1) h w := by
  have hn := n.isLt
  have hh := h.isLt
  have hw := w.isLt
  refine funext fun a => Fin.ext ?_
  match a with
  | ⟨0, _⟩ => show ((n.val * 256 + h.val) * 256 + w.val) / 65536 = n.val; omega
  | ⟨1, _⟩ => rfl
  | ⟨2, _⟩ => show ((n.val * 256 + h.val) * 256 + w.val) / 256 % 256 = h.val; omega
  | ⟨3, _⟩ => show ((n.val * 256 + h.val) * 256 + w.val) % 256 = w.val; omega

theorem idx43 (n h w : Fin 256) : idx_main_v43 (ix3 n h w) = ix4 n (0 : Fin 1) h w := by
  have hn := n.isLt
  have hh := h.isLt
  have hw := w.isLt
  refine funext fun a => Fin.ext ?_
  match a with
  | ⟨0, _⟩ => show ((n.val * 256 + h.val) * 256 + w.val) / 65536 = n.val; omega
  | ⟨1, _⟩ => rfl
  | ⟨2, _⟩ => show ((n.val * 256 + h.val) * 256 + w.val) / 256 % 256 = h.val; omega
  | ⟨3, _⟩ => show ((n.val * 256 + h.val) * 256 + w.val) % 256 = w.val; omega

/-- Component 0 of the column difference, on the cell grid. -/
theorem ex0_at (x0 x1 : ArrV) (n h w : Fin 256) :
    val_main_v31 (F := Ideal) x0 x1 (ix3 n h w) = ex (dif (rdV x0 n) (rdV x1 n)) 0 h w := by
  rw [val_main_v31_apply, idx31, val_main_v30_apply, idx30, ex_at]

/-- Component 1 of the column difference, on the cell grid. -/
theorem ex1_at (x0 x1 : ArrV) (n h w : Fin 256) :
    val_main_v34 (F := Ideal) x0 x1 (ix3 n h w) = ex (dif (rdV x0 n) (rdV x1 n)) 1 h w := by
  rw [val_main_v34_apply, idx34, val_main_v33_apply, idx33, ex_at]

/-- Component 0 of the row difference, on the cell grid. -/
theorem ey0_at (x0 x1 : ArrV) (n h w : Fin 256) :
    val_main_v36 (F := Ideal) x0 x1 (ix3 n h w) = ey (dif (rdV x0 n) (rdV x1 n)) 0 h w := by
  rw [val_main_v36_apply, idx36, val_main_v35_apply, idx35, ey_at]

/-- Component 1 of the row difference, on the cell grid. -/
theorem ey1_at (x0 x1 : ArrV) (n h w : Fin 256) :
    val_main_v43 (F := Ideal) x0 x1 (ix3 n h w) = ey (dif (rdV x0 n) (rdV x1 n)) 1 h w := by
  rw [val_main_v43_apply, idx43, val_main_v42_apply, idx42, ey_at]

/-! ### The integrand and the total -/

/-- The reference's strain-rate integrand at sample `n`, cell `(h, w)`. -/
theorem strain_at (x0 x1 : ArrV) (n h w : Fin 256) :
    val_main_v45 (F := Ideal) x0 x1 (ix3 n h w) = strainAt (dif (rdV x0 n) (rdV x1 n)) h w := by
  rw [val_main_v45_apply, val_main_v44_apply, val_main_v41_apply, val_main_v40_apply, val_main_v39_apply,
    val_main_cst_7_apply, val_main_v38_apply, val_main_v37_apply, val_main_v32_apply, ex0_at, ex1_at, ey0_at, ey1_at]
  simp only [Ideal.addf_def, Ideal.mulf_def, Ideal.ofBits_def]
  rw [← mul_assoc]
  rfl

/-- The reference's sum of the strain-rate integrand over everything is the sum over the samples of each sample's. -/
theorem tot2 (x0 x1 x2 : ArrV) (x3 : ArrI) :
    val_main_v46 (F := Ideal) x0 x1 = fun _ => Cert.Loss.total x0 x1 x2 x3 2 := by
  funext i
  rw [val_main_v46_apply, val_main_cst_8_apply, Ideal.ofBits_def, Ideal.ofBits_zero_f32, zero_add, sum_idx3]
  show _ = ∑ n : Fin 256, sStrain (rdV x0 n) (rdV x1 n)
  refine Finset.sum_congr rfl fun n _ => ?_
  unfold sStrain
  exact Finset.sum_congr rfl fun h _ => Finset.sum_congr rfl fun w _ => strain_at x0 x1 n h w

end Cert.ReferenceIdeal.HRef

end
-- ==== Proof.RefTotRel.lean ====
/-
  The reference's two relative-error totals are the specification's.

  At every sample and node the reference takes the Euclidean norm of the error's two components — the square root of the
  sum, started from zero, of the two squared components — and divides it by the norm, formed in the same way, of the label
  plus the previous velocity (or of the label alone) plus a small constant; then it adds up all the quotients starting from
  zero.  A sum over the two components started from zero is the sum of the two squares, the host's square root and division
  are the extended reals' own, and a sum over all indices of the node array is the nested sum over sample, row and column,
  which is the specification's order.  Only `0 + x = x` is used of the extended reals.
-/
import proofs.«169949_j60610578481375_2_alg».proof.Proof.RefRead
import proofs.«169949_j60610578481375_2_alg».proof.Proof.Spec
import proofs.«169949_j60610578481375_2_alg».proof.Proof.LibIdxSum
import proofs.«169949_j60610578481375_2_alg».proof.Proof.RefAlg

noncomputable section

open scoped BigOperators

namespace Cert.ReferenceIdeal.HRef

open Idealize.ShloMosaic Idealize.ShloMosaic.ValueIdx Cert.ReferenceIdeal Cert.ReferenceIdeal.ReadP Cert.Loss Cert.Lib

/-! ### The component sums read the operand at component `k` of the same sample and node -/

theorem idxc0 (n : Fin 256) (h w : Fin 257) (k : Fin 2) : idx_main_call0_v1 (ix3 n h w) k = ix4 n k h w :=
  funext fun a => Fin.ext (by
    match a with
    | ⟨0, _⟩ => rfl
    | ⟨1, _⟩ => rfl
    | ⟨2, _⟩ => rfl
    | ⟨3, _⟩ => rfl)

theorem idxc1 (n : Fin 256) (h w : Fin 257) (k : Fin 2) : idx_main_call1_v1 (ix3 n h w) k = ix4 n k h w :=
  funext fun a => Fin.ext (by
    match a with
    | ⟨0, _⟩ => rfl
    | ⟨1, _⟩ => rfl
    | ⟨2, _⟩ => rfl
    | ⟨3, _⟩ => rfl)

theorem idxc2 (n : Fin 256) (h w : Fin 257) (k : Fin 2) : idx_main_call2_v1 (ix3 n h w) k = ix4 n k h w :=
  funext fun a => Fin.ext (by
    match a with
    | ⟨0, _⟩ => rfl
    | ⟨1, _⟩ => rfl
    | ⟨2, _⟩ => rfl
    | ⟨3, _⟩ => rfl)

theorem idxc3 (n : Fin 256) (h w : Fin 257) (k : Fin 2) : idx_main_call3_v1 (ix3 n h w) k = ix4 n k h w :=
  funext fun a => Fin.ext (by
    match a with
    | ⟨0, _⟩ => rfl
    | ⟨1, _⟩ => rfl
    | ⟨2, _⟩ => rfl
    | ⟨3, _⟩ => rfl)

/-! ### The four norms -/

/-- The norm of the error at sample `n`, node `(h, w)` (first relative error). -/
theorem nrm_err_at (x0 x1 : ArrV) (n : Fin 256) (h w : Fin 257) :
    val_main_v49 (F := Ideal) x0 x1 (ix3 n h w) = nrm (dif (rdV x0 n) (rdV x1 n)) h w := by
  rw [val_main_v49_apply, val_main_call0_v1_apply, val_main_call0_cst_apply, Ideal.ofBits_def, Ideal.ofBits_zero_f32,
    zero_add_sum_two, idxc0, idxc0, val_main_call0_v0_apply, val_main_call0_v0_apply, val_main_v48_apply,
    val_main_v48_apply, Ideal.hostUnary_sqrt_def]
  simp only [Ideal.mulf_def, Ideal.subf_def]
  rfl

/-- The norm of label plus previous velocity at sample `n`, node `(h, w)`. -/
theorem nrm_sum_at (x1 x2 : ArrV) (n : Fin 256) (h w : Fin 257) :
    val_main_v51 (F := Ideal) x1 x2 (ix3 n h w) = nrm (fun c h w => rdV x1 n c h w + rdV x2 n c h w) h w := by
  rw [val_main_v51_apply, val_main_call1_v1_apply, val_main_call1_cst_apply, Ideal.ofBits_def, Ideal.ofBits_zero_f32,
    zero_add_sum_two, idxc1, idxc1, val_main_call1_v0_apply, val_main_call1_v0_apply, val_main_v50_apply,
    val_main_v50_apply, Ideal.hostUnary_sqrt_def]
  simp only [Ideal.mulf_def, Ideal.addf_def]
  rfl

/-- The norm of the error at sample `n`, node `(h, w)` (second relative error). -/
theorem nrm_err_at' (x0 x1 : ArrV) (n : Fin 256) (h w : Fin 257) :
    val_main_v58 (F := Ideal) x0 x1 (ix3 n h w) = nrm (dif (rdV x0 n) (rdV x1 n)) h w := by
  rw [val_main_v58_apply, val_main_call2_v1_apply, val_main_call2_cst_apply, Ideal.ofBits_def, Ideal.ofBits_zero_f32,
    zero_add_sum_two, idxc2, idxc2, val_main_call2_v0_apply, val_main_call2_v0_apply, val_main_v57_apply,
    val_main_v57_apply, Ideal.hostUnary_sqrt_def]
  simp only [Ideal.mulf_def, Ideal.subf_def]
  rfl

/-- The norm of the label at sample `n`, node `(h, w)`. -/
theorem nrm_lab_at (x1 : ArrV) (n : Fin 256) (h w : Fin 257) :
    val_main_v59 (F := Ideal) x1 (ix3 n h w) = nrm (rdV x1 n) h w := by
  rw [val_main_v59_apply, val_main_call3_v1_apply, val_main_call3_cst_apply, Ideal.ofBits_def, Ideal.ofBits_zero_f32,
    zero_add_sum_two, idxc3, idxc3, val_main_call3_v0_apply, val_main_call3_v0_apply, Ideal.hostUnary_sqrt_def]
  simp only [Ideal.mulf_def]
  rfl

/-! ### The quotients and the totals -/

/-- The first relative error at sample `n`, node `(h, w)`. -/
theorem mre_at (x0 x1 x2 : ArrV) (n : Fin 256) (h w : Fin 257) :
    val_main_v54 (F := Ideal) x0 x1 x2 (ix3 n h w)
      = Ideal.div (nrm (dif (rdV x0 n) (rdV x1 n)) h w)
          (nrm (fun c h w => rdV x1 n c h w + rdV x2 n c h w) h w + eps) := by
  rw [val_main_v54_apply, val_main_v53_apply, val_main_v52_apply, val_main_cst_10_apply, nrm_err_at, nrm_sum_at]
  rfl

/-- The second relative error at sample `n`, node `(h, w)`. -/
theorem mrde_at (x0 x1 : ArrV) (n : Fin 256) (h w : Fin 257) :
    val_main_v62 (F := Ideal) x0 x1 (ix3 n h w)
      = Ideal.div (nrm (dif (rdV x0 n) (rdV x1 n)) h w) (nrm (rdV x1 n) h w + eps) := by
  rw [val_main_v62_apply, val_main_v61_apply, val_main_v60_apply, val_main_cst_13_apply, nrm_err_at', nrm_lab_at]
  rfl

/-- The reference's sum of the first relative error over everything is the sum over the samples of each sample's. -/
theorem tot3 (x0 x1 x2 : ArrV) (x3 : ArrI) :
    val_main_v55 (F := Ideal) x0 x1 x2 = fun _ => Cert.Loss.total x0 x1 x2 x3 3 := by
  funext i
  rw [val_main_v55_apply, val_main_cst_11_apply, Ideal.ofBits_def, Ideal.ofBits_zero_f32, zero_add, sum_idx3]
  show _ = ∑ n : Fin 256, sMre (rdV x0 n) (rdV x1 n) (rdV x2 n)
  refine Finset.sum_congr rfl fun n _ => ?_
  unfold sMre
  exact Finset.sum_congr rfl fun h _ => Finset.sum_congr rfl fun w _ => mre_at x0 x1 x2 n h w

/-- The reference's sum of the second relative error over everything is the sum over the samples of each sample's. -/
theorem tot4 (x0 x1 x2 : ArrV) (x3 : ArrI) :
    val_main_v63 (F := Ideal) x0 x1 = fun _ => Cert.Loss.total x0 x1 x2 x3 4 := by
  funext i
  rw [val_main_v63_apply, val_main_cst_14_apply, Ideal.ofBits_def, Ideal.ofBits_zero_f32, zero_add, sum_idx3]
  show _ = ∑ n : Fin 256, sMrde (rdV x0 n) (rdV x1 n)
  refine Finset.sum_congr rfl fun n _ => ?_
  unfold sMrde
  exact Finset.sum_congr rfl fun h _ => Finset.sum_congr rfl fun w _ => mrde_at x0 x1 n h w

end Cert.ReferenceIdeal.HRef

end
-- ==== Proof.RefTotalMce.lean ====
/-
  The reference's concentration total is the specification's, given the two advected ice fields cell by cell.

  The reference advects the ice field once with the prediction's velocity and once with the label's, squares the difference
  of the two results entry by entry, and adds up every entry of that array (sample, a unit axis, row, column) starting from
  zero.  A sum over all indices of the array is the nested sum over the four coordinates, the sum over the unit axis is its one
  term, and what remains is the sum over sample, row and column in the specification's order.  So once each advected field is
  known at every sample and cell to be the specification's one upwind step, the total is the specification's.
  Only `0 + x = x` is used of the extended reals.
-/
import proofs.«169949_j60610578481375_2_alg».proof.Proof.RefRead
import proofs.«169949_j60610578481375_2_alg».proof.Proof.Spec
import proofs.«169949_j60610578481375_2_alg».proof.Proof.LibIdxSum

noncomputable section

open scoped BigOperators

namespace Cert.ReferenceIdeal.HRef

open Idealize.ShloMosaic Idealize.ShloMosaic.ValueIdx Cert.ReferenceIdeal Cert.ReferenceIdeal.ReadP Cert.Loss Cert.Lib

/-- The squared difference at sample `n`, cell `(h, w)`, from the two advected fields at that sample and cell. -/
theorem mce_of_adv (x0 x1 x2 : ArrV) (x3 : ArrI) (n h w : Fin 256)
    (h1 : val_main_v113 (F := Ideal) x0 x2 x3 (ix4 n (0 : Fin 1) h w) = adv (vel (rdV x0 n) (rdV x2 n)) (rdI x3 n) h w)
    (h2 : val_main_v162 (F := Ideal) x1 x2 x3 (ix4 n (0 : Fin 1) h w) = adv (vel (rdV x1 n) (rdV x2 n)) (rdI x3 n) h w) :
    val_main_v164 (F := Ideal) x0 x1 x2 x3 (ix4 n (0 : Fin 1) h w)
      = (adv (vel (rdV x0 n) (rdV x2 n)) (rdI x3 n) h w - adv (vel (rdV x1 n) (rdV x2 n)) (rdI x3 n) h w)
        * (adv (vel (rdV x0 n) (rdV x2 n)) (rdI x3 n) h w - adv (vel (rdV x1 n) (rdV x2 n)) (rdI x3 n) h w) := by
  rw [val_main_v164_apply, val_main_v163_apply, h1, h2, Ideal.mulf_def, Ideal.subf_def]

/-- The reference's sum of the squared differences over everything is the sum over the samples of each sample's, once
    the squared difference is known cell by cell. -/
theorem tot5_of (x0 x1 x2 : ArrV) (x3 : ArrI)
    (hcell : ∀ n h w : Fin 256, val_main_v164 (F := Ideal) x0 x1 x2 x3 (ix4 n (0 : Fin 1) h w)
      = (adv (vel (rdV x0 n) (rdV x2 n)) (rdI x3 n) h w - adv (vel (rdV x1 n) (rdV x2 n)) (rdI x3 n) h w)
        * (adv (vel (rdV x0 n) (rdV x2 n)) (rdI x3 n) h w - adv (vel (rdV x1 n) (rdV x2 n)) (rdI x3 n) h w)) :
    val_main_v165 (F := Ideal) x0 x1 x2 x3 = fun _ => Cert.Loss.total x0 x1 x2 x3 5 := by
  funext i
  rw [val_main_v165_apply, val_main_cst_39_apply, Ideal.ofBits_def, Ideal.ofBits_zero_f32, zero_add, sum_idx4]
  show _ = ∑ n : Fin 256, sMce (rdV x0 n) (rdV x1 n) (rdV x2 n) (rdI x3 n)
  refine Finset.sum_congr rfl fun n _ => ?_
  rw [Fin.sum_univ_one]
  unfold sMce
  exact Finset.sum_congr rfl fun h _ => Finset.sum_congr rfl fun w _ => hcell n h w

end Cert.ReferenceIdeal.HRef

end
-- ==== Proof.LibWindowScatter.lean ====
/-
  A scatter whose update is one window: reading the result at an index.

  The host scatter is a left fold over the update's indices in row-major order: each update index lands at one
  operand index (or is dropped), and the step replaces the operand's element there by the body applied to it and the
  update's element.  When distinct update indices land at distinct operand indices — as they do when the update is a
  single window laid at one start index — every operand element meets at most one update, and the fold reads
  index by index: the body applied once where an update lands, the operand untouched elsewhere.
-/
import Idealize.ShloMosaic.PureOps.Ideal
import Idealize.ShloMosaic.Lib.ValueIdx

namespace Cert.Lib

open Idealize.ShloMosaic

section Fold

variable {ι κ α : Type} [DecidableEq ι]
variable (g : κ → Option ι) (f : α → α → α) (v : κ → α) (step : (ι → α) → κ → ι → α)

/-- A step leaves alone every index its update does not land at. -/
theorem step_of_ne
    (hsome : ∀ r n i, g n = some i → step r n = fun i' => if i' = i then f (r i) (v n) else r i')
    (hnone : ∀ r n, g n = none → step r n = r)
    (r : ι → α) (n : κ) (i' : ι) (h : g n ≠ some i') : step r n i' = r i' := by
  cases hg : g n with
  | none => rw [hnone r n hg]
  | some i =>
    rw [hsome r n i hg]
    have hne : i' ≠ i := fun e => h (by rw [hg, e])
    show (if i' = i then f (r i) (v n) else r i') = r i'
    exact if_neg hne

/-- An index no update of the list lands at keeps its element through the fold. -/
theorem foldl_miss
    (hsome : ∀ r n i, g n = some i → step r n = fun i' => if i' = i then f (r i) (v n) else r i')
    (hnone : ∀ r n, g n = none → step r n = r)
    (l : List κ) (i' : ι) (h : ∀ n ∈ l, g n ≠ some i') (x : ι → α) : l.foldl step x i' = x i' := by
  induction l generalizing x with
  | nil => rfl
  | cons n l ih =>
    rw [List.foldl_cons, ih (fun m hm => h m (List.mem_cons_of_mem _ hm)),
      step_of_ne g f v step hsome hnone x n i' (h n List.mem_cons_self)]

/-- An index exactly one update of a duplicate-free list lands at holds the body applied once. -/
theorem foldl_hit
    (hsome : ∀ r n i, g n = some i → step r n = fun i' => if i' = i then f (r i) (v n) else r i')
    (hnone : ∀ r n, g n = none → step r n = r)
    (l : List κ) (hl : l.Nodup) (i' : ι) (n : κ) (hn : n ∈ l) (hg : g n = some i')
    (huniq : ∀ m ∈ l, g m = some i' → m = n) (x : ι → α) : l.foldl step x i' = f (x i') (v n) := by
  induction l generalizing x with
  | nil => exact absurd hn List.not_mem_nil
  | cons m l ih =>
    rw [List.foldl_cons]
    have hnd := List.nodup_cons.mp hl
    by_cases hmn : m = n
    · subst hmn
      rw [foldl_miss g f v step hsome hnone l i'
        (fun k hk e => hnd.1 (by rw [← huniq k (List.mem_cons_of_mem _ hk) e]; exact hk))]
      rw [hsome x m i' hg]
      show (if i' = i' then f (x i') (v m) else x i') = f (x i') (v m)
      exact if_pos rfl
    · have hn' : n ∈ l := (List.mem_cons.mp hn).resolve_left (fun e => hmn e.symm)
      rw [ih hnd.2 hn' (fun k hk => huniq k (List.mem_cons_of_mem _ hk)),
        step_of_ne g f v step hsome hnone x m i' (fun e => hmn (huniq m List.mem_cons_self e))]

end Fold

section Scatter

variable {s si u : Shape} {w : Nat} {α : Type}

/-- The scatter's step at an update index that lands. -/
private theorem scatter_step_some (d : ScatterDims s si u) (f : α → α → α) (idx : IVec si w) (upd : u.Idx → α)
    (r : s.Idx → α) (n : Fin u.numel) (i : s.Idx) (h : d.resultIdx? (u.rowMajor.symm n) idx = some i) :
    (match d.resultIdx? (u.rowMajor.symm n) idx with
      | some i => fun i' => if i' = i then f (r i) (upd (u.rowMajor.symm n)) else r i'
      | none => r) = fun i' => if i' = i then f (r i) (upd (u.rowMajor.symm n)) else r i' := by
  rw [h]

private theorem scatter_step_none (d : ScatterDims s si u) (f : α → α → α) (idx : IVec si w) (upd : u.Idx → α)
    (r : s.Idx → α) (n : Fin u.numel) (h : d.resultIdx? (u.rowMajor.symm n) idx = none) :
    (match d.resultIdx? (u.rowMajor.symm n) idx with
      | some i => fun i' => if i' = i then f (r i) (upd (u.rowMajor.symm n)) else r i'
      | none => r) = r := by
  rw [h]

/-- THE SCATTER READ WHERE AN UPDATE LANDS: if update index `j` lands at `i` and no other update index does, the
    result at `i` is the body applied to the operand's element and the update's. -/
theorem scatter_apply_hit (d : ScatterDims s si u) (f : α → α → α) (x : s.Idx → α) (idx : IVec si w) (upd : u.Idx → α)
    (i : s.Idx) (j : u.Idx) (hj : d.resultIdx? j idx = some i)
    (huniq : ∀ j', d.resultIdx? j' idx = some i → j' = j) :
    Host.scatter d f x idx upd i = f (x i) (upd j) := by
  unfold Host.scatter
  have key := foldl_hit (fun n : Fin u.numel => d.resultIdx? (u.rowMajor.symm n) idx) f
    (fun n : Fin u.numel => upd (u.rowMajor.symm n))
    (fun (r : s.Idx → α) (n : Fin u.numel) =>
      match d.resultIdx? (u.rowMajor.symm n) idx with
      | some i => fun i' => if i' = i then f (r i) (upd (u.rowMajor.symm n)) else r i'
      | none => r)
    (fun r n i h => scatter_step_some d f idx upd r n i h)
    (fun r n h => scatter_step_none d f idx upd r n h)
    (List.finRange u.numel) (List.nodup_finRange _) i (u.rowMajor j) (List.mem_finRange _)
    (by show d.resultIdx? (u.rowMajor.symm (u.rowMajor j)) idx = some i; rw [Equiv.symm_apply_apply]; exact hj)
    (fun m _ hm => by
      have e := huniq _ hm
      rw [← e, Equiv.apply_symm_apply]) x
  rw [Equiv.symm_apply_apply] at key
  exact key

/-- THE SCATTER READ WHERE NO UPDATE LANDS: the operand's element. -/
theorem scatter_apply_miss (d : ScatterDims s si u) (f : α → α → α) (x : s.Idx → α) (idx : IVec si w) (upd : u.Idx → α)
    (i : s.Idx) (hmiss : ∀ j', d.resultIdx? j' idx ≠ some i) :
    Host.scatter d f x idx upd i = x i := by
  unfold Host.scatter
  exact foldl_miss (fun n : Fin u.numel => d.resultIdx? (u.rowMajor.symm n) idx) f
    (fun n : Fin u.numel => upd (u.rowMajor.symm n))
    (fun (r : s.Idx → α) (n : Fin u.numel) =>
      match d.resultIdx? (u.rowMajor.symm n) idx with
      | some i => fun i' => if i' = i then f (r i) (upd (u.rowMajor.symm n)) else r i'
      | none => r)
    (fun r n i h => scatter_step_some d f idx upd r n i h)
    (fun r n h => scatter_step_none d f idx upd r n h)
    (List.finRange u.numel) i (fun n _ => hmiss _) x

/-- Where update index `j` lands, from its start and window coordinates axis by axis. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hb : ∀ a, 0 ≤ d.start j idx a + d.window j a ∧ d.start j idx a + d.window j a < s.size a := by
    intro a
    rw [h a]
    exact ⟨Int.natCast_nonneg _, by exact_mod_cast (i a).isLt⟩
  rw [dif_pos hb]
  refine congrArg some (funext fun a => Fin.ext ?_)
  show (d.start j idx a + d.window j a).toNat = (i a).val
  rw [h a]
  exact Int.toNat_natCast _

/-- A scatter all of whose update indices land, at pairwise distinct places `sh j`: the result at `sh j`. -/
theorem scatter_apply_of_inj (d : ScatterDims s si u) (f : α → α → α) (x : s.Idx → α) (idx : IVec si w) (upd : u.Idx → α)
    (sh : u.Idx → s.Idx) (hsh : ∀ j, d.resultIdx? j idx = some (sh j)) (hinj : Function.Injective sh) (j : u.Idx) :
    Host.scatter d f x idx upd (sh j) = f (x (sh j)) (upd j) :=
  scatter_apply_hit d f x idx upd (sh j) j (hsh j) (fun j' h => by
    rw [hsh j'] at h
    exact hinj (Option.some.inj h))

/-- The same scatter at an index that is no `sh j`: the operand's element. -/
theorem scatter_apply_of_not_range (d : ScatterDims s si u) (f : α → α → α) (x : s.Idx → α) (idx : IVec si w)
    (upd : u.Idx → α) (sh : u.Idx → s.Idx) (hsh : ∀ j, d.resultIdx? j idx = some (sh j)) (i : s.Idx)
    (hi : ∀ j, sh j ≠ i) : Host.scatter d f x idx upd i = x i :=
  scatter_apply_miss d f x idx upd i (fun j' h => by
    rw [hsh j'] at h
    exact hi j' (Option.some.inj h))

end Scatter

end Cert.Lib
-- ==== Proof.RefScatter.lean ====
/-
  The two window scatters of the advection step, read at a cell.

  Each of the reference's scatters lays ONE window — the whole update — at one start index along one axis of a
  [256, 1, 256, 256] operand: along the rows (axis 2) an update of 255 rows at row offset `k`, along the columns
  (axis 3) an update of 255 columns at column offset `k`, with `k` the one entry of the index operand (0 or 1).
  Every update index lands inside the operand, at its own coordinates shifted by `k` on that axis, and the shift is
  injective: so the result at a cell is the body applied to the operand's and the update's element when the cell's
  coordinate on the axis lies in `[k, k + 255)`, and the operand's element otherwise.
-/
import proofs.«169949_j60610578481375_2_alg».proof.Proof.Gen.ReferenceIdeal
import proofs.«169949_j60610578481375_2_alg».proof.Proof.LibWindowScatter

namespace Cert.ReferenceIdeal.HRef

open Idealize.ShloMosaic Idealize.ShloMosaic.ValueIdx Cert.ReferenceIdeal Cert.ReferenceIdeal.Gen Cert.Lib

/-- The scatter of a 255-row window along the rows. -/
abbrev dRows : ScatterDims S256x1x256x256 S1 S256x1x255x256 := scatter_S256x1x256x256_S1_S256x1x255x256_0123_n_2_0
/-- The scatter of a 255-column window along the columns. -/
abbrev dCols : ScatterDims S256x1x256x256 S1 S256x1x256x255 := scatter_S256x1x256x256_S1_S256x1x256x255_0123_n_3_0

/-! ### Along the rows -/

/-- Where an update index lands: `k` rows further down. -/
def shRows (k : Nat) (hk : k ≤ 1) (j : S256x1x255x256.Idx) : S256x1x256x256.Idx :=
  ix4 (n0 := 256) (n1 := 1) (n2 := 256) (n3 := 256) ⟨(j 0).val, (j 0).isLt⟩ ⟨(j 1).val, (j 1).isLt⟩
    ⟨(j 2).val + k, by have h2 : (j 2).val < 255 := (j 2).isLt; omega⟩ ⟨(j 3).val, (j 3).isLt⟩

theorem rows_start (idx : IVec S1 32) (k : Int) (hidx : ∀ c, (idx c).toInt = k) (j : S256x1x255x256.Idx) :
    dRows.start j idx 2 = k := by
  unfold ScatterDims.start
  rw [dif_pos (show (2 : Fin 4) ∈ dRows.scatterDimsToOperandDims from List.mem_singleton.mpr rfl)]
  exact hidx _

theorem rows_resultIdx (k : Nat) (hk : k ≤ 1) (idx : IVec S1 32) (hidx : ∀ c, (idx c).toInt = (k : Int))
    (j : S256x1x255x256.Idx) : dRows.resultIdx? j idx = some (shRows k hk j) := by
  refine resultIdx?_eq_some dRows j idx (shRows k hk j) (fun a => ?_)
  match a with
  | ⟨0, _⟩ => show (0 : Int) + ((j 0).val : Int) = ((j 0).val : Int); omega
  | ⟨1, _⟩ => show (0 : Int) + ((j 1).val : Int) = ((j 1).val : Int); omega
  | ⟨2, _⟩ =>
    show dRows.start j idx 2 + ((j 2).val : Int) = (((j 2).val + k : Nat) : Int)
    rw [rows_start idx k hidx j]; omega
  | ⟨3, _⟩ => show (0 : Int) + ((j 3).val : Int) = ((j 3).val : Int); omega

theorem shRows_inj (k : Nat) (hk : k ≤ 1) : Function.Injective (shRows k hk) := by
  intro j j' e
  funext a
  match a with
  | ⟨0, _⟩ => exact Fin.ext (congrArg (fun i : S256x1x256x256.Idx => (i 0).val) e)
  | ⟨1, _⟩ => exact Fin.ext (congrArg (fun i : S256x1x256x256.Idx => (i 1).val) e)
  | ⟨2, _⟩ =>
    have h2 : (j 2).val + k = (j' 2).val + k := congrArg (fun i : S256x1x256x256.Idx => (i 2).val) e
    exact Fin.ext (by show (j 2).val = (j' 2).val; omega)
  | ⟨3, _⟩ => exact Fin.ext (congrArg (fun i : S256x1x256x256.Idx => (i 3).val) e)

/-- THE ROW SCATTER AT A CELL: rows `k … k + 254` receive the update's rows `0 … 254`. -/
theorem scatter_rows_apply {α : Type} (k : Nat) (hk : k ≤ 1) (f : α → α → α) (x : S256x1x256x256.Idx → α)
    (idx : IVec S1 32) (hidx : ∀ c, (idx c).toInt = (k : Int)) (upd : S256x1x255x256.Idx → α)
    (n : Fin 256) (c : Fin 1) (h w : Fin 256) :
    Host.scatter dRows f x idx upd (ix4 n c h w) =
      if hh : k ≤ h.val ∧ h.val < k + 255 then
        f (x (ix4 n c h w)) (upd (ix4 (n0 := 256) (n1 := 1) (n2 := 255) (n3 := 256) n c ⟨h.val - k, by omega⟩ w))
      else x (ix4 n c h w) := by
  by_cases hh : k ≤ h.val ∧ h.val < k + 255
  · rw [dif_pos hh]
    have key := scatter_apply_of_inj dRows f x idx upd (shRows k hk) (rows_resultIdx k hk idx hidx) (shRows_inj k hk)
      (ix4 (n0 := 256) (n1 := 1) (n2 := 255) (n3 := 256) n c ⟨h.val - k, by omega⟩ w)
    have e : shRows k hk (ix4 (n0 := 256) (n1 := 1) (n2 := 255) (n3 := 256) n c ⟨h.val - k, by omega⟩ w) = ix4 n c h w := by
      funext a
      match a with
      | ⟨0, _⟩ => rfl
      | ⟨1, _⟩ => rfl
      | ⟨2, _⟩ => exact Fin.ext (by show h.val - k + k = h.val; omega)
      | ⟨3, _⟩ => rfl
    rw [e] at key
    exact key
  · rw [dif_neg hh]
    refine scatter_apply_of_not_range dRows f x idx upd (shRows k hk) (rows_resultIdx k hk idx hidx) _ (fun j e => hh ?_)
    have h2 : (j 2).val + k = h.val := congrArg (fun i : S256x1x256x256.Idx => (i 2).val) e
    have hlt : (j 2).val < 255 := (j 2).isLt
    omega

/-! ### Along the columns -/

/-- Where an update index lands: `k` columns further right. -/
def shCols (k : Nat) (hk : k ≤ 1) (j : S256x1x256x255.Idx) : S256x1x256x256.Idx :=
  ix4 (n0 := 256) (n1 := 1) (n2 := 256) (n3 := 256) ⟨(j 0).val, (j 0).isLt⟩ ⟨(j 1).val, (j 1).isLt⟩
    ⟨(j 2).val, (j 2).isLt⟩ ⟨(j 3).val + k, by have h3 : (j 3).val < 255 := (j 3).isLt; omega⟩

theorem cols_start (idx : IVec S1 32) (k : Int) (hidx : ∀ c, (idx c).toInt = k) (j : S256x1x256x255.Idx) :
    dCols.start j idx 3 = k := by
  unfold ScatterDims.start
  rw [dif_pos (show (3 : Fin 4) ∈ dCols.scatterDimsToOperandDims from List.mem_singleton.mpr rfl)]
  exact hidx _

theorem cols_resultIdx (k : Nat) (hk : k ≤ 1) (idx : IVec S1 32) (hidx : ∀ c, (idx c).toInt = (k : Int))
    (j : S256x1x256x255.Idx) : dCols.resultIdx? j idx = some (shCols k hk j) := by
  refine resultIdx?_eq_some dCols j idx (shCols k hk j) (fun a => ?_)
  match a with
  | ⟨0, _⟩ => show (0 : Int) + ((j 0).val : Int) = ((j 0).val : Int); omega
  | ⟨1, _⟩ => show (0 : Int) + ((j 1).val : Int) = ((j 1).val : Int); omega
  | ⟨2, _⟩ => show (0 : Int) + ((j 2).val : Int) = ((j 2).val : Int); omega
  | ⟨3, _⟩ =>
    show dCols.start j idx 3 + ((j 3).val : Int) = (((j 3).val + k : Nat) : Int)
    rw [cols_start idx k hidx j]; omega

theorem shCols_inj (k : Nat) (hk : k ≤ 1) : Function.Injective (shCols k hk) := by
  intro j j' e
  funext a
  match a with
  | ⟨0, _⟩ => exact Fin.ext (congrArg (fun i : S256x1x256x256.Idx => (i 0).val) e)
  | ⟨1, _⟩ => exact Fin.ext (congrArg (fun i : S256x1x256x256.Idx => (i 1).val) e)
  | ⟨2, _⟩ => exact Fin.ext (congrArg (fun i : S256x1x256x256.Idx => (i 2).val) e)
  | ⟨3, _⟩ =>
    have h3 : (j 3).val + k = (j' 3).val + k := congrArg (fun i : S256x1x256x256.Idx => (i 3).val) e
    exact Fin.ext (by show (j 3).val = (j' 3).val; omega)

/-- THE COLUMN SCATTER AT A CELL: columns `k … k + 254` receive the update's columns `0 … 254`. -/
theorem scatter_cols_apply {α : Type} (k : Nat) (hk : k ≤ 1) (f : α → α → α) (x : S256x1x256x256.Idx → α)
    (idx : IVec S1 32) (hidx : ∀ c, (idx c).toInt = (k : Int)) (upd : S256x1x256x255.Idx → α)
    (n : Fin 256) (c : Fin 1) (h w : Fin 256) :
    Host.scatter dCols f x idx upd (ix4 n c h w) =
      if hw : k ≤ w.val ∧ w.val < k + 255 then
        f (x (ix4 n c h w)) (upd (ix4 (n0 := 256) (n1 := 1) (n2 := 256) (n3 := 255) n c h ⟨w.val - k, by omega⟩))
      else x (ix4 n c h w) := by
  by_cases hw : k ≤ w.val ∧ w.val < k + 255
  · rw [dif_pos hw]
    have key := scatter_apply_of_inj dCols f x idx upd (shCols k hk) (cols_resultIdx k hk idx hidx) (shCols_inj k hk)
      (ix4 (n0 := 256) (n1 := 1) (n2 := 256) (n3 := 255) n c h ⟨w.val - k, by omega⟩)
    have e : shCols k hk (ix4 (n0 := 256) (n1 := 1) (n2 := 256) (n3 := 255) n c h ⟨w.val - k, by omega⟩) = ix4 n c h w := by
      funext a
      match a with
      | ⟨0, _⟩ => rfl
      | ⟨1, _⟩ => rfl
      | ⟨2, _⟩ => rfl
      | ⟨3, _⟩ => exact Fin.ext (by show w.val - k + k = w.val; omega)
    rw [e] at key
    exact key
  · rw [dif_neg hw]
    refine scatter_apply_of_not_range dCols f x idx upd (shCols k hk) (cols_resultIdx k hk idx hidx) _ (fun j e => hw ?_)
    have h3 : (j 3).val + k = w.val := congrArg (fun i : S256x1x256x256.Idx => (i 3).val) e
    have hlt : (j 3).val < 255 := (j 3).isLt
    omega

end Cert.ReferenceIdeal.HRef
-- ==== Proof.RefAdv.lean ====
/-
  One upwind advection step of the ice field, as the reference computes it, read at a cell.

  The reference scales the velocity, averages it onto the cell faces, takes the two upwind fluxes through every
  face, and accumulates the net gain of every cell into an array of zeros by four window scatters: the row faces'
  net flux into the rows below them and, negated, into the rows above them, then the same along the columns; the
  ice field plus that array is the advected field.  Read at a cell, each scatter adds its update where the cell
  has a face on that side and leaves the accumulator where it has none (the first and last row, the first and
  last column); so the advected cell is the ice plus the four face terms that exist, which is the specification's
  sum with a zero standing for each missing face.  Only commutativity and associativity of the sum and the unit
  law of zero are used: nothing here needs the entries to be finite.
-/
import proofs.«169949_j60610578481375_2_alg».proof.Proof.RefRead
import proofs.«169949_j60610578481375_2_alg».proof.Proof.RefScatter
import proofs.«169949_j60610578481375_2_alg».proof.Proof.Spec

noncomputable section

namespace Cert.ReferenceIdeal.HRef

open Idealize.ShloMosaic Idealize.ShloMosaic.ValueIdx Cert.ReferenceIdeal Cert.ReferenceIdeal.Gen
  Cert.ReferenceIdeal.ReadP Cert.Loss Cert.Lib

/-! ### The window scatters in the two positions the step uses -/

section Positions
variable {α : Type} (f : α → α → α) (x : S256x1x256x256.Idx → α) (idx : IVec S1 32)

/-- A 255-row window laid one row down: every row but the first receives the update's row above it. -/
theorem rows_one (hidx : ∀ c, (idx c).toInt = ((1 : Nat) : Int)) (upd : S256x1x255x256.Idx → α)
    (n : Fin 256) (h w : Fin 256) :
    Host.scatter dRows f x idx upd (ix4 n 0 h w) =
      if hh : h.val < 1 then x (ix4 n 0 h w)
      else f (x (ix4 n 0 h w))
        (upd (ix4 (n0 := 256) (n1 := 1) (n2 := 255) (n3 := 256) n 0 ⟨h.val - 1, by have := h.isLt; omega⟩ w)) := by
  rw [scatter_rows_apply 1 (le_refl 1) f x idx hidx upd n 0 h w]
  by_cases hh : h.val < 1
  · rw [dif_pos hh, dif_neg (show ¬(1 ≤ h.val ∧ h.val < 1 + 255) by omega)]
  · rw [dif_neg hh, dif_pos (show 1 ≤ h.val ∧ h.val < 1 + 255 by have := h.isLt; omega)]

/-- A 255-row window laid at the top: every row but the last receives the update's row of its own number. -/
theorem rows_zero (hidx : ∀ c, (idx c).toInt = ((0 : Nat) : Int)) (upd : S256x1x255x256.Idx → α)
    (n : Fin 256) (h w : Fin 256) :
    Host.scatter dRows f x idx upd (ix4 n 0 h w) =
      if hh : h.val < 255 then
        f (x (ix4 n 0 h w)) (upd (ix4 (n0 := 256) (n1 := 1) (n2 := 255) (n3 := 256) n 0 ⟨h.val, hh⟩ w))
      else x (ix4 n 0 h w) := by
  rw [scatter_rows_apply 0 (Nat.zero_le 1) f x idx hidx upd n 0 h w]
  by_cases hh : h.val < 255
  · rw [dif_pos hh, dif_pos (show 0 ≤ h.val ∧ h.val < 0 + 255 by omega)]
    rfl
  · rw [dif_neg hh, dif_neg (show ¬(0 ≤ h.val ∧ h.val < 0 + 255) by omega)]

/-- A 255-column window laid one column right. -/
theorem cols_one (hidx : ∀ c, (idx c).toInt = ((1 : Nat) : Int)) (upd : S256x1x256x255.Idx → α)
    (n : Fin 256) (h w : Fin 256) :
    Host.scatter dCols f x idx upd (ix4 n 0 h w) =
      if hw : w.val < 1 then x (ix4 n 0 h w)
      else f (x (ix4 n 0 h w))
        (upd (ix4 (n0 := 256) (n1 := 1) (n2 := 256) (n3 := 255) n 0 h ⟨w.val - 1, by have := w.isLt; omega⟩)) := by
  rw [scatter_cols_apply 1 (le_refl 1) f x idx hidx upd n 0 h w]
  by_cases hw : w.val < 1
  · rw [dif_pos hw, dif_neg (show ¬(1 ≤ w.val ∧ w.val < 1 + 255) by omega)]
  · rw [dif_neg hw, dif_pos (show 1 ≤ w.val ∧ w.val < 1 + 255 by have := w.isLt; omega)]

/-- A 255-column window laid at the left edge. -/
theorem cols_zero (hidx : ∀ c, (idx c).toInt = ((0 : Nat) : Int)) (upd : S256x1x256x255.Idx → α)
    (n : Fin 256) (h w : Fin 256) :
    Host.scatter dCols f x idx upd (ix4 n 0 h w) =
      if hw : w.val < 255 then
        f (x (ix4 n 0 h w)) (upd (ix4 (n0 := 256) (n1 := 1) (n2 := 256) (n3 := 255) n 0 h ⟨w.val, hw⟩))
      else x (ix4 n 0 h w) := by
  rw [scatter_cols_apply 0 (Nat.zero_le 1) f x idx hidx upd n 0 h w]
  by_cases hw : w.val < 255
  · rw [dif_pos hw, dif_pos (show 0 ≤ w.val ∧ w.val < 0 + 255 by omega)]
    rfl
  · rw [dif_neg hw, dif_neg (show ¬(0 ≤ w.val ∧ w.val < 0 + 255) by omega)]

end Positions

/-- The zero word subtracts as negation. -/
theorem zero_sub_eq (x : EReal) : zero - x = -x := by
  show Ideal.ofBits .f32 0x00000000#32 - x = -x
  rw [Ideal.ofBits_zero_f32, sub_eq_add_neg, zero_add]

/-! ### The step under the prediction's velocity (operations 65 to 113) -/

section Pred
variable (x0 x2 : ArrV) (x3 : ArrI) (n : Fin 256)

/-- The scaled velocity at a node. -/
theorem vel_cell (c : Fin 2) (h w : Fin 257) :
    val_main_v67 (F := Ideal) x0 x2 (ix4 n c h w) = vel (rdV x0 n) (rdV x2 n) c h w := by
  rw [val_main_v67_apply, val_main_v65_apply, val_main_v66_apply, val_main_cst_16_apply]
  rfl

/-- The row-face velocity. -/
theorem vx_cell (h' : Fin 255) (w : Fin 256) :
    val_main_v72 (F := Ideal) x0 x2 (ix4 n 0 h' w) = vx (vel (rdV x0 n) (rdV x2 n)) h' w := by
  have e68 : idx_main_v68 (ix4 n 0 h' w) =
      ix4 n 0 ⟨h'.val + 1, by have := h'.isLt; omega⟩ ⟨w.val + 1, by have := w.isLt; omega⟩ := by
    funext a
    match a with
    | ⟨0, _⟩ => rfl
    | ⟨1, _⟩ => rfl
    | ⟨2, _⟩ => exact Fin.ext (by show 1 + h'.val = h'.val + 1; omega)
    | ⟨3, _⟩ => exact Fin.ext (by show 1 + w.val = w.val + 1; omega)
  have e69 : idx_main_v69 (ix4 n 0 h' w) =
      ix4 n 0 ⟨h'.val + 1, by have := h'.isLt; omega⟩ ⟨w.val, by have := w.isLt; omega⟩ := by
    funext a
    match a with
    | ⟨0, _⟩ => rfl
    | ⟨1, _⟩ => rfl
    | ⟨2, _⟩ => exact Fin.ext (by show 1 + h'.val = h'.val + 1; omega)
    | ⟨3, _⟩ => rfl
  rw [val_main_v72_apply, val_main_v70_apply, val_main_v68_apply, val_main_v69_apply, val_main_v71_apply,
    val_main_cst_17_apply, e68, e69, vel_cell, vel_cell]
  rfl

/-- The flux out of the upper cell of a row face. -/
theorem fx_cell (h' : Fin 255) (w : Fin 256) :
    val_main_v77 (F := Ideal) x0 x2 x3 (ix4 n 0 h' w) = fx (vel (rdV x0 n) (rdV x2 n)) (rdI x3 n) h' w := by
  have e74 : idx_main_v74 (ix4 n 0 h' w) = ix4 n 0 ⟨h'.val, by have := h'.isLt; omega⟩ w := by
    funext a
    match a with
    | ⟨0, _⟩ => rfl
    | ⟨1, _⟩ => rfl
    | ⟨2, _⟩ => rfl
    | ⟨3, _⟩ => rfl
  rw [val_main_v77_apply, val_main_v75_apply, val_main_v73_apply, val_main_v74_apply, val_main_v76_apply,
    val_main_cst_18_apply, val_main_call4_v0_apply, val_main_call4_cst_apply, e74, vx_cell]
  rfl

/-- The flux out of the lower cell of a row face. -/
theorem gx_cell (h' : Fin 255) (w : Fin 256) :
    val_main_v83 (F := Ideal) x0 x2 x3 (ix4 n 0 h' w) = gx (vel (rdV x0 n) (rdV x2 n)) (rdI x3 n) h' w := by
  have e80 : idx_main_v80 (ix4 n 0 h' w) = ix4 n 0 ⟨h'.val + 1, by have := h'.isLt; omega⟩ w := by
    funext a
    match a with
    | ⟨0, _⟩ => rfl
    | ⟨1, _⟩ => rfl
    | ⟨2, _⟩ => exact Fin.ext (by show 1 + h'.val = h'.val + 1; omega)
    | ⟨3, _⟩ => rfl
  rw [val_main_v83_apply, val_main_v81_apply, val_main_v79_apply, val_main_v78_apply, val_main_v80_apply,
    val_main_v82_apply, val_main_cst_19_apply, val_main_call5_v0_apply, val_main_call5_cst_apply, e80, vx_cell]
  unfold gx
  rw [zero_sub_eq]
  rfl

/-- The column-face velocity. -/
theorem vy_cell (h : Fin 256) (w' : Fin 255) :
    val_main_v95 (F := Ideal) x0 x2 (ix4 n 0 h w') = vy (vel (rdV x0 n) (rdV x2 n)) h w' := by
  have e91 : idx_main_v91 (ix4 n 0 h w') =
      ix4 n 1 ⟨h.val + 1, by have := h.isLt; omega⟩ ⟨w'.val + 1, by have := w'.isLt; omega⟩ := by
    funext a
    match a with
    | ⟨0, _⟩ => rfl
    | ⟨1, _⟩ => rfl
    | ⟨2, _⟩ => exact Fin.ext (by show 1 + h.val = h.val + 1; omega)
    | ⟨3, _⟩ => exact Fin.ext (by show 1 + w'.val = w'.val + 1; omega)
  have e92 : idx_main_v92 (ix4 n 0 h w') =
      ix4 n 1 ⟨h.val, by have := h.isLt; omega⟩ ⟨w'.val + 1, by have := w'.isLt; omega⟩ := by
    funext a
    match a with
    | ⟨0, _⟩ => rfl
    | ⟨1, _⟩ => rfl
    | ⟨2, _⟩ => rfl
    | ⟨3, _⟩ => exact Fin.ext (by show 1 + w'.val = w'.val + 1; omega)
  rw [val_main_v95_apply, val_main_v93_apply, val_main_v91_apply, val_main_v92_apply, val_main_v94_apply,
    val_main_cst_22_apply, e91, e92, vel_cell, vel_cell]
  rfl

/-- The flux out of the left cell of a column face. -/
theorem fy_cell (h : Fin 256) (w' : Fin 255) :
    val_main_v100 (F := Ideal) x0 x2 x3 (ix4 n 0 h w') = fy (vel (rdV x0 n) (rdV x2 n)) (rdI x3 n) h w' := by
  have e97 : idx_main_v97 (ix4 n 0 h w') = ix4 n 0 h ⟨w'.val, by have := w'.isLt; omega⟩ := by
    funext a
    match a with
    | ⟨0, _⟩ => rfl
    | ⟨1, _⟩ => rfl
    | ⟨2, _⟩ => rfl
    | ⟨3, _⟩ => rfl
  rw [val_main_v100_apply, val_main_v98_apply, val_main_v96_apply, val_main_v97_apply, val_main_v99_apply,
    val_main_cst_23_apply, val_main_call6_v0_apply, val_main_call6_cst_apply, e97, vy_cell]
  rfl

/-- The flux out of the right cell of a column face. -/
theorem gy_cell (h : Fin 256) (w' : Fin 255) :
    val_main_v106 (F := Ideal) x0 x2 x3 (ix4 n 0 h w') = gy (vel (rdV x0 n) (rdV x2 n)) (rdI x3 n) h w' := by
  have e103 : idx_main_v103 (ix4 n 0 h w') = ix4 n 0 h ⟨w'.val + 1, by have := w'.isLt; omega⟩ := by
    funext a
    match a with
    | ⟨0, _⟩ => rfl
    | ⟨1, _⟩ => rfl
    | ⟨2, _⟩ => rfl
    | ⟨3, _⟩ => exact Fin.ext (by show 1 + w'.val = w'.val + 1; omega)
  rw [val_main_v106_apply, val_main_v104_apply, val_main_v102_apply, val_main_v101_apply, val_main_v103_apply,
    val_main_v105_apply, val_main_cst_24_apply, val_main_call7_v0_apply, val_main_call7_cst_apply, e103, vy_cell]
  unfold gy
  rw [zero_sub_eq]
  rfl

/-- The four index operands' one entry. -/
theorem idx_v86 (c : S1.Idx) : (val_main_v86 (F := Ideal) c).toInt = ((1 : Nat) : Int) := by
  rw [val_main_v86_apply, val_main_c_apply]; decide
theorem idx_v89 (c : S1.Idx) : (val_main_v89 (F := Ideal) c).toInt = ((0 : Nat) : Int) := by
  rw [val_main_v89_apply, val_main_c_21_apply]; decide
theorem idx_v108 (c : S1.Idx) : (val_main_v108 (F := Ideal) c).toInt = ((1 : Nat) : Int) := by
  rw [val_main_v108_apply, val_main_c_25_apply]; decide
theorem idx_v111 (c : S1.Idx) : (val_main_v111 (F := Ideal) c).toInt = ((0 : Nat) : Int) := by
  rw [val_main_v111_apply, val_main_c_26_apply]; decide

/-- THE ADVECTED CELL: the reference's step is the specification's. -/
theorem adv_cell (h w : Fin 256) :
    val_main_v113 (F := Ideal) x0 x2 x3 (ix4 n 0 h w) = adv (vel (rdV x0 n) (rdV x2 n)) (rdI x3 n) h w := by
  rw [val_main_v113_apply]
  unfold val_main_v112
  rw [cols_zero _ _ _ (idx_v111) _ n h w]
  unfold val_main_v109
  rw [cols_one _ _ _ (idx_v108) _ n h w]
  unfold val_main_v90
  rw [rows_zero _ _ _ (idx_v89) _ n h w]
  unfold val_main_v87
  rw [rows_one _ _ _ (idx_v86) _ n h w]
  rw [val_main_v84_apply, val_main_cst_20_apply]
  unfold adv dHx dHy
  by_cases h1 : h.val < 1 <;> by_cases h2 : h.val < 255 <;> by_cases w1 : w.val < 1 <;> by_cases w2 : w.val < 255 <;>
    simp only [dif_pos, dif_neg, h1, h2, w1, w2, not_false_eq_true, val_main_v85_apply, val_main_v88_apply,
      val_main_v107_apply, val_main_v110_apply, fx_cell, gx_cell, fy_cell, gy_cell, Ideal.ofBits_def,
      Ideal.addf_def, Ideal.subf_def, Ideal.ofBits_zero_f32, zero_add, add_zero, add_assoc, rdI]

end Pred

/-! ### The interface: both advected fields at a cell -/

/-- The field advected under the prediction's velocity, at a cell. -/
theorem adv1_at (x0 x2 : ArrV) (x3 : ArrI) (n h w : Fin 256) :
    val_main_v113 (F := Ideal) x0 x2 x3 (ix4 n (0 : Fin 1) h w) = adv (vel (rdV x0 n) (rdV x2 n)) (rdI x3 n) h w :=
  adv_cell x0 x2 x3 n h w

/-- The label's advected field is the same composition of operations as the prediction's, taken at the label. -/
theorem adv_label_eq (x1 x2 : ArrV) (x3 : ArrI) :
    val_main_v162 (F := Ideal) x1 x2 x3 = val_main_v113 (F := Ideal) x1 x2 x3 := rfl

/-- The field advected under the label's velocity, at a cell. -/
theorem adv2_at (x1 x2 : ArrV) (x3 : ArrI) (n h w : Fin 256) :
    val_main_v162 (F := Ideal) x1 x2 x3 (ix4 n (0 : Fin 1) h w) = adv (vel (rdV x1 n) (rdV x2 n)) (rdI x3 n) h w := by
  rw [adv_label_eq]
  exact adv_cell x1 x2 x3 n h w

end Cert.ReferenceIdeal.HRef

end
-- ==== Proof.RefTot5.lean ====
/-
  The reference's concentration total is the specification's.

  Each of the reference's two advected ice fields is, at every sample and cell, the specification's one upwind step (with the
  prediction's velocity, and with the label's); so the squared difference is the specification's integrand cell by cell, and
  the sum of all entries is the sum over the samples of each sample's sum over its cells.
-/
import proofs.«169949_j60610578481375_2_alg».proof.Proof.RefTotalMce
import proofs.«169949_j60610578481375_2_alg».proof.Proof.RefAdv

noncomputable section

namespace Cert.ReferenceIdeal.HRef

open Idealize.ShloMosaic Idealize.ShloMosaic.ValueIdx Cert.ReferenceIdeal Cert.ReferenceIdeal.ReadP Cert.Loss

/-- The reference's sum of the squared differences of the two advected fields is total 5 of the specification. -/
theorem tot5 (x0 x1 x2 : ArrV) (x3 : ArrI) :
    val_main_v165 (F := Ideal) x0 x1 x2 x3 = fun _ => Cert.Loss.total x0 x1 x2 x3 5 :=
  tot5_of x0 x1 x2 x3 fun n h w =>
    mce_of_adv x0 x1 x2 x3 n h w (adv1_at x0 x2 x3 n h w) (adv2_at x1 x2 x3 n h w)

end Cert.ReferenceIdeal.HRef

end
-- ==== Proof.lean ====
/- The proof of `Cert.Claim`: the three frames, the (empty) idealization ledger, and the algebraic equality of the two idealized
   programs' results.

   Mathematics. Both programs compute ten numbers from a prediction, a label and a previous-velocity field on 256 samples of a
   2 × 257 × 257 node grid and an ice field on 256 × 256 cells: six sums over all samples (absolute error, squared error, a
   strain-rate integrand of the error's central differences, two relative errors, and the squared difference of two upwind
   advection steps), each divided by its element count, and four sums of those means.  The kernel forms the six sums sample by
   sample, lays each sample's six numbers in one row of an otherwise zero 8 × 128 tile, and the host adds the 2048 rows; the
   reference forms each sum over the whole array at once.  On the extended reals a finite sum may be regrouped and reordered
   freely, a zero summand may be dropped, x / 1 / 2 is x · (1/2), and 0 − x is −x; nothing else separates the two programs, so the
   equality needs no finiteness of the inputs.  `Cert.Loss` (Proof/Spec.lean) states the six per-sample sums over explicit
   coordinates and the shared tail; the kernel's stored tile, its rows array and the host tail are read in Proof/KStored.lean and
   Proof/KernelValue.lean, the reference's six sums in Proof/RefTotAbsSq.lean, RefTotStrain.lean, RefTotRel.lean and RefTot5.lean.

   Frames. Each kernel program is one pipelined region (grid of 256 points, four input windows, one output window whose staging
   buffer the body loads once and then overwrites whole) followed by host operations that write fresh buffers only: the body's
   triple, the proof data and the launch are in Proof/FrameK.lean and Proof/FrameKI.lean.  The reference is a straight-line host
   program; its run (Proof/RefAfter.lean, Proof/RefRun.lean) states the result buffer at the value the operations compose, and its
   frame is that run with the result dropped. -/
import proofs.«169949_j60610578481375_2_alg».proof.Defs
import proofs.«169949_j60610578481375_2_alg».proof.Proof.Gen.Kernel
import proofs.«169949_j60610578481375_2_alg».proof.Proof.Gen.KernelIdeal
import proofs.«169949_j60610578481375_2_alg».proof.Proof.Gen.ReferenceIdeal
import proofs.«169949_j60610578481375_2_alg».proof.Proof.Gen.Pre_finite_inputs
import proofs.«169949_j60610578481375_2_alg».proof.Proof.FrameK
import proofs.«169949_j60610578481375_2_alg».proof.Proof.FrameKI
import proofs.«169949_j60610578481375_2_alg».proof.Proof.KernelValue
import proofs.«169949_j60610578481375_2_alg».proof.Proof.RefRun
import proofs.«169949_j60610578481375_2_alg».proof.Proof.RefResult
import proofs.«169949_j60610578481375_2_alg».proof.Proof.RefTotAbsSq
import proofs.«169949_j60610578481375_2_alg».proof.Proof.RefTotStrain
import proofs.«169949_j60610578481375_2_alg».proof.Proof.RefTotRel
import proofs.«169949_j60610578481375_2_alg».proof.Proof.RefTot5
import Idealize.ShloMosaic.Adequacy
import Idealize.ShloMosaic.Init

noncomputable section

namespace Cert.Proof

open Idealize.ShloMosaic Idealize.SL.Sem

/-- The word-level kernel runs, faults nowhere and leaves its arguments as launched. -/
theorem frame_k : Cert.frame_Kernel := fun m ρ _ => Cert.Kernel.HFrame.frame m ρ

/-- So does the idealized kernel. -/
theorem frame_ki : Cert.frame_KernelIdeal := fun m ρ _ => Cert.KernelIdeal.HFrame.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.HRun.run (F := Ideal) m ρ)

/-- Both idealized programs end with the specification's ten results of the (agreeing) arguments. -/
theorem algebraic : Cert.algebraic_KernelIdeal_ReferenceIdeal := by
  intro m ρ m' ρ' _ hagree
  refine ⟨_, Cert.KernelIdeal.HValue.run m ρ, ?_⟩
  refine (θ_run Cert.ReferenceIdeal.defs _ _).mono (fun _ h c => ⟨(h c).1.trans ?_, (h c).2⟩)
    (Cert.ReferenceIdeal.HRun.run (F := Ideal) m' ρ')
  rw [Cert.ReferenceIdeal.HRef.result_of_totals _ _ _ _ (Cert.ReferenceIdeal.HRef.tot0 _ _ _ _) (Cert.ReferenceIdeal.HRef.tot1 _ _ _ _)
      (Cert.ReferenceIdeal.HRef.tot2 _ _ _ _) (Cert.ReferenceIdeal.HRef.tot3 _ _ _ _) (Cert.ReferenceIdeal.HRef.tot4 _ _ _ _)
      (Cert.ReferenceIdeal.HRef.tot5 _ _ _ _),
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
